-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v24_0)) (v2 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S1x64 : Shape := ⟨2, ![1, 64]⟩
abbrev S800000 : Shape := ⟨1, ![800000]⟩
abbrev S256x64 : Shape := ⟨2, ![256, 64]⟩
abbrev S64 : Shape := ⟨1, ![64]⟩
abbrev S64x64 : Shape := ⟨2, ![64, 64]⟩
abbrev S192x64 : Shape := ⟨2, ![192, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S192x64 .f32) (main_arg14 : FVec F S64 .f32) (main_arg15 : FVec F S64x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S192x64 .f32 := Host.absf main_arg13
  let main_cst_20 : FVec F S_ .f32 := constant S_ .f32 0x7F800000#32
  let main_v55 : FVec F S192x64 .f32 := broadcastInDim S192x64 ![] bcast_S_S192x64 main_cst_20
  let main_v56 : IVec S192x64 1 := cmpf .olt main_v54 main_v55
  let main_c_21 : IVec S_ 1 := constantI S_ 1 1#1
  let main_v57 : IVec S_ 1 := (fun x v => Host.reduce IntOp.andi x v reducesTo_S192x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_v63 main_v67

def fn_part2 {F : FTy → Type} [FloatOps F] (main_arg9 : FVec F S256x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S256x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : FVec F S800000x64 .f32) (main_arg2 : FVec F S1x64 .f32) (main_arg3 : IVec S800000 32) (main_arg4 : IVec S800000 32) (main_arg5 : FVec F S256x64 .f32) (main_arg6 : FVec F S64 .f32) (main_arg7 : FVec F S64x64 .f32) (main_arg8 : FVec F S64 .f32) (main_arg9 : FVec F S256x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x64 : Shape := ⟨2, ![800000, 64]⟩
abbrev S1x64 : Shape := ⟨2, ![1, 64]⟩
abbrev S800000 : Shape := ⟨1, ![800000]⟩
abbrev S256x64 : Shape := ⟨2, ![256, 64]⟩
abbrev S64 : Shape := ⟨1, ![64]⟩
abbrev S64x64 : Shape := ⟨2, ![64, 64]⟩
abbrev S192x64 : Shape := ⟨2, ![192, 64]⟩
abbrev S_ : Shape := ⟨0, ![]⟩
abbrev S800000x1 : Shape := ⟨2, ![800000, 1]⟩
abbrev S16x64 : Shape := ⟨2, ![16, 64]⟩
abbrev S8000x64 : Shape := ⟨2, ![8000, 64]⟩
abbrev S8x64 : Shape := ⟨2, ![8, 64]⟩
abbrev S50000 : Shape := ⟨1, ![50000]⟩
abbrev S50000x1 : Shape := ⟨2, ![50000, 1]⟩
abbrev S5000x64 : Shape := ⟨2, ![5000, 64]⟩
abbrev S1x192 : Shape := ⟨2, ![1, 192]⟩

abbrev nBuf : Space → Nat
  | .hbm => 111
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S1x64, .f32⟩
  | .hbm, ⟨3, _⟩ => ⟨S800000, .i32⟩
  | .hbm, ⟨4, _⟩ => ⟨S800000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S192x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x64, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .bf16⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S800000x64, .f32⟩
  | .hbm, ⟨46, _⟩ => ⟨S16x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S50000x64, .f32⟩
  | .hbm, ⟨91, _⟩ => ⟨S16x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S_, .f32⟩
  | .hbm, ⟨96, _⟩ => ⟨S1x64, .f32⟩
  | .hbm, ⟨97, _⟩ => ⟨S1x64, .f32⟩
  | .hbm, ⟨98, _⟩ => ⟨S_, .f32⟩
  | .hbm, ⟨99, _⟩ => ⟨S1x64, .f32⟩
  | .hbm, ⟨100, _⟩ => ⟨S1x64, .f32⟩
  | .hbm, ⟨101, _⟩ => ⟨S1x192, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S_, .f32⟩
  | .hbm, ⟨106, _⟩ => ⟨S1x64, .f32⟩
  | .hbm, ⟨107, _⟩ => ⟨S1x64, .f32⟩
  | .hbm, ⟨108, _⟩ => ⟨S1x64, .f32⟩
  | .hbm, ⟨109, _⟩ => ⟨S1x64, .f32⟩
  | .hbm, ⟨110, _⟩ => ⟨S1x64, .f32⟩
  | .local _ .vmem, ⟨0, _⟩ => ⟨S8000x64, .f32⟩
  | .local _ .vmem, ⟨1, _⟩ => ⟨S8000x64, .f32⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S8x64, .f32⟩
  | .local _ .vmem, ⟨15, _⟩ => ⟨S8x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S8x64, .f32⟩
  | .local _ .vmem, ⟨31, _⟩ => ⟨S8x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60_0 : Ref sig .tc := ⟨.hbm, 90, rfl⟩
abbrev main_v60_1 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call0_cst : Ref sig .tc := ⟨.hbm, 105, rfl⟩
abbrev main_call0_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S64_S1x64 : S64.ShapeCasts S1x64
  inb_S8x64_S8x64_0_0 : ∀ a, (![0, 0] : Fin 2 → Nat) a + S8x64.size a ≤ S8x64.size a
  h_S8x64 : 0 < S8x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S64 : S8000x64.Reduces [0] S64
  shapeCasts_S8x64_S8x64 : S8x64.ShapeCasts S8x64
  broadcasts_S1x64_S8x64 : S1x64.Broadcasts S8x64
  slices_S16x64_S1x64_0_0 : S16x64.Slices ![0, 0] S1x64
  slices_S16x64_S1x64_8_0 : S16x64.Slices ![8, 0] S1x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  concatenates_S1x64_S1x64_S1x64_S1x192_d1 : Shape.Concatenates [S1x64, S1x64, S1x64] S1x192 1
  bcast_S64_S1x64_1 : S64.BroadcastsInDim S1x64 (![1] : Fin 1 → Fin S1x64.rank)
  gather_S50000x64_S800000x1_S800000x64_1_0_n_n_0_1_164_wf : GatherDims.WF S50000x64 S800000x1 S800000x64 [1] [0] [] [0] [] 1 ![1, 64]
  dot_S1x64_S64x64_S1x64_1_0_0_1_n_n_wf : DotDims.WF S1x64 S64x64 S1x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  dot_S1x192_S192x64_S1x64_1_0_0_1_n_n_wf : DotDims.WF S1x192 S192x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .bf16 = 32 ∨ (Rect.block (s := S800000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x64.size a ≤ S16x64.size a
  hwx0_10 : ∀ i : grid0.Coords, EltTy.bits .f32 = 32 ∨ (Rect.block (s := S16x64) S8x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8x64.size a ≤ S16x64.size a
  hwx1_10 : ∀ i : grid1.Coords, EltTy.bits .f32 = 32 ∨ (Rect.block (s := S16x64) S8x64.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x192_S192x64_S1x64_1_0_0_1_n_n : DotDims S1x192 S192x64 S1x64 where
  lhsContracting := [1]
  rhsContracting := [0]
  lhsNonContracting := [0]
  rhsNonContracting := [1]
  lhsBatch := []
  rhsBatch := []
  wf := dot_S1x192_S192x64_S1x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24_0) S8000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v24_1) S8x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v60_0) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v60_1) S8x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S1x64 : Shape := ⟨2, ![1, 64]⟩
abbrev S800000 : Shape := ⟨1, ![800000]⟩
abbrev S256x64 : Shape := ⟨2, ![256, 64]⟩
abbrev S64 : Shape := ⟨1, ![64]⟩
abbrev S64x64 : Shape := ⟨2, ![64, 64]⟩
abbrev S192x64 : Shape := ⟨2, ![192, 64]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x256 : Shape := ⟨2, ![50000, 256]⟩
abbrev S1x192 : Shape := ⟨2, ![1, 192]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S1x64, .f32⟩
  | .hbm, ⟨3, _⟩ => ⟨S800000, .i32⟩
  | .hbm, ⟨4, _⟩ => ⟨S800000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S192x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .f32⟩
  | .hbm, ⟨37, _⟩ => ⟨S800000x256, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S1x64, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x256, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S1x192, .f32⟩
  | .hbm, ⟨107, _⟩ => ⟨S1x64, .f32⟩
  | .hbm, ⟨108, _⟩ => ⟨S1x64, .f32⟩
  | .hbm, ⟨109, _⟩ => ⟨S1x64, .f32⟩
  | .hbm, ⟨110, _⟩ => ⟨S_, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call1_cst : Ref sig .tc := ⟨.hbm, 87, rfl⟩
abbrev main_call1_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call2_cst : Ref sig .tc := ⟨.hbm, 110, rfl⟩
abbrev main_call2_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]

class Facts₀ : Prop where
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S64_S800000x64_1 : S64.BroadcastsInDim S800000x64 (![1] : Fin 1 → Fin S800000x64.rank)
  concatenates_S800000x64_S800000x64_S800000x64_S800000x64_S800000x256_d1 : Shape.Concatenates [S800000x64, S800000x64, S800000x64, S800000x64] S800000x256 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S50000x64_1 : S64.BroadcastsInDim S50000x64 (![1] : Fin 1 → Fin S50000x64.rank)
  concatenates_S50000x64_S50000x64_S50000x64_S50000x64_S50000x256_d1 : Shape.Concatenates [S50000x64, S50000x64, S50000x64, S50000x64] S50000x256 1
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  reducesTo_S800000x64_S64_d0 : S800000x64.ReducesTo [0] S64
  concatenates_S1x64_S1x64_S1x64_S1x192_d1 : Shape.Concatenates [S1x64, S1x64, S1x64] S1x192 1
  gather_S50000x64_S800000x1_S800000x64_1_0_n_n_0_1_164_wf : GatherDims.WF S50000x64 S800000x1 S800000x64 [1] [0] [] [0] [] 1 ![1, 64]
  dot_S800000x256_S256x64_S800000x64_1_0_0_1_n_n_wf : DotDims.WF S800000x256 S256x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  dot_S50000x64_S64x64_S50000x64_1_0_0_1_n_n_wf : DotDims.WF S50000x64 S64x64 S50000x64 [1] [0] [0] [1] [] []
  dot_S1x192_S192x64_S1x64_1_0_0_1_n_n_wf : DotDims.WF S1x192 S192x64 S1x64 [1] [0] [0] [1] [] []
  dot_S1x64_S64x64_S1x64_1_0_0_1_n_n_wf : DotDims.WF S1x64 S64x64 S1x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x192_S192x64_S1x64_1_0_0_1_n_n : DotDims S1x192 S192x64 S1x64 where
  lhsContracting := [1]
  rhsContracting := [0]
  lhsNonContracting := [0]
  rhsNonContracting := [1]
  lhsBatch := []
  rhsBatch := []
  wf := dot_S1x192_S192x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

class Facts : Prop extends Facts₀ where

variable [Facts]
-- ==== Proof.K.R0Kit.lean ====
/-
  Region 0 of the program (the perceptron over tiles of 8000 rows): what its body is run on.

  At every grid point the pipeline hands the body one staging buffer per window. An input window's buffer holds the
  window's block of its array at that point, whether the block was fetched at this point or kept from an earlier one
  (the weights are fetched once). The body's one branch — "is this the first step of the core's row of the grid" —
  is decided by the point's number. The two output windows' contents are stated through one staging buffer each.
-/
import proofs.«128321_j38912403702319_2_alg».proof.Proof.Gen.Kernel.Launch
import proofs.«128321_j38912403702319_2_alg».proof.Proof.Gen.Kernel.Skeleton
import proofs.«128321_j38912403702319_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents when the region is entered, one buffer per reference. -/
abbrev Conts (F : FTy → Type) [FloatOps F] : Type := (c : Dev nD) → (b : Ref sig .tc) → Buf (Elt F) ((c : Thread nD τ).loc b)

variable (V : Conts F)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body's branch condition from the grid coordinates: the step coordinate is 0. -/
abbrev cond (i : grid0.Coords) : Prop := (Scalar.cmpi .ne (Scalar.extui (Scalar.cmpi .eq (BitVec.ofNat 32 (i 1).val) 0#32)) 0#32) = 1#1
/-- It holds exactly at the first step of each core's row of the grid. -/
theorem hcond : ∀ t : Fin cfg0.N, cond (grid0.coords t) ↔ t.val % 50 = 0 :=
  (by decide +kernel : ∀ t : Fin grid0.N, cond (grid0.coords t) ↔ t.val % 50 = 0)

/-- One staging buffer of each output window, through which its contents are stated. -/
abbrev VO9 : View sig .tc .vmem S8000x64 .f32 := (Memref.whole cc0_stg9_0 : Memref sig .tc .vmem S8000x64 .f32).view
abbrev VO10 : View sig .tc .vmem S8x64 .f32 := (Memref.whole cc0_stg10_0 : Memref sig .tc .vmem S8x64 .f32).view
abbrev ms0 (t : Fin cfg0.N) : Memref sig .tc .vmem S8000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8000x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8000x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8000x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x64 .f32 := win0_10.stage (cfg0.slots t 10)
abbrev hs10 (t : Fin cfg0.N) : (ms10 t).IsWhole := hstage0_10 ((cfg0.slots t 10).cast nbuf0_10)

end Cert.Kernel.R0

end
-- ==== Proof.K.R0RunA.lean ====
/-
  Region 0's body run once, at the first step of a core's row of the grid: the column-sum block is first set to zero,
  then the tile's perceptron output is stored and its column sums are added to the block. On whole staging buffers —
  the nine inputs at their contents, the output tile's buffer at anything, the column-sum buffer at anything —
  the body runs to the end, the inputs unchanged, each output buffer with the stores' pieces written; the pieces are what
  the run finds.
-/
import proofs.«128321_j38912403702319_2_alg».proof.Proof.K.R0Kit

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunA (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i)
    (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) :
    Σ' (L9 : List (View.Piece (Elt F) S8000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlp_update_kernel_eq_skeleton]; unfold cc0__mlp_update_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.Kernel.R0

end
-- ==== Proof.K.R0RunB.lean ====
/-
  Region 0's body run once, at a later step: the column-sum block holds the running total the step before left,
  then the tile's perceptron output is stored and its column sums are added to the block. On whole staging buffers —
  the nine inputs at their contents, the output tile's buffer at anything, the column-sum buffer at the running total —
  the body runs to the end, the inputs unchanged, each output buffer with the stores' pieces written; the pieces are what
  the run finds.
-/
import proofs.«128321_j38912403702319_2_alg».proof.Proof.K.R0Kit

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunB (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i)
    (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    Σ' (L9 : List (View.Piece (Elt F) S8000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlp_update_kernel_eq_skeleton]; unfold cc0__mlp_update_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.Kernel.R0

end
-- ==== Proof.K.R0Data.lean ====
/-
  Region 0: what its two output windows hold after every grid point, and the body's obligation at every point.

  The output tile's buffer is covered afresh at every point by one store. The column-sum block is carried: at the
  first step of a core's row of the grid it is set to zero and the tile's column sums are added; at a later step the
  tile's column sums are added to what the step before left (the block is not written back in between). So the block's
  contents after point n are defined by recursion on n, and the body's run at point n — the case its number selects —
  is applied to the blocks the input windows hold there and, at a later step, to the block's contents after point n − 1.
-/
import proofs.«128321_j38912403702319_2_alg».proof.Proof.K.R0RunA
import proofs.«128321_j38912403702319_2_alg».proof.Proof.K.R0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- Each case's pieces for each output tile its block, so they cover it. -/
theorem cover_A_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (y : S8000x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1 S8000x64.size (by sl_kernel_rfl) y
theorem cover_A_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (y : S8x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1 S8x64.size (by sl_kernel_rfl) y
theorem cover_B_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S8000x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1 S8000x64.size (by sl_kernel_rfl) y
theorem cover_B_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S8x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1 S8x64.size (by sl_kernel_rfl) y

/-- What each case leaves in each output's staging buffer: its pieces read back. -/
def out_A_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) : Vec F S8000x64 .f32 :=
  VO9.read (Elt F) (VO9.writes (Elt F) VO9.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1)
def out_A_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) : Vec F S8x64 .f32 :=
  VO10.read (Elt F) (VO10.writes (Elt F) VO10.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1)
def out_B_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S8000x64 .f32 :=
  VO9.read (Elt F) (VO9.writes (Elt F) VO9.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1)
def out_B_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S8x64 .f32 :=
  VO10.read (Elt F) (VO10.writes (Elt F) VO10.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1)

/-- The column-sum block after the body at point n. -/
def accAt (c : Dev nD) : (n : ℕ) → n < cfg0.N → Vec F S8x64 .f32
  | 0, hn => out_A_10 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩)
  | n + 1, hn =>
    if h0 : (n + 1) % 50 = 0 then
      out_A_10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩)
    else
      out_B_10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (accAt c n (Nat.lt_of_succ_lt hn))

theorem accAt_A (c : Dev nD) (t : Fin cfg0.N) (h0 : t.val % 50 = 0) :
    accAt V c t.val t.isLt = out_A_10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := by
  obtain ⟨n, hn⟩ := t
  cases n with
  | zero => exact rfl
  | succ n => exact (dif_pos h0).trans rfl

theorem accAt_B (c : Dev nD) (t : Fin cfg0.N) (h0 : ¬t.val % 50 = 0) :
    accAt V c t.val t.isLt = out_B_10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The output tile after the body at point t. -/
def tileAt (c : Dev nD) (t : Fin cfg0.N) : Vec F S8000x64 .f32 :=
  if h0 : t.val % 50 = 0 then
    out_A_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t)
  else
    out_B_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))

theorem tileAt_A (c : Dev nD) (t : Fin cfg0.N) (h0 : t.val % 50 = 0) :
    tileAt V c t = out_A_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := dif_pos h0
theorem tileAt_B (c : Dev nD) (t : Fin cfg0.N) (h0 : ¬t.val % 50 = 0) :
    tileAt V c t = out_B_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := dif_neg h0

/-- The region's proof data on core c: the arrays as the region finds them; after the body at point t each input's
    buffer at its block, the output tile's at `tileAt`, the column-sum block's at `accAt`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => tileAt V c t
    | ⟨10, _⟩ => accAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = tileAt V c t := by dsimp only [dat]
theorem after10 (c : Dev nD) (t : Fin cfg0.N) : (dat V c).after 10 t = accAt V c t.val t.isLt := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d
theorem before7 (c : Dev nD) (t : Fin cfg0.N) (d) : (dat V c).before 7 t d = iblk V c 7 t :=
  before7_of V (dat V c) (A_eq V c 7) (after7 V c) t d
theorem before8 (c : Dev nD) (t : Fin cfg0.N) (d) : (dat V c).before 8 t d = iblk V c 8 t :=
  before8_of V (dat V c) (A_eq V c 8) (after8 V c) t d

/-- At a later step of a core's row the column-sum block's buffer holds what the body left at the point before: the
    buffer was not written back in between. -/
theorem before10_B (c : Dev nD) (t : Fin cfg0.N) (h0 : ¬t.val % 50 = 0) (d) :
    (dat V c).before 10 t d = accAt V c (t.val - 1) (Nat.lt_of_le_of_lt (Nat.sub_le _ _) t.isLt) := by
  have hN : t.val < 100 := lt_of_lt_of_eq t.isLt (show cfg0.N = 100 from N_0)
  rw [Dat.before_out_kept _ 10 rfl t (by omega) (Bool.eq_false_iff.mpr fun h => by have := (flush0_10 _).mp h; dsimp only at this; omega)
    (fun _ => rfl) (fun _ _ => rfl)]
  dsimp only [dat]

end Cert.Kernel.R0

end
-- ==== Proof.K.R0Body.lean ====
/-
  Region 0: the body's obligation at every grid point. The input windows' buffers hold their blocks; the point's
  number says which case the body is in; at a later step the column-sum block holds what the step before left; so the
  case's run applies, and it leaves every buffer at what the proof data say.
-/
import proofs.«128321_j38912403702319_2_alg».proof.Proof.K.R0Data

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t))

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9, after10]
  have hN : t.val < 100 := lt_of_lt_of_eq t.isLt (show cfg0.N = 100 from N_0)
  by_cases h0 : t.val % 50 = 0
  · rw [accAt_A V c t h0, tileAt_A V c t h0]
    unfold out_A_9 out_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunA c (grid0.coords t) _ _ _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t) (iblk V c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_A_10 c _ _ _ _ _ _ _ _ _ _ _ _ _ _ _ _ _ _ _ _ _ _ _ _ _ _ _ _ _ _ _ _ _)
  · rw [accAt_B V c t h0, tileAt_B V c t h0]
    simp only [before10_B V c t h0]
    unfold out_B_9 out_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunB c (grid0.coords t) _ _ _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) (iblk V c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_B_10 c _ _ _ _ _ _ _ _ _ _ _ _ _ _ _ _ _ _ _ _ _ _ _ _ _ _ _ _ _ _ _ _ _ _)

/-- The body obligation of the region's proof data, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.R1Kit.lean ====
/-
  Region 1 of the program (the perceptron over tiles of 5000 rows): what its body is run on.

  At every grid point the pipeline hands the body one staging buffer per window. An input window's buffer holds the
  window's block of its array at that point, whether the block was fetched at this point or kept from an earlier one
  (the weights are fetched once). The body's one branch — "is this the first step of the core's row of the grid" —
  is decided by the point's number. The two output windows' contents are stated through one staging buffer each.
-/
import proofs.«128321_j38912403702319_2_alg».proof.Proof.Gen.Kernel.Launch
import proofs.«128321_j38912403702319_2_alg».proof.Proof.Gen.Kernel.Skeleton
import proofs.«128321_j38912403702319_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents when the region is entered, one buffer per reference. -/
abbrev Conts (F : FTy → Type) [FloatOps F] : Type := (c : Dev nD) → (b : Ref sig .tc) → Buf (Elt F) ((c : Thread nD τ).loc b)

variable (V : Conts F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body's branch condition from the grid coordinates: the step coordinate is 0. -/
abbrev cond (i : grid1.Coords) : Prop := (Scalar.cmpi .ne (Scalar.extui (Scalar.cmpi .eq (BitVec.ofNat 32 (i 1).val) 0#32)) 0#32) = 1#1
/-- It holds exactly at the first step of each core's row of the grid. -/
theorem hcond : ∀ t : Fin cfg1.N, cond (grid1.coords t) ↔ t.val % 5 = 0 :=
  (by decide +kernel : ∀ t : Fin grid1.N, cond (grid1.coords t) ↔ t.val % 5 = 0)

/-- One staging buffer of each output window, through which its contents are stated. -/
abbrev VO9 : View sig .tc .vmem S5000x64 .f32 := (Memref.whole cc1_stg9_0 : Memref sig .tc .vmem S5000x64 .f32).view
abbrev VO10 : View sig .tc .vmem S8x64 .f32 := (Memref.whole cc1_stg10_0 : Memref sig .tc .vmem S8x64 .f32).view
abbrev ms0 (t : Fin cfg1.N) : Memref sig .tc .vmem S5000x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S5000x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S5000x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S64x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S64x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S64x64 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x64 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S64x64 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x64 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S5000x64 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S8x64 .f32 := win1_10.stage (cfg1.slots t 10)
abbrev hs10 (t : Fin cfg1.N) : (ms10 t).IsWhole := hstage1_10 ((cfg1.slots t 10).cast nbuf1_10)

end Cert.Kernel.R1

end
-- ==== Proof.K.R1RunA.lean ====
/-
  Region 1's body run once, at the first step of a core's row of the grid: the column-sum block is first set to zero,
  then the tile's perceptron output is stored and its column sums are added to the block. On whole staging buffers —
  the nine inputs at their contents, the output tile's buffer at anything, the column-sum buffer at anything —
  the body runs to the end, the inputs unchanged, each output buffer with the stores' pieces written; the pieces are what
  the run finds.
-/
import proofs.«128321_j38912403702319_2_alg».proof.Proof.K.R1Kit

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunA (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i)
    (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) :
    Σ' (L9 : List (View.Piece (Elt F) S5000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc1__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__mlp_update_kernel_eq_skeleton]; unfold cc1__mlp_update_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.Kernel.R1

end
-- ==== Proof.K.R1RunB.lean ====
/-
  Region 1's body run once, at a later step: the column-sum block holds the running total the step before left,
  then the tile's perceptron output is stored and its column sums are added to the block. On whole staging buffers —
  the nine inputs at their contents, the output tile's buffer at anything, the column-sum buffer at the running total —
  the body runs to the end, the inputs unchanged, each output buffer with the stores' pieces written; the pieces are what
  the run finds.
-/
import proofs.«128321_j38912403702319_2_alg».proof.Proof.K.R1Kit

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunB (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i)
    (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    Σ' (L9 : List (View.Piece (Elt F) S5000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc1__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__mlp_update_kernel_eq_skeleton]; unfold cc1__mlp_update_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.Kernel.R1

end
-- ==== Proof.K.R1Data.lean ====
/-
  Region 1: what its two output windows hold after every grid point, and the body's obligation at every point.

  The output tile's buffer is covered afresh at every point by one store. The column-sum block is carried: at the
  first step of a core's row of the grid it is set to zero and the tile's column sums are added; at a later step the
  tile's column sums are added to what the step before left (the block is not written back in between). So the block's
  contents after point n are defined by recursion on n, and the body's run at point n — the case its number selects —
  is applied to the blocks the input windows hold there and, at a later step, to the block's contents after point n − 1.
-/
import proofs.«128321_j38912403702319_2_alg».proof.Proof.K.R1RunA
import proofs.«128321_j38912403702319_2_alg».proof.Proof.K.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- Each case's pieces for each output tile its block, so they cover it. -/
theorem cover_A_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (y : S5000x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1 S5000x64.size (by sl_kernel_rfl) y
theorem cover_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (y : S8x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1 S8x64.size (by sl_kernel_rfl) y
theorem cover_B_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S5000x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1 S5000x64.size (by sl_kernel_rfl) y
theorem cover_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S8x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1 S8x64.size (by sl_kernel_rfl) y

/-- What each case leaves in each output's staging buffer: its pieces read back. -/
def out_A_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) : Vec F S5000x64 .f32 :=
  VO9.read (Elt F) (VO9.writes (Elt F) VO9.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1)
def out_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) : Vec F S8x64 .f32 :=
  VO10.read (Elt F) (VO10.writes (Elt F) VO10.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1)
def out_B_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S5000x64 .f32 :=
  VO9.read (Elt F) (VO9.writes (Elt F) VO9.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1)
def out_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S8x64 .f32 :=
  VO10.read (Elt F) (VO10.writes (Elt F) VO10.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1)

/-- The column-sum block after the body at point n. -/
def accAt (c : Dev nD) : (n : ℕ) → n < cfg1.N → Vec F S8x64 .f32
  | 0, hn => out_A_10 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩)
  | n + 1, hn =>
    if h0 : (n + 1) % 5 = 0 then
      out_A_10 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩)
    else
      out_B_10 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (accAt c n (Nat.lt_of_succ_lt hn))

theorem accAt_A (c : Dev nD) (t : Fin cfg1.N) (h0 : t.val % 5 = 0) :
    accAt V c t.val t.isLt = out_A_10 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := by
  obtain ⟨n, hn⟩ := t
  cases n with
  | zero => exact rfl
  | succ n => exact (dif_pos h0).trans rfl

theorem accAt_B (c : Dev nD) (t : Fin cfg1.N) (h0 : ¬t.val % 5 = 0) :
    accAt V c t.val t.isLt = out_B_10 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The output tile after the body at point t. -/
def tileAt (c : Dev nD) (t : Fin cfg1.N) : Vec F S5000x64 .f32 :=
  if h0 : t.val % 5 = 0 then
    out_A_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t)
  else
    out_B_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))

theorem tileAt_A (c : Dev nD) (t : Fin cfg1.N) (h0 : t.val % 5 = 0) :
    tileAt V c t = out_A_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := dif_pos h0
theorem tileAt_B (c : Dev nD) (t : Fin cfg1.N) (h0 : ¬t.val % 5 = 0) :
    tileAt V c t = out_B_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := dif_neg h0

/-- The region's proof data on core c: the arrays as the region finds them; after the body at point t each input's
    buffer at its block, the output tile's at `tileAt`, the column-sum block's at `accAt`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => tileAt V c t
    | ⟨10, _⟩ => accAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = iblk V c 8 t := by dsimp only [dat]
theorem after9 (c : Dev nD) (t : Fin cfg1.N) : (dat V c).after 9 t = tileAt V c t := by dsimp only [dat]
theorem after10 (c : Dev nD) (t : Fin cfg1.N) : (dat V c).after 10 t = accAt V c t.val t.isLt := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d
theorem before6 (c : Dev nD) (t : Fin cfg1.N) (d) : (dat V c).before 6 t d = iblk V c 6 t :=
  before6_of V (dat V c) (A_eq V c 6) (after6 V c) t d
theorem before7 (c : Dev nD) (t : Fin cfg1.N) (d) : (dat V c).before 7 t d = iblk V c 7 t :=
  before7_of V (dat V c) (A_eq V c 7) (after7 V c) t d
theorem before8 (c : Dev nD) (t : Fin cfg1.N) (d) : (dat V c).before 8 t d = iblk V c 8 t :=
  before8_of V (dat V c) (A_eq V c 8) (after8 V c) t d

/-- At a later step of a core's row the column-sum block's buffer holds what the body left at the point before: the
    buffer was not written back in between. -/
theorem before10_B (c : Dev nD) (t : Fin cfg1.N) (h0 : ¬t.val % 5 = 0) (d) :
    (dat V c).before 10 t d = accAt V c (t.val - 1) (Nat.lt_of_le_of_lt (Nat.sub_le _ _) t.isLt) := by
  have hN : t.val < 10 := lt_of_lt_of_eq t.isLt (show cfg1.N = 10 from N_1)
  rw [Dat.before_out_kept _ 10 rfl t (by omega) (Bool.eq_false_iff.mpr fun h => by have := (flush1_10 _).mp h; dsimp only at this; omega)
    (fun _ => rfl) (fun _ _ => rfl)]
  dsimp only [dat]

end Cert.Kernel.R1

end
-- ==== Proof.K.R1Body.lean ====
/-
  Region 1: the body's obligation at every grid point. The input windows' buffers hold their blocks; the point's
  number says which case the body is in; at a later step the column-sum block holds what the step before left; so the
  case's run applies, and it leaves every buffer at what the proof data say.
-/
import proofs.«128321_j38912403702319_2_alg».proof.Proof.K.R1Data

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9, after10]
  have hN : t.val < 10 := lt_of_lt_of_eq t.isLt (show cfg1.N = 10 from N_1)
  by_cases h0 : t.val % 5 = 0
  · rw [accAt_A V c t h0, tileAt_A V c t h0]
    unfold out_A_9 out_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunA c (grid1.coords t) _ _ _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t) (iblk V c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_A_10 c _ _ _ _ _ _ _ _ _ _ _ _ _ _ _ _ _ _ _ _ _ _ _ _ _ _ _ _ _ _ _ _ _)
  · rw [accAt_B V c t h0, tileAt_B V c t h0]
    simp only [before10_B V c t h0]
    unfold out_B_9 out_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunB c (grid1.coords t) _ _ _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) (iblk V c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_B_10 c _ _ _ _ _ _ _ _ _ _ _ _ _ _ _ _ _ _ _ _ _ _ _ _ _ _ _ _ _ _ _ _ _ _)

/-- The body obligation of the region's proof data, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.K.Regions.lean ====
/-
  The program as a line of segments: host operations, region 0, host operations, region 1, host operations.

  Between two segments a core holds every unscoped buffer whole. A region changes only its two output arrays: after
  region 0 they hold what its pipeline's write-backs leave (the output tiles side by side, and per core the column-sum
  block as the last step left it), every other buffer what it held before; likewise region 1. With these contents named,
  each region is a segment between the thread state before it and the one after it, and the generated conditional frame
  gives the frame claim: every argument array ends as launched.
-/
import proofs.«128321_j38912403702319_2_alg».proof.Proof.K.R0Body
import proofs.«128321_j38912403702319_2_alg».proof.Proof.K.R1Body
import proofs.«128321_j38912403702319_2_alg».proof.Proof.Gen.Kernel.Regions
import Idealize.ShloMosaic.Lib.Pipeline.FrameSuffix
import Idealize.ShloMosaic.Lib.Pipeline.RegionsLoop

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- The contents region 0 is entered from, read at the core's references. -/
abbrev C1 : R0.Conts F := fun c b => V1 m c (Proc.devRef .tc b)

/-- The contents at region 0's exit: its arrays at what its pipeline leaves, every other buffer as entered. -/
def W2 (c : Dev nD) : Valuation τ sig (Elt F) :=
  Pipeline.withArrays spec0 c (V1 m c) fun w => (R0.dat (C1 m) c).arrAt w cfg0.N

theorem W2_arr (c : Dev nD) (w : Fin cfg0.W) :
    W2 m c (Proc.devRef .tc (Pipeline.arrRef spec0 w)) = (R0.dat (C1 m) c).arrAt w cfg0.N := by
  unfold W2; exact Pipeline.withArrays_arr spec0 launch0.win.arr_inj c _ _ w

/-- Region 0's outputs alone, as the unknowns the generated contents are written over. -/
def outs2 : Outs (F := F) := fun _ r c => W2 m c (Proc.devRef .tc r)

/-- The contents region 1 is entered from, read at the core's references. -/
abbrev C3 : R1.Conts F := fun c b => V3 m (outs2 m) c (Proc.devRef .tc b)

/-- The contents at region 1's exit. -/
def W4 (c : Dev nD) : Valuation τ sig (Elt F) :=
  Pipeline.withArrays spec1 c (V3 m (outs2 m) c) fun w => (R1.dat (C3 m) c).arrAt w cfg1.N

theorem W4_arr (c : Dev nD) (w : Fin cfg1.W) :
    W4 m c (Proc.devRef .tc (Pipeline.arrRef spec1 w)) = (R1.dat (C3 m) c).arrAt w cfg1.N := by
  unfold W4; exact Pipeline.withArrays_arr spec1 launch1.win.arr_inj c _ _ w

/-- What both regions leave in their output arrays. -/
def outs : Outs (F := F) := fun J r c => if J = 2 then W2 m c (Proc.devRef .tc r) else W4 m c (Proc.devRef .tc r)

theorem outs_two (r : Ref sig .tc) (c : Dev nD) : outs m 2 r c = W2 m c (Proc.devRef .tc r) := if_pos rfl
theorem outs_four (r : Ref sig .tc) (c : Dev nD) : outs m 4 r c = W4 m c (Proc.devRef .tc r) := if_neg (by decide)

variable (os : Outs (F := F))

theorem V2_at0 (c : Dev nD) : V2 m os c main_v24_0 = os 2 main_v24_0 c := by
  simp only [V2, Function.update_of_ne (StableHlo.devRef_ne_of_ne (by decide) : (Proc.devRef .tc main_v24_0 : DevRef τ sig) ≠ Proc.devRef .tc main_v24_1), Function.update_self]
theorem V2_at1 (c : Dev nD) : V2 m os c main_v24_1 = os 2 main_v24_1 c := by
  simp only [V2, Function.update_self]
theorem V4_at0 (c : Dev nD) : V4 m os c main_v60_0 = os 4 main_v60_0 c := by
  simp only [V4, Function.update_of_ne (StableHlo.devRef_ne_of_ne (by decide) : (Proc.devRef .tc main_v60_0 : DevRef τ sig) ≠ Proc.devRef .tc main_v60_1), Function.update_self]
theorem V4_at1 (c : Dev nD) : V4 m os c main_v60_1 = os 4 main_v60_1 c := by
  simp only [V4, Function.update_self]

theorem V2_eq (c : Dev nD) : V2 m (outs m) c = V2 m (outs2 m) c := by
  show Function.update (Function.update (V1 m c) main_v24_0 (outs m 2 main_v24_0 c)) main_v24_1 (outs m 2 main_v24_1 c) = _
  rw [outs_two, outs_two]
  rfl

theorem V3_eq (c : Dev nD) : V3 m (outs m) c = V3 m (outs2 m) c := by
  show StableHlo.after hostOps1 (V2 m (outs m) c) = StableHlo.after hostOps1 (V2 m (outs2 m) c)
  rw [V2_eq]

theorem in_isOut0 : ∀ w : Fin 11, w.val < 9 → (cfg0.win w).isOut = false := by decide
theorem in_ne0 : ∀ w : Fin 11, w.val < 9 → Pipeline.arrRef spec0 w ∉ ([main_v24_0, main_v24_1] : List (Ref sig .tc)) := by decide
theorem ref9_0 : Pipeline.arrRef spec0 (9 : Fin 11) = main_v24_0 := rfl
theorem ref10_0 : Pipeline.arrRef spec0 (10 : Fin 11) = main_v24_1 := rfl
theorem ge9_0 (w : Fin 11) (h : ¬w.val < 9) : w = 9 ∨ w = 10 := by
  have := w.isLt
  rcases (by omega : w.val = 9 ∨ w.val = 10) with e | e
  · exact Or.inl (Fin.ext e)
  · exact Or.inr (Fin.ext e)

theorem in_isOut1 : ∀ w : Fin 11, w.val < 9 → (cfg1.win w).isOut = false := by decide
theorem in_ne1 : ∀ w : Fin 11, w.val < 9 → Pipeline.arrRef spec1 w ∉ ([main_v60_0, main_v60_1] : List (Ref sig .tc)) := by decide
theorem ref9_1 : Pipeline.arrRef spec1 (9 : Fin 11) = main_v60_0 := rfl
theorem ref10_1 : Pipeline.arrRef spec1 (10 : Fin 11) = main_v60_1 := rfl
theorem ge9_1 (w : Fin 11) (h : ¬w.val < 9) : w = 9 ∨ w = 10 := by
  have := w.isLt
  rcases (by omega : w.val = 9 ∨ w.val = 10) with e | e
  · exact Or.inl (Fin.ext e)
  · exact Or.inr (Fin.ext e)

/-- At region 0's exit each of its arrays holds what the pipeline leaves, -/
theorem hF0 (c : Dev nD) (w : Fin cfg0.W) : (R0.dat (C1 m) c).arrAt w cfg0.N = V2 m (outs2 m) c (Proc.devRef .tc (Pipeline.arrRef spec0 w)) := by
  by_cases hw : w.val < 9
  · exact ((R0.dat (C1 m) c).arrAt_in w (in_isOut0 w hw) _).trans ((R0.A_eq (C1 m) c w).trans (V2_of m (outs2 m) c _ (in_ne0 w hw)).symm)
  · rcases ge9_0 w hw with rfl | rfl
    · exact (W2_arr m c 9).symm.trans (V2_at0 m (outs2 m) c).symm
    · exact (W2_arr m c 10).symm.trans (V2_at1 m (outs2 m) c).symm

/-- and every other buffer what it held at entry. -/
theorem hrest0 (c : Dev nD) : ∀ b, b ∉ Finset.univ.image (Pipeline.arrRef spec0) → V2 m (outs2 m) c (Proc.devRef .tc b) = V1 m c (Proc.devRef .tc b) :=
  fun b hb => V2_of m (outs2 m) c b (by
    intro hmem
    rcases List.mem_cons.mp hmem with e | hmem
    · exact hb (Finset.mem_image.mpr ⟨9, Finset.mem_univ _, e.symm⟩)
    · rcases List.mem_cons.mp hmem with e | hmem
      · exact hb (Finset.mem_image.mpr ⟨10, Finset.mem_univ _, e.symm⟩)
      · exact absurd hmem (List.not_mem_nil))

theorem hF1 (c : Dev nD) (w : Fin cfg1.W) : (R1.dat (C3 m) c).arrAt w cfg1.N = V4 m (outs m) c (Proc.devRef .tc (Pipeline.arrRef spec1 w)) := by
  by_cases hw : w.val < 9
  · refine ((R1.dat (C3 m) c).arrAt_in w (in_isOut1 w hw) _).trans ((R1.A_eq (C3 m) c w).trans ?_)
    rw [V4_of m (outs m) c _ (in_ne1 w hw), V3_eq]
  · rcases ge9_1 w hw with rfl | rfl
    · exact (W4_arr m c 9).symm.trans (((V4_at0 m (outs m) c).trans (outs_four m main_v60_0 c)).symm)
    · exact (W4_arr m c 10).symm.trans (((V4_at1 m (outs m) c).trans (outs_four m main_v60_1 c)).symm)

theorem hrest1 (c : Dev nD) : ∀ b, b ∉ Finset.univ.image (Pipeline.arrRef spec1) → V4 m (outs m) c (Proc.devRef .tc b) = V3 m (outs2 m) c (Proc.devRef .tc b) :=
  fun b hb => (V4_of m (outs m) c b (by
    intro hmem
    rcases List.mem_cons.mp hmem with e | hmem
    · exact hb (Finset.mem_image.mpr ⟨9, Finset.mem_univ _, e.symm⟩)
    · rcases List.mem_cons.mp hmem with e | hmem
      · exact hb (Finset.mem_image.mpr ⟨10, Finset.mem_univ _, e.symm⟩)
      · exact absurd hmem (List.not_mem_nil))).trans (congrFun (V3_eq m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => R0.dat (C1 m) c
  | ⟨1, _⟩ => fun c => R1.dat (C3 m) c

abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

-- unification with the pinned configuration may unfold plain definitions in a metavariable's type
set_option backward.isDefEq.respectTransparency.types false in
/-- Region 0 as a segment: entered from every unscoped buffer at the contents before it, left at the contents after
    it. Its arrays are split out of the unscoped buffers at entry and put back at the exit contents; the generator
    register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (C1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs2 m) c) ∗ R c)
  X c := iprop(∃ r, prngReg c r)
  Y c := iprop(∃ r, prngReg c r)
  Z c := Pipeline.unscopedRest (Ix := Unit) (Name := ℕ) (U := UR sig nD τ) (Lvl := ℕ) spec0 c (fun b => (V1 m c) (Proc.devRef .tc b))
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => (V1 m c) (Proc.devRef .tc b)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => (V1 m c) (Proc.devRef .tc b)) (fun b => (V2 m (outs2 m) c) (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 as a segment: entered from every unscoped buffer at the contents before it, left at the contents after
    it. Its arrays are split out of the unscoped buffers at entry and put back at the exit contents; the generator
    register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (C3 m) c).loose
  hwaits := Pipeline.hwaits_of_owed_zero _ _ _ _ L lv 1 fun _ _ => rfl
  pre c := iprop(StableHlo.held (c : Thread nD τ) (Pipeline.ucRefs τ sig) (V3 m (outs2 m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => (V3 m (outs2 m) c) (Proc.devRef .tc b))
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => (V3 m (outs2 m) c) (Proc.devRef .tc b)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => (V3 m (outs2 m) c) (Proc.devRef .tc b)) (fun b => (V4 m (outs m) c) (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem hpost0 (c : Dev nD) : (reg0 m).post c ⊢ iprop(StableHlo.held (c : Thread nD τ) (Pipeline.ucRefs τ sig) (V2 m (outs m) c) ∗ R c) := by
  rw [V2_eq]; exact .rfl
theorem hpre1 (c : Dev nD) : iprop(StableHlo.held (c : Thread nD τ) (Pipeline.ucRefs τ sig) (V3 m (outs m) c) ∗ R c) ⊢ (reg1 m).pre c := by
  rw [V3_eq]; exact .rfl

/-- The launch element yields the pipeline library's element and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core makes its first rest state from what the launch deals it. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

-- the conditional frame's implicit arguments are found by unifying its conclusion with this one
set_option backward.isDefEq.respectTransparency.types false in
/-- THE FRAME: from any memory with zero counters every weakly fair execution of the program terminates, nothing
    faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond (F := F) m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => R c) (hE0 ρ) (fun c => by iintro ⟨-, H⟩; iexact H)
    (reg0 m) (fun c => .rfl) (hpost0 m)
    (reg1 m) (hpre1 m) (fun c => .rfl)

end Cert.Kernel.Frm

end
-- ==== Proof.KI.R0Kit.lean ====
/-
  Region 0 of the program (the perceptron over tiles of 8000 rows): what its body is run on.

  At every grid point the pipeline hands the body one staging buffer per window. An input window's buffer holds the
  window's block of its array at that point, whether the block was fetched at this point or kept from an earlier one
  (the weights are fetched once). The body's one branch — "is this the first step of the core's row of the grid" —
  is decided by the point's number. The two output windows' contents are stated through one staging buffer each.
-/
import proofs.«128321_j38912403702319_2_alg».proof.Proof.Gen.KernelIdeal.Launch
import proofs.«128321_j38912403702319_2_alg».proof.Proof.Gen.KernelIdeal.Skeleton
import proofs.«128321_j38912403702319_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents when the region is entered, one buffer per reference. -/
abbrev Conts (F : FTy → Type) [FloatOps F] : Type := (c : Dev nD) → (b : Ref sig .tc) → Buf (Elt F) ((c : Thread nD τ).loc b)

variable (V : Conts F)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body's branch condition from the grid coordinates: the step coordinate is 0. -/
abbrev cond (i : grid0.Coords) : Prop := (Scalar.cmpi .ne (Scalar.extui (Scalar.cmpi .eq (BitVec.ofNat 32 (i 1).val) 0#32)) 0#32) = 1#1
/-- It holds exactly at the first step of each core's row of the grid. -/
theorem hcond : ∀ t : Fin cfg0.N, cond (grid0.coords t) ↔ t.val % 50 = 0 :=
  (by decide +kernel : ∀ t : Fin grid0.N, cond (grid0.coords t) ↔ t.val % 50 = 0)

/-- One staging buffer of each output window, through which its contents are stated. -/
abbrev VO9 : View sig .tc .vmem S8000x64 .f32 := (Memref.whole cc0_stg9_0 : Memref sig .tc .vmem S8000x64 .f32).view
abbrev VO10 : View sig .tc .vmem S8x64 .f32 := (Memref.whole cc0_stg10_0 : Memref sig .tc .vmem S8x64 .f32).view
abbrev ms0 (t : Fin cfg0.N) : Memref sig .tc .vmem S8000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8000x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8000x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8000x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x64 .f32 := win0_10.stage (cfg0.slots t 10)
abbrev hs10 (t : Fin cfg0.N) : (ms10 t).IsWhole := hstage0_10 ((cfg0.slots t 10).cast nbuf0_10)

end Cert.KernelIdeal.R0

end
-- ==== Proof.KI.R0RunA.lean ====
/-
  Region 0's body run once, at the first step of a core's row of the grid: the column-sum block is first set to zero,
  then the tile's perceptron output is stored and its column sums are added to the block. On whole staging buffers —
  the nine inputs at their contents, the output tile's buffer at anything, the column-sum buffer at anything —
  the body runs to the end, the inputs unchanged, each output buffer with the stores' pieces written; the pieces are what
  the run finds.
-/
import proofs.«128321_j38912403702319_2_alg».proof.Proof.KI.R0Kit

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunA (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i)
    (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) :
    Σ' (L9 : List (View.Piece (Elt F) S8000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlp_update_kernel_eq_skeleton]; unfold cc0__mlp_update_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.KernelIdeal.R0

end
-- ==== Proof.KI.R0RunB.lean ====
/-
  Region 0's body run once, at a later step: the column-sum block holds the running total the step before left,
  then the tile's perceptron output is stored and its column sums are added to the block. On whole staging buffers —
  the nine inputs at their contents, the output tile's buffer at anything, the column-sum buffer at the running total —
  the body runs to the end, the inputs unchanged, each output buffer with the stores' pieces written; the pieces are what
  the run finds.
-/
import proofs.«128321_j38912403702319_2_alg».proof.Proof.KI.R0Kit

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunB (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i)
    (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    Σ' (L9 : List (View.Piece (Elt F) S8000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlp_update_kernel_eq_skeleton]; unfold cc0__mlp_update_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.KernelIdeal.R0

end
-- ==== Proof.KI.R0Data.lean ====
/-
  Region 0: what its two output windows hold after every grid point, and the body's obligation at every point.

  The output tile's buffer is covered afresh at every point by one store. The column-sum block is carried: at the
  first step of a core's row of the grid it is set to zero and the tile's column sums are added; at a later step the
  tile's column sums are added to what the step before left (the block is not written back in between). So the block's
  contents after point n are defined by recursion on n, and the body's run at point n — the case its number selects —
  is applied to the blocks the input windows hold there and, at a later step, to the block's contents after point n − 1.
-/
import proofs.«128321_j38912403702319_2_alg».proof.Proof.KI.R0RunA
import proofs.«128321_j38912403702319_2_alg».proof.Proof.KI.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- Each case's pieces for each output tile its block, so they cover it. -/
theorem cover_A_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (y : S8000x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1 S8000x64.size (by sl_kernel_rfl) y
theorem cover_A_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (y : S8x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1 S8x64.size (by sl_kernel_rfl) y
theorem cover_B_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S8000x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1 S8000x64.size (by sl_kernel_rfl) y
theorem cover_B_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S8x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1 S8x64.size (by sl_kernel_rfl) y

/-- What each case leaves in each output's staging buffer: its pieces read back. -/
def out_A_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) : Vec F S8000x64 .f32 :=
  VO9.read (Elt F) (VO9.writes (Elt F) VO9.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1)
def out_A_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) : Vec F S8x64 .f32 :=
  VO10.read (Elt F) (VO10.writes (Elt F) VO10.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1)
def out_B_9 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S8000x64 .f32 :=
  VO9.read (Elt F) (VO9.writes (Elt F) VO9.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1)
def out_B_10 (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S8x64 .f32 :=
  VO10.read (Elt F) (VO10.writes (Elt F) VO10.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1)

/-- The column-sum block after the body at point n. -/
def accAt (c : Dev nD) : (n : ℕ) → n < cfg0.N → Vec F S8x64 .f32
  | 0, hn => out_A_10 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩)
  | n + 1, hn =>
    if h0 : (n + 1) % 50 = 0 then
      out_A_10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩)
    else
      out_B_10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (accAt c n (Nat.lt_of_succ_lt hn))

theorem accAt_A (c : Dev nD) (t : Fin cfg0.N) (h0 : t.val % 50 = 0) :
    accAt V c t.val t.isLt = out_A_10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := by
  obtain ⟨n, hn⟩ := t
  cases n with
  | zero => exact rfl
  | succ n => exact (dif_pos h0).trans rfl

theorem accAt_B (c : Dev nD) (t : Fin cfg0.N) (h0 : ¬t.val % 50 = 0) :
    accAt V c t.val t.isLt = out_B_10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The output tile after the body at point t. -/
def tileAt (c : Dev nD) (t : Fin cfg0.N) : Vec F S8000x64 .f32 :=
  if h0 : t.val % 50 = 0 then
    out_A_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t)
  else
    out_B_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))

theorem tileAt_A (c : Dev nD) (t : Fin cfg0.N) (h0 : t.val % 50 = 0) :
    tileAt V c t = out_A_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := dif_pos h0
theorem tileAt_B (c : Dev nD) (t : Fin cfg0.N) (h0 : ¬t.val % 50 = 0) :
    tileAt V c t = out_B_9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := dif_neg h0

/-- The region's proof data on core c: the arrays as the region finds them; after the body at point t each input's
    buffer at its block, the output tile's at `tileAt`, the column-sum block's at `accAt`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => tileAt V c t
    | ⟨10, _⟩ => accAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = tileAt V c t := by dsimp only [dat]
theorem after10 (c : Dev nD) (t : Fin cfg0.N) : (dat V c).after 10 t = accAt V c t.val t.isLt := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d
theorem before7 (c : Dev nD) (t : Fin cfg0.N) (d) : (dat V c).before 7 t d = iblk V c 7 t :=
  before7_of V (dat V c) (A_eq V c 7) (after7 V c) t d
theorem before8 (c : Dev nD) (t : Fin cfg0.N) (d) : (dat V c).before 8 t d = iblk V c 8 t :=
  before8_of V (dat V c) (A_eq V c 8) (after8 V c) t d

/-- At a later step of a core's row the column-sum block's buffer holds what the body left at the point before: the
    buffer was not written back in between. -/
theorem before10_B (c : Dev nD) (t : Fin cfg0.N) (h0 : ¬t.val % 50 = 0) (d) :
    (dat V c).before 10 t d = accAt V c (t.val - 1) (Nat.lt_of_le_of_lt (Nat.sub_le _ _) t.isLt) := by
  have hN : t.val < 100 := lt_of_lt_of_eq t.isLt (show cfg0.N = 100 from N_0)
  rw [Dat.before_out_kept _ 10 rfl t (by omega) (Bool.eq_false_iff.mpr fun h => by have := (flush0_10 _).mp h; dsimp only at this; omega)
    (fun _ => rfl) (fun _ _ => rfl)]
  dsimp only [dat]

end Cert.KernelIdeal.R0

end
-- ==== Proof.KI.R0Body.lean ====
/-
  Region 0: the body's obligation at every grid point. The input windows' buffers hold their blocks; the point's
  number says which case the body is in; at a later step the column-sum block holds what the step before left; so the
  case's run applies, and it leaves every buffer at what the proof data say.
-/
import proofs.«128321_j38912403702319_2_alg».proof.Proof.KI.R0Data

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t))

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9, after10]
  have hN : t.val < 100 := lt_of_lt_of_eq t.isLt (show cfg0.N = 100 from N_0)
  by_cases h0 : t.val % 50 = 0
  · rw [accAt_A V c t h0, tileAt_A V c t h0]
    unfold out_A_9 out_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunA c (grid0.coords t) _ _ _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t) (iblk V c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_A_10 c _ _ _ _ _ _ _ _ _ _ _ _ _ _ _ _ _ _ _ _ _ _ _ _ _ _ _ _ _ _ _ _ _)
  · rw [accAt_B V c t h0, tileAt_B V c t h0]
    simp only [before10_B V c t h0]
    unfold out_B_9 out_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunB c (grid0.coords t) _ _ _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) (iblk V c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_B_10 c _ _ _ _ _ _ _ _ _ _ _ _ _ _ _ _ _ _ _ _ _ _ _ _ _ _ _ _ _ _ _ _ _ _)

/-- The body obligation of the region's proof data, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.R1Kit.lean ====
/-
  Region 1 of the program (the perceptron over tiles of 5000 rows): what its body is run on.

  At every grid point the pipeline hands the body one staging buffer per window. An input window's buffer holds the
  window's block of its array at that point, whether the block was fetched at this point or kept from an earlier one
  (the weights are fetched once). The body's one branch — "is this the first step of the core's row of the grid" —
  is decided by the point's number. The two output windows' contents are stated through one staging buffer each.
-/
import proofs.«128321_j38912403702319_2_alg».proof.Proof.Gen.KernelIdeal.Launch
import proofs.«128321_j38912403702319_2_alg».proof.Proof.Gen.KernelIdeal.Skeleton
import proofs.«128321_j38912403702319_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents when the region is entered, one buffer per reference. -/
abbrev Conts (F : FTy → Type) [FloatOps F] : Type := (c : Dev nD) → (b : Ref sig .tc) → Buf (Elt F) ((c : Thread nD τ).loc b)

variable (V : Conts F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body's branch condition from the grid coordinates: the step coordinate is 0. -/
abbrev cond (i : grid1.Coords) : Prop := (Scalar.cmpi .ne (Scalar.extui (Scalar.cmpi .eq (BitVec.ofNat 32 (i 1).val) 0#32)) 0#32) = 1#1
/-- It holds exactly at the first step of each core's row of the grid. -/
theorem hcond : ∀ t : Fin cfg1.N, cond (grid1.coords t) ↔ t.val % 5 = 0 :=
  (by decide +kernel : ∀ t : Fin grid1.N, cond (grid1.coords t) ↔ t.val % 5 = 0)

/-- One staging buffer of each output window, through which its contents are stated. -/
abbrev VO9 : View sig .tc .vmem S5000x64 .f32 := (Memref.whole cc1_stg9_0 : Memref sig .tc .vmem S5000x64 .f32).view
abbrev VO10 : View sig .tc .vmem S8x64 .f32 := (Memref.whole cc1_stg10_0 : Memref sig .tc .vmem S8x64 .f32).view
abbrev ms0 (t : Fin cfg1.N) : Memref sig .tc .vmem S5000x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S5000x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S5000x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S64x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S64x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S64x64 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x64 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S64x64 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x64 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S5000x64 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S8x64 .f32 := win1_10.stage (cfg1.slots t 10)
abbrev hs10 (t : Fin cfg1.N) : (ms10 t).IsWhole := hstage1_10 ((cfg1.slots t 10).cast nbuf1_10)

end Cert.KernelIdeal.R1

end
-- ==== Proof.KI.R1RunA.lean ====
/-
  Region 1's body run once, at the first step of a core's row of the grid: the column-sum block is first set to zero,
  then the tile's perceptron output is stored and its column sums are added to the block. On whole staging buffers —
  the nine inputs at their contents, the output tile's buffer at anything, the column-sum buffer at anything —
  the body runs to the end, the inputs unchanged, each output buffer with the stores' pieces written; the pieces are what
  the run finds.
-/
import proofs.«128321_j38912403702319_2_alg».proof.Proof.KI.R1Kit

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunA (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i)
    (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) :
    Σ' (L9 : List (View.Piece (Elt F) S5000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc1__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__mlp_update_kernel_eq_skeleton]; unfold cc1__mlp_update_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.KernelIdeal.R1

end
-- ==== Proof.KI.R1RunB.lean ====
/-
  Region 1's body run once, at a later step: the column-sum block holds the running total the step before left,
  then the tile's perceptron output is stored and its column sums are added to the block. On whole staging buffers —
  the nine inputs at their contents, the output tile's buffer at anything, the column-sum buffer at the running total —
  the body runs to the end, the inputs unchanged, each output buffer with the stores' pieces written; the pieces are what
  the run finds.
-/
import proofs.«128321_j38912403702319_2_alg».proof.Proof.KI.R1Kit

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (last first), with the proof that the body runs. -/
noncomputable def kernelRunB (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i)
    (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    Σ' (L9 : List (View.Piece (Elt F) S5000x64 .f32)), { L10 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc1__mlp_update_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__mlp_update_kernel_eq_skeleton]; unfold cc1__mlp_update_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    iexists _; iexact H10

end Cert.KernelIdeal.R1

end
-- ==== Proof.KI.R1Data.lean ====
/-
  Region 1: what its two output windows hold after every grid point, and the body's obligation at every point.

  The output tile's buffer is covered afresh at every point by one store. The column-sum block is carried: at the
  first step of a core's row of the grid it is set to zero and the tile's column sums are added; at a later step the
  tile's column sums are added to what the step before left (the block is not written back in between). So the block's
  contents after point n are defined by recursion on n, and the body's run at point n — the case its number selects —
  is applied to the blocks the input windows hold there and, at a later step, to the block's contents after point n − 1.
-/
import proofs.«128321_j38912403702319_2_alg».proof.Proof.KI.R1RunA
import proofs.«128321_j38912403702319_2_alg».proof.Proof.KI.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- Each case's pieces for each output tile its block, so they cover it. -/
theorem cover_A_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (y : S5000x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1 S5000x64.size (by sl_kernel_rfl) y
theorem cover_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (y : S8x64.Idx) :
    ∃ pc ∈ (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1 S8x64.size (by sl_kernel_rfl) y
theorem cover_B_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S5000x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1 S5000x64.size (by sl_kernel_rfl) y
theorem cover_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) (y : S8x64.Idx) :
    ∃ pc ∈ (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1 S8x64.size (by sl_kernel_rfl) y

/-- What each case leaves in each output's staging buffer: its pieces read back. -/
def out_A_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) : Vec F S5000x64 .f32 :=
  VO9.read (Elt F) (VO9.writes (Elt F) VO9.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).1)
def out_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) : Vec F S8x64 .f32 :=
  VO10.read (Elt F) (VO10.writes (Elt F) VO10.junk (kernelRunA c i arg2 harg2 arg3 harg3 arg4 harg4 arg5 harg5 arg6 harg6 arg7 harg7 arg8 harg8 arg9 harg9 arg10 harg10 arg11 harg11 arg12 harg12 hc x0 x1 x2 x3 x4 x5 x6 x7 x8).2.1)
def out_B_9 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S5000x64 .f32 :=
  VO9.read (Elt F) (VO9.writes (Elt F) VO9.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).1)
def out_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) : Vec F S8x64 .f32 :=
  VO10.read (Elt F) (VO10.writes (Elt F) VO10.junk (kernelRunB c i arg2 harg2 arg3 harg3 arg4 harg4 arg5 harg5 arg6 harg6 arg7 harg7 arg8 harg8 arg9 harg9 arg10 harg10 arg11 harg11 arg12 harg12 hc x0 x1 x2 x3 x4 x5 x6 x7 x8 xo10).2.1)

/-- The column-sum block after the body at point n. -/
def accAt (c : Dev nD) : (n : ℕ) → n < cfg1.N → Vec F S8x64 .f32
  | 0, hn => out_A_10 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩)
  | n + 1, hn =>
    if h0 : (n + 1) % 5 = 0 then
      out_A_10 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩)
    else
      out_B_10 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (accAt c n (Nat.lt_of_succ_lt hn))

theorem accAt_A (c : Dev nD) (t : Fin cfg1.N) (h0 : t.val % 5 = 0) :
    accAt V c t.val t.isLt = out_A_10 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := by
  obtain ⟨n, hn⟩ := t
  cases n with
  | zero => exact rfl
  | succ n => exact (dif_pos h0).trans rfl

theorem accAt_B (c : Dev nD) (t : Fin cfg1.N) (h0 : ¬t.val % 5 = 0) :
    accAt V c t.val t.isLt = out_B_10 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The output tile after the body at point t. -/
def tileAt (c : Dev nD) (t : Fin cfg1.N) : Vec F S5000x64 .f32 :=
  if h0 : t.val % 5 = 0 then
    out_A_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t)
  else
    out_B_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))

theorem tileAt_A (c : Dev nD) (t : Fin cfg1.N) (h0 : t.val % 5 = 0) :
    tileAt V c t = out_A_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t) (iblk V c 8 t) := dif_pos h0
theorem tileAt_B (c : Dev nD) (t : Fin cfg1.N) (h0 : ¬t.val % 5 = 0) :
    tileAt V c t = out_B_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := dif_neg h0

/-- The region's proof data on core c: the arrays as the region finds them; after the body at point t each input's
    buffer at its block, the output tile's at `tileAt`, the column-sum block's at `accAt`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => tileAt V c t
    | ⟨10, _⟩ => accAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = iblk V c 8 t := by dsimp only [dat]
theorem after9 (c : Dev nD) (t : Fin cfg1.N) : (dat V c).after 9 t = tileAt V c t := by dsimp only [dat]
theorem after10 (c : Dev nD) (t : Fin cfg1.N) : (dat V c).after 10 t = accAt V c t.val t.isLt := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d
theorem before6 (c : Dev nD) (t : Fin cfg1.N) (d) : (dat V c).before 6 t d = iblk V c 6 t :=
  before6_of V (dat V c) (A_eq V c 6) (after6 V c) t d
theorem before7 (c : Dev nD) (t : Fin cfg1.N) (d) : (dat V c).before 7 t d = iblk V c 7 t :=
  before7_of V (dat V c) (A_eq V c 7) (after7 V c) t d
theorem before8 (c : Dev nD) (t : Fin cfg1.N) (d) : (dat V c).before 8 t d = iblk V c 8 t :=
  before8_of V (dat V c) (A_eq V c 8) (after8 V c) t d

/-- At a later step of a core's row the column-sum block's buffer holds what the body left at the point before: the
    buffer was not written back in between. -/
theorem before10_B (c : Dev nD) (t : Fin cfg1.N) (h0 : ¬t.val % 5 = 0) (d) :
    (dat V c).before 10 t d = accAt V c (t.val - 1) (Nat.lt_of_le_of_lt (Nat.sub_le _ _) t.isLt) := by
  have hN : t.val < 10 := lt_of_lt_of_eq t.isLt (show cfg1.N = 10 from N_1)
  rw [Dat.before_out_kept _ 10 rfl t (by omega) (Bool.eq_false_iff.mpr fun h => by have := (flush1_10 _).mp h; dsimp only at this; omega)
    (fun _ => rfl) (fun _ _ => rfl)]
  dsimp only [dat]

end Cert.KernelIdeal.R1

end
-- ==== Proof.KI.R1Body.lean ====
/-
  Region 1: the body's obligation at every grid point. The input windows' buffers hold their blocks; the point's
  number says which case the body is in; at a later step the column-sum block holds what the step before left; so the
  case's run applies, and it leaves every buffer at what the proof data say.
-/
import proofs.«128321_j38912403702319_2_alg».proof.Proof.KI.R1Data

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Conts F)

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9, after10]
  have hN : t.val < 10 := lt_of_lt_of_eq t.isLt (show cfg1.N = 10 from N_1)
  by_cases h0 : t.val % 5 = 0
  · rw [accAt_A V c t h0, tileAt_A V c t h0]
    unfold out_A_9 out_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunA c (grid1.coords t) _ _ _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t) (iblk V c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_A_10 c _ _ _ _ _ _ _ _ _ _ _ _ _ _ _ _ _ _ _ _ _ _ _ _ _ _ _ _ _ _ _ _ _)
  · rw [accAt_B V c t h0, tileAt_B V c t h0]
    simp only [before10_B V c t h0]
    unfold out_B_9 out_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunB c (grid1.coords t) _ _ _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) (iblk V c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover_B_10 c _ _ _ _ _ _ _ _ _ _ _ _ _ _ _ _ _ _ _ _ _ _ _ _ _ _ _ _ _ _ _ _ _ _)

/-- The body obligation of the region's proof data, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.Regions.lean ====
/-
  The program as a line of segments: host operations, region 0, host operations, region 1, host operations.

  Between two segments a core holds every unscoped buffer whole. A region changes only its two output arrays: after
  region 0 they hold what its pipeline's write-backs leave (the output tiles side by side, and per core the column-sum
  block as the last step left it), every other buffer what it held before; likewise region 1. With these contents named,
  each region is a segment between the thread state before it and the one after it, and the generated conditional frame
  gives the frame claim: every argument array ends as launched.
-/
import proofs.«128321_j38912403702319_2_alg».proof.Proof.KI.R0Body
import proofs.«128321_j38912403702319_2_alg».proof.Proof.KI.R1Body
import proofs.«128321_j38912403702319_2_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- The contents region 0 is entered from, read at the core's references. -/
abbrev C1 : R0.Conts F := fun c b => V1 m c (Proc.devRef .tc b)

/-- The contents at region 0's exit: its arrays at what its pipeline leaves, every other buffer as entered. -/
def W2 (c : Dev nD) : Valuation τ sig (Elt F) :=
  Pipeline.withArrays spec0 c (V1 m c) fun w => (R0.dat (C1 m) c).arrAt w cfg0.N

theorem W2_arr (c : Dev nD) (w : Fin cfg0.W) :
    W2 m c (Proc.devRef .tc (Pipeline.arrRef spec0 w)) = (R0.dat (C1 m) c).arrAt w cfg0.N := by
  unfold W2; exact Pipeline.withArrays_arr spec0 launch0.win.arr_inj c _ _ w

/-- Region 0's outputs alone, as the unknowns the generated contents are written over. -/
def outs2 : Outs (F := F) := fun _ r c => W2 m c (Proc.devRef .tc r)

/-- The contents region 1 is entered from, read at the core's references. -/
abbrev C3 : R1.Conts F := fun c b => V3 m (outs2 m) c (Proc.devRef .tc b)

/-- The contents at region 1's exit. -/
def W4 (c : Dev nD) : Valuation τ sig (Elt F) :=
  Pipeline.withArrays spec1 c (V3 m (outs2 m) c) fun w => (R1.dat (C3 m) c).arrAt w cfg1.N

theorem W4_arr (c : Dev nD) (w : Fin cfg1.W) :
    W4 m c (Proc.devRef .tc (Pipeline.arrRef spec1 w)) = (R1.dat (C3 m) c).arrAt w cfg1.N := by
  unfold W4; exact Pipeline.withArrays_arr spec1 launch1.win.arr_inj c _ _ w

/-- What both regions leave in their output arrays. -/
def outs : Outs (F := F) := fun J r c => if J = 2 then W2 m c (Proc.devRef .tc r) else W4 m c (Proc.devRef .tc r)

theorem outs_two (r : Ref sig .tc) (c : Dev nD) : outs m 2 r c = W2 m c (Proc.devRef .tc r) := if_pos rfl
theorem outs_four (r : Ref sig .tc) (c : Dev nD) : outs m 4 r c = W4 m c (Proc.devRef .tc r) := if_neg (by decide)

variable (os : Outs (F := F))

theorem V2_at0 (c : Dev nD) : V2 m os c main_v24_0 = os 2 main_v24_0 c := by
  simp only [V2, Function.update_of_ne (StableHlo.devRef_ne_of_ne (by decide) : (Proc.devRef .tc main_v24_0 : DevRef τ sig) ≠ Proc.devRef .tc main_v24_1), Function.update_self]
theorem V2_at1 (c : Dev nD) : V2 m os c main_v24_1 = os 2 main_v24_1 c := by
  simp only [V2, Function.update_self]
theorem V4_at0 (c : Dev nD) : V4 m os c main_v60_0 = os 4 main_v60_0 c := by
  simp only [V4, Function.update_of_ne (StableHlo.devRef_ne_of_ne (by decide) : (Proc.devRef .tc main_v60_0 : DevRef τ sig) ≠ Proc.devRef .tc main_v60_1), Function.update_self]
theorem V4_at1 (c : Dev nD) : V4 m os c main_v60_1 = os 4 main_v60_1 c := by
  simp only [V4, Function.update_self]

theorem V2_eq (c : Dev nD) : V2 m (outs m) c = V2 m (outs2 m) c := by
  show Function.update (Function.update (V1 m c) main_v24_0 (outs m 2 main_v24_0 c)) main_v24_1 (outs m 2 main_v24_1 c) = _
  rw [outs_two, outs_two]
  rfl

theorem V3_eq (c : Dev nD) : V3 m (outs m) c = V3 m (outs2 m) c := by
  show StableHlo.after hostOps1 (V2 m (outs m) c) = StableHlo.after hostOps1 (V2 m (outs2 m) c)
  rw [V2_eq]

theorem in_isOut0 : ∀ w : Fin 11, w.val < 9 → (cfg0.win w).isOut = false := by decide
theorem in_ne0 : ∀ w : Fin 11, w.val < 9 → Pipeline.arrRef spec0 w ∉ ([main_v24_0, main_v24_1] : List (Ref sig .tc)) := by decide
theorem ref9_0 : Pipeline.arrRef spec0 (9 : Fin 11) = main_v24_0 := rfl
theorem ref10_0 : Pipeline.arrRef spec0 (10 : Fin 11) = main_v24_1 := rfl
theorem ge9_0 (w : Fin 11) (h : ¬w.val < 9) : w = 9 ∨ w = 10 := by
  have := w.isLt
  rcases (by omega : w.val = 9 ∨ w.val = 10) with e | e
  · exact Or.inl (Fin.ext e)
  · exact Or.inr (Fin.ext e)

theorem in_isOut1 : ∀ w : Fin 11, w.val < 9 → (cfg1.win w).isOut = false := by decide
theorem in_ne1 : ∀ w : Fin 11, w.val < 9 → Pipeline.arrRef spec1 w ∉ ([main_v60_0, main_v60_1] : List (Ref sig .tc)) := by decide
theorem ref9_1 : Pipeline.arrRef spec1 (9 : Fin 11) = main_v60_0 := rfl
theorem ref10_1 : Pipeline.arrRef spec1 (10 : Fin 11) = main_v60_1 := rfl
theorem ge9_1 (w : Fin 11) (h : ¬w.val < 9) : w = 9 ∨ w = 10 := by
  have := w.isLt
  rcases (by omega : w.val = 9 ∨ w.val = 10) with e | e
  · exact Or.inl (Fin.ext e)
  · exact Or.inr (Fin.ext e)

/-- At region 0's exit each of its arrays holds what the pipeline leaves, -/
theorem hF0 (c : Dev nD) (w : Fin cfg0.W) : (R0.dat (C1 m) c).arrAt w cfg0.N = V2 m (outs2 m) c (Proc.devRef .tc (Pipeline.arrRef spec0 w)) := by
  by_cases hw : w.val < 9
  · exact ((R0.dat (C1 m) c).arrAt_in w (in_isOut0 w hw) _).trans ((R0.A_eq (C1 m) c w).trans (V2_of m (outs2 m) c _ (in_ne0 w hw)).symm)
  · rcases ge9_0 w hw with rfl | rfl
    · exact (W2_arr m c 9).symm.trans (V2_at0 m (outs2 m) c).symm
    · exact (W2_arr m c 10).symm.trans (V2_at1 m (outs2 m) c).symm

/-- and every other buffer what it held at entry. -/
theorem hrest0 (c : Dev nD) : ∀ b, b ∉ Finset.univ.image (Pipeline.arrRef spec0) → V2 m (outs2 m) c (Proc.devRef .tc b) = V1 m c (Proc.devRef .tc b) :=
  fun b hb => V2_of m (outs2 m) c b (by
    intro hmem
    rcases List.mem_cons.mp hmem with e | hmem
    · exact hb (Finset.mem_image.mpr ⟨9, Finset.mem_univ _, e.symm⟩)
    · rcases List.mem_cons.mp hmem with e | hmem
      · exact hb (Finset.mem_image.mpr ⟨10, Finset.mem_univ _, e.symm⟩)
      · exact absurd hmem (List.not_mem_nil))

theorem hF1 (c : Dev nD) (w : Fin cfg1.W) : (R1.dat (C3 m) c).arrAt w cfg1.N = V4 m (outs m) c (Proc.devRef .tc (Pipeline.arrRef spec1 w)) := by
  by_cases hw : w.val < 9
  · refine ((R1.dat (C3 m) c).arrAt_in w (in_isOut1 w hw) _).trans ((R1.A_eq (C3 m) c w).trans ?_)
    rw [V4_of m (outs m) c _ (in_ne1 w hw), V3_eq]
  · rcases ge9_1 w hw with rfl | rfl
    · exact (W4_arr m c 9).symm.trans (((V4_at0 m (outs m) c).trans (outs_four m main_v60_0 c)).symm)
    · exact (W4_arr m c 10).symm.trans (((V4_at1 m (outs m) c).trans (outs_four m main_v60_1 c)).symm)

theorem hrest1 (c : Dev nD) : ∀ b, b ∉ Finset.univ.image (Pipeline.arrRef spec1) → V4 m (outs m) c (Proc.devRef .tc b) = V3 m (outs2 m) c (Proc.devRef .tc b) :=
  fun b hb => (V4_of m (outs m) c b (by
    intro hmem
    rcases List.mem_cons.mp hmem with e | hmem
    · exact hb (Finset.mem_image.mpr ⟨9, Finset.mem_univ _, e.symm⟩)
    · rcases List.mem_cons.mp hmem with e | hmem
      · exact hb (Finset.mem_image.mpr ⟨10, Finset.mem_univ _, e.symm⟩)
      · exact absurd hmem (List.not_mem_nil))).trans (congrFun (V3_eq m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => R0.dat (C1 m) c
  | ⟨1, _⟩ => fun c => R1.dat (C3 m) c

abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

-- unification with the pinned configuration may unfold plain definitions in a metavariable's type
set_option backward.isDefEq.respectTransparency.types false in
/-- Region 0 as a segment: entered from every unscoped buffer at the contents before it, left at the contents after
    it. Its arrays are split out of the unscoped buffers at entry and put back at the exit contents; the generator
    register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (C1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs2 m) c) ∗ R c)
  X c := iprop(∃ r, prngReg c r)
  Y c := iprop(∃ r, prngReg c r)
  Z c := Pipeline.unscopedRest (Ix := Unit) (Name := ℕ) (U := UR sig nD τ) (Lvl := ℕ) spec0 c (fun b => (V1 m c) (Proc.devRef .tc b))
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => (V1 m c) (Proc.devRef .tc b)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => (V1 m c) (Proc.devRef .tc b)) (fun b => (V2 m (outs2 m) c) (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 as a segment: entered from every unscoped buffer at the contents before it, left at the contents after
    it. Its arrays are split out of the unscoped buffers at entry and put back at the exit contents; the generator
    register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (C3 m) c).loose
  hwaits := Pipeline.hwaits_of_owed_zero _ _ _ _ L lv 1 fun _ _ => rfl
  pre c := iprop(StableHlo.held (c : Thread nD τ) (Pipeline.ucRefs τ sig) (V3 m (outs2 m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => (V3 m (outs2 m) c) (Proc.devRef .tc b))
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => (V3 m (outs2 m) c) (Proc.devRef .tc b)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => (V3 m (outs2 m) c) (Proc.devRef .tc b)) (fun b => (V4 m (outs m) c) (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem hpost0 (c : Dev nD) : (reg0 m).post c ⊢ iprop(StableHlo.held (c : Thread nD τ) (Pipeline.ucRefs τ sig) (V2 m (outs m) c) ∗ R c) := by
  rw [V2_eq]; exact .rfl
theorem hpre1 (c : Dev nD) : iprop(StableHlo.held (c : Thread nD τ) (Pipeline.ucRefs τ sig) (V3 m (outs m) c) ∗ R c) ⊢ (reg1 m).pre c := by
  rw [V3_eq]; exact .rfl

/-- The launch element yields the pipeline library's element and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core makes its first rest state from what the launch deals it. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

-- the conditional frame's implicit arguments are found by unifying its conclusion with this one
set_option backward.isDefEq.respectTransparency.types false in
/-- THE FRAME: from any memory with zero counters every weakly fair execution of the program terminates, nothing
    faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond (F := F) m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => R c) (hE0 ρ) (fun c => by iintro ⟨-, H⟩; iexact H)
    (reg0 m) (fun c => .rfl) (hpost0 m)
    (reg1 m) (hpre1 m) (fun c => .rfl)

-- the kit's implicit arguments are found by unifying its conclusion with this one
set_option backward.isDefEq.respectTransparency.types false in
/-- THE RUN WITH ITS VALUES: from any memory with zero counters every weakly fair execution of the program terminates,
    nothing faulting, and in every final state each unscoped buffer holds the last contents of the line of segments
    (the launch contents folded through the host operations and the regions' exit contents). -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Pipeline.Seg.run_eq_chain,
        show (segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj)) (hu₀ (F := F))
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, hpost0 m c, hpre1 m c, .rfl, .rfl, .rfl,
      sep_mono .rfl (by iintro ⟨-, H⟩; iexact H)⟩)
    (hinit := ?_) (QY := fun c s => ∀ b ∈ Pipeline.ucRefs τ sig, s.mem ((c : Thread nD τ).1, b) = V7 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro; exact h
    · iexact HSI

end Cert.KernelIdeal.Frm

end
-- ==== Proof.KI.R0Value.lean ====
/-
  Region 0: what the body's stores leave, as values. At every grid point the output tile's buffer ends holding the
  perceptron of the point's input blocks; the column-sum block ends holding the tile's column sums added to zero (at the
  first step of a core's row) or to what the step before left. So the block after point n is a running sum defined by
  recursion on n.
-/
import proofs.«128321_j38912403702319_2_alg».proof.Proof.KI.R0Data
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz : (![0, 0] : Fin 2 → Nat) = fun _ => 0 := funext fun a => by fin_cases a <;> rfl

/-- The tile's output as a function of the nine input blocks. -/
def tileF (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) : Vec F S8000x64 .f32 := k0_pay1 (k0_pay4 x0 x1 x2 x3 x4 x5 x6 x7) x8
/-- The column-sum block after the tile, over its contents xo before. -/
def accF (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo : Vec F S8x64 .f32) : Vec F S8x64 .f32 := k0_pay2 (k0_pay4 x0 x1 x2 x3 x4 x5 x6 x7) x8 xo
/-- The zero block. -/
abbrev zeroF : Vec F S8x64 .f32 := k0_pay3

theorem out_B_9_eq (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    out_B_9 c i arg2 harg2 arg3 harg3 arg4 harg4 arg5 harg5 arg6 harg6 arg7 harg7 arg8 harg8 arg9 harg9 arg10 harg10 arg11 harg11 arg12 harg12 hc x0 x1 x2 x3 x4 x5 x6 x7 x8 xo10 = tileF x0 x1 x2 x3 x4 x5 x6 x7 x8 := by
  unfold out_B_9
  rw [View.read_writes_eq_canon _ _ _ (cover_B_9 c i arg2 harg2 arg3 harg3 arg4 harg4 arg5 harg5 arg6 harg6 arg7 harg7 arg8 harg8 arg9 harg9 arg10 harg10 arg11 harg11 arg12 harg12 hc x0 x1 x2 x3 x4 x5 x6 x7 x8 xo10)]
  unfold kernelRunB
  dsimp only
  sl_unfold_words
  rw [View.canon_unit_zero hz]
  unfold tileF
  simp only [View.readAt_eq_ld, harg2.read_unread, harg3.read_unread, harg4.read_unread, harg5.read_unread, harg6.read_unread, harg7.read_unread, harg8.read_unread, harg9.read_unread, harg10.read_unread, View.ld_unit_zero (S := S8000x64) hz, View.ld_unit_zero (S := S64x64) hz, View.ld_unit_zero (S := S1x64) hz, View.ld_unit_zero (S := S8x64) hz]

theorem out_B_10_eq (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : ¬cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    out_B_10 c i arg2 harg2 arg3 harg3 arg4 harg4 arg5 harg5 arg6 harg6 arg7 harg7 arg8 harg8 arg9 harg9 arg10 harg10 arg11 harg11 arg12 harg12 hc x0 x1 x2 x3 x4 x5 x6 x7 x8 xo10 = accF x0 x1 x2 x3 x4 x5 x6 x7 x8 xo10 := by
  unfold out_B_10
  rw [View.read_writes_eq_canon _ _ _ (cover_B_10 c i arg2 harg2 arg3 harg3 arg4 harg4 arg5 harg5 arg6 harg6 arg7 harg7 arg8 harg8 arg9 harg9 arg10 harg10 arg11 harg11 arg12 harg12 hc x0 x1 x2 x3 x4 x5 x6 x7 x8 xo10)]
  unfold kernelRunB
  dsimp only
  sl_unfold_words
  rw [View.canon_unit_zero hz]
  unfold accF
  simp only [View.readAt_eq_ld, harg2.read_unread, harg3.read_unread, harg4.read_unread, harg5.read_unread, harg6.read_unread, harg7.read_unread, harg8.read_unread, harg9.read_unread, harg10.read_unread, harg12.read_unread, View.ld_unit_zero (S := S8000x64) hz, View.ld_unit_zero (S := S64x64) hz, View.ld_unit_zero (S := S1x64) hz, View.ld_unit_zero (S := S8x64) hz]

theorem out_A_9_eq (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) :
    out_A_9 c i arg2 harg2 arg3 harg3 arg4 harg4 arg5 harg5 arg6 harg6 arg7 harg7 arg8 harg8 arg9 harg9 arg10 harg10 arg11 harg11 arg12 harg12 hc x0 x1 x2 x3 x4 x5 x6 x7 x8 = tileF x0 x1 x2 x3 x4 x5 x6 x7 x8 := by
  unfold out_A_9
  rw [View.read_writes_eq_canon _ _ _ (cover_A_9 c i arg2 harg2 arg3 harg3 arg4 harg4 arg5 harg5 arg6 harg6 arg7 harg7 arg8 harg8 arg9 harg9 arg10 harg10 arg11 harg11 arg12 harg12 hc x0 x1 x2 x3 x4 x5 x6 x7 x8)]
  unfold kernelRunA
  dsimp only
  sl_unfold_words
  rw [View.canon_unit_zero hz]
  unfold tileF
  simp only [View.readAt_eq_ld, harg2.read_unread, harg3.read_unread, harg4.read_unread, harg5.read_unread, harg6.read_unread, harg7.read_unread, harg8.read_unread, harg9.read_unread, harg10.read_unread, View.ld_unit_zero (S := S8000x64) hz, View.ld_unit_zero (S := S64x64) hz, View.ld_unit_zero (S := S1x64) hz, View.ld_unit_zero (S := S8x64) hz]

theorem out_A_10_eq (c : Dev nD) (i : grid0.Coords) (arg2 : Memref sig .tc .vmem S8000x64 .f32) (harg2 : arg2.IsWhole) (arg3 : Memref sig .tc .vmem S8000x64 .bf16) (harg3 : arg3.IsWhole) (arg4 : Memref sig .tc .vmem S8000x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole) (arg12 : Memref sig .tc .vmem S8x64 .f32) (harg12 : arg12.IsWhole) (hc : cond i) (x0 : Vec F S8000x64 .f32) (x1 : Vec F S8000x64 .bf16) (x2 : Vec F S8000x64 .bf16) (x3 : Vec F S64x64 .f32) (x4 : Vec F S64x64 .f32) (x5 : Vec F S64x64 .f32) (x6 : Vec F S1x64 .f32) (x7 : Vec F S64x64 .f32) (x8 : Vec F S1x64 .f32) :
    out_A_10 c i arg2 harg2 arg3 harg3 arg4 harg4 arg5 harg5 arg6 harg6 arg7 harg7 arg8 harg8 arg9 harg9 arg10 harg10 arg11 harg11 arg12 harg12 hc x0 x1 x2 x3 x4 x5 x6 x7 x8 = accF x0 x1 x2 x3 x4 x5 x6 x7 x8 zeroF := by
  unfold out_A_10
  rw [View.read_writes_eq_canon _ _ _ (cover_A_10 c i arg2 harg2 arg3 harg3 arg4 harg4 arg5 harg5 arg6 harg6 arg7 harg7 arg8 harg8 arg9 harg9 arg10 harg10 arg11 harg11 arg12 harg12 hc x0 x1 x2 x3 x4 x5 x6 x7 x8)]
  unfold kernelRunA
  dsimp only
  sl_unfold_words
  rw [View.canon_cons_unit_zero (S := S8x64) hz, View.readCov_unit_zero (S := S8x64) _ hz]
  unfold accF
  simp only [View.readAt_eq_ld, harg2.read_unread, harg3.read_unread, harg4.read_unread, harg5.read_unread, harg6.read_unread, harg7.read_unread, harg8.read_unread, harg9.read_unread, harg10.read_unread, View.ld_unit_zero (S := S8000x64) hz, View.ld_unit_zero (S := S64x64) hz, View.ld_unit_zero (S := S1x64) hz, View.ld_unit_zero (S := S8x64) hz]

variable (V : Conts F)

/-- The tile after point t is the perceptron of the point's blocks. -/
theorem tileAt_eq (c : Dev nD) (t : Fin cfg0.N) : tileAt V c t = tileF (iblk V c 0 t) (iblk V c 1 t) (iblk V c 2 t) (iblk V c 3 t) (iblk V c 4 t) (iblk V c 5 t) (iblk V c 6 t) (iblk V c 7 t) (iblk V c 8 t) := by
  by_cases h0 : t.val % 50 = 0
  · rw [tileAt_A V c t h0, out_A_9_eq]
  · rw [tileAt_B V c t h0, out_B_9_eq]

/-- The running column sums after point n. -/
def chain (c : Dev nD) : (n : ℕ) → n < cfg0.N → Vec F S8x64 .f32
  | 0, h => accF (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩) (iblk V c 8 ⟨0, h⟩) zeroF
  | n + 1, h => if (n + 1) % 50 = 0 then accF (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (iblk V c 8 ⟨n + 1, h⟩) zeroF
      else accF (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (iblk V c 8 ⟨n + 1, h⟩) (chain c n (Nat.lt_of_succ_lt h))

theorem accAt_eq (c : Dev nD) : ∀ (n : ℕ) (h : n < cfg0.N), accAt V c n h = chain V c n h
  | 0, h => (accAt_A V c ⟨0, h⟩ (Nat.zero_mod _)).trans (out_A_10_eq ..)
  | n + 1, h => by
    by_cases h0 : (n + 1) % 50 = 0
    · rw [accAt_A V c ⟨n + 1, h⟩ h0, out_A_10_eq, chain, if_pos h0]
    · rw [accAt_B V c ⟨n + 1, h⟩ h0, out_B_10_eq, chain, if_neg h0]
      show accF _ _ _ _ _ _ _ _ _ (accAt V c n _) = accF _ _ _ _ _ _ _ _ _ (chain V c n _)
      rw [accAt_eq c n]

end Cert.KernelIdeal.R0

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«128321_j38912403702319_2_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibMatAssoc.lean ====
/-
  Sums of products of finite numbers on the extended reals.

  On the extended reals a product does not distribute over a sum once an infinity is involved, so the law
  a (d w) = (a d) w of matrix products is proved where every entry is a real number: there both sides are the coercion
  of one real double sum. Beside it, a sum over the first B (K + 1) naturals is the sum over the first B K of them
  plus the sum over the next B, which is how a contraction cut into tiles of B is put together again.
-/
import Mathlib.Data.EReal.Basic
import Mathlib.Algebra.BigOperators.Ring.Finset
import Mathlib.Algebra.BigOperators.Intervals

namespace Cert.MatAssoc

open Finset

/-- A number that is a real: neither infinity. -/
def IsReal (x : EReal) : Prop := ∃ r : ℝ, x = (r : EReal)

theorem isReal_zero : IsReal 0 := ⟨0, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product of matrices of reals, entry by entry: for a row `a` of the first factor, the
    second factor `d` and a column `w` of the third, Σₙ a n · (Σ_f d n f · w f) = Σ_f (Σₙ a n · d n f) · w f. -/
theorem assoc_of_real (N K : ℕ) (a : ℕ → EReal) (d : ℕ → ℕ → EReal) (w : ℕ → EReal)
    (ha : ∀ n, IsReal (a n)) (hd : ∀ n f, IsReal (d n f)) (hw : ∀ f, IsReal (w f)) :
    ∑ n ∈ range N, a n * ∑ f ∈ range K, d n f * w f = ∑ f ∈ range K, (∑ n ∈ range N, a n * d n f) * w f := by
  choose a' ha using ha
  choose d' hd using hd
  choose w' hw using hw
  simp only [ha, hd, hw, ← EReal.coe_mul, ← coe_sum]
  congr 1
  simp only [Finset.mul_sum, Finset.sum_mul]
  rw [Finset.sum_comm]
  exact Finset.sum_congr rfl fun f _ => Finset.sum_congr rfl fun n _ => by ring

/-- One more tile of `B` terms. -/
theorem sum_tiles_succ (B K : ℕ) (g : ℕ → EReal) :
    ∑ n ∈ range (B * (K + 1)), g n = ∑ n ∈ range (B * K), g n + ∑ q ∈ range B, g (B * K + q) := by
  rw [mul_add, mul_one, Finset.sum_range_add]

end Cert.MatAssoc
-- ==== Proof.LibNatRead.lean ====
/-
  Arrays read at natural-number coordinates.

  An array of rank two or three over the extended reals is read at coordinates given as natural numbers: inside the
  extents it is the array's entry, outside it is 0. Every entry of the array is such a reading at its own coordinates,
  so equations between positions of differently tiled arrays become equations between natural numbers; and a sum over
  Fin n of readings is the sum over the first n naturals. The readings of an array of real numbers are real numbers.
-/
import proofs.«128321_j38912403702319_2_alg».proof.Proof.LibMatAssoc
import Idealize.ShloMosaic.Lib.ValueIdx

noncomputable section

open Idealize.ShloMosaic Idealize.ShloMosaic.ValueIdx

namespace Cert.NatRead

open Cert.MatAssoc

/-- A rank-two array at natural coordinates, 0 outside its extents. -/
def rd2 {A B : ℕ} (x : (⟨2, ![A, B]⟩ : Shape).Idx → EReal) (a b : ℕ) : EReal :=
  if h : a < A ∧ b < B then x (ix2 ⟨a, h.1⟩ ⟨b, h.2⟩) else 0

/-- A rank-three array at natural coordinates, 0 outside its extents. -/
def rd3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

theorem rd2_ix {A B : ℕ} (x : (⟨2, ![A, B]⟩ : Shape).Idx → EReal) (a : Fin A) (b : Fin B) :
    x (ix2 a b) = rd2 x a.val b.val := by
  unfold rd2
  rw [dif_pos ⟨a.isLt, b.isLt⟩]

theorem rd3_ix {A B C : ℕ} (x : (⟨3, ![A, B, C]⟩ : Shape).Idx → EReal) (a : Fin A) (b : Fin B) (c : Fin C) :
    x (ix3 a b c) = rd3 x a.val b.val c.val := by
  unfold rd3
  rw [dif_pos ⟨a.isLt, b.isLt, c.isLt⟩]

/-- Inside the extents a reading is the entry. -/
theorem rd2_mk {A B : ℕ} (x : (⟨2, ![A, B]⟩ : Shape).Idx → EReal) (a : ℕ) (ha : a < A) (b : ℕ) (hb : b < B) :
    rd2 x a b = x (ix2 ⟨a, ha⟩ ⟨b, hb⟩) := by
  unfold rd2
  rw [dif_pos ⟨ha, hb⟩]

/-- An entry is the reading at its coordinates' values. -/
theorem rd2_of_val {A B : ℕ} (x : (⟨2, ![A, B]⟩ : Shape).Idx → EReal) (i : (⟨2, ![A, B]⟩ : Shape).Idx) (a b : ℕ)
    (h0 : (i 0).val = a) (h1 : (i 1).val = b) : x i = rd2 x a b := by
  subst h0 h1
  rw [eq_ix2 i]
  exact rd2_ix x (i 0) (i 1)

theorem rd3_of_val {A B C : ℕ} (x : (⟨3, ![A, B, C]⟩ : Shape).Idx → EReal) (i : (⟨3, ![A, B, C]⟩ : Shape).Idx) (a b c : ℕ)
    (h0 : (i 0).val = a) (h1 : (i 1).val = b) (h2 : (i 2).val = c) : x i = rd3 x a b c := by
  subst h0 h1 h2
  rw [eq_ix3 i]
  exact rd3_ix x (i 0) (i 1) (i 2)

theorem isReal_rd2 {A B : ℕ} (x : (⟨2, ![A, B]⟩ : Shape).Idx → EReal) (hx : ∀ i, IsReal (x i)) (a b : ℕ) :
    IsReal (rd2 x a b) := by
  unfold rd2
  split
  · exact hx _
  · exact isReal_zero

theorem isReal_rd3 {A B C : ℕ} (x : (⟨3, ![A, B, C]⟩ : Shape).Idx → EReal) (hx : ∀ i, IsReal (x i)) (a b c : ℕ) :
    IsReal (rd3 x a b c) := by
  unfold rd3
  split
  · exact hx _
  · exact isReal_zero

/-- A sum over Fin n of a function of the index's value is the sum over the first n naturals. -/
theorem sum_fin (n : ℕ) (g : ℕ → EReal) : ∑ k : Fin n, g k.val = ∑ k ∈ Finset.range n, g k :=
  (Finset.sum_range g).symm

end Cert.NatRead

end
-- ==== Proof.LibMlpSpec.lean ====
/-
  The mathematics both programs compute, stated once over natural-number coordinates on the extended reals.

  One message-passing layer updates every row r of a table by a two-layer perceptron applied to the concatenation of
  four 64-wide pieces: three row-dependent pieces x0 r, x1 r, x2 r and one piece g shared by all rows. With the first
  weight W1 (256 rows) cut into four 64-row bands, the first layer is
      hidden r k = max (((x0 r · W1[0:64, k] + x1 r · W1[64:128, k]) + x2 r · W1[128:192, k]) + (b1 k + g · W1[192:256, k])) 0
  (the shared piece's product joins the bias, as it is the same for every row) and the second layer is
      mlp r j = Σ_k hidden r k · W2 k j + b2 j.
  A column sum over all rows taken tile by tile (B rows at a time, added to a running total that starts at 0) is the
  column sum over the whole table: sums on the extended reals may be regrouped freely.
-/
import Idealize.ShloMosaic.Lib.ValueIdx
import proofs.«128321_j38912403702319_2_alg».proof.Proof.LibNatRead

noncomputable section

namespace Cert.Spec

open Finset Idealize.ShloMosaic Idealize.ShloMosaic.ValueIdx Cert.NatRead

/-- A rank-one array at a natural coordinate, 0 outside its extent. -/
def rd1 {A : ℕ} (x : (⟨1, ![A]⟩ : Shape).Idx → EReal) (a : ℕ) : EReal :=
  if h : a < A then x (ix1 ⟨a, h⟩) else 0

theorem rd1_ix {A : ℕ} (x : (⟨1, ![A]⟩ : Shape).Idx → EReal) (a : Fin A) : x (ix1 a) = rd1 x a.val := by
  unfold rd1
  rw [dif_pos a.isLt]

/-- The first layer at row r, unit k: the three row pieces against their bands of W1, the shared piece's product
    joined to the bias, cut off at 0. -/
def hidden (x0 x1 x2 : ℕ → ℕ → EReal) (g : ℕ → EReal) (W1 : ℕ → ℕ → EReal) (b1 : ℕ → EReal) (r k : ℕ) : EReal :=
  max ((((∑ q ∈ range 64, x0 r q * W1 q k) + ∑ q ∈ range 64, x1 r q * W1 (64 + q) k)
      + ∑ q ∈ range 64, x2 r q * W1 (128 + q) k) + (b1 k + ∑ q ∈ range 64, g q * W1 (192 + q) k)) 0

/-- The perceptron at row r, output unit j. -/
def mlp (x0 x1 x2 : ℕ → ℕ → EReal) (g : ℕ → EReal) (W1 : ℕ → ℕ → EReal) (b1 : ℕ → EReal)
    (W2 : ℕ → ℕ → EReal) (b2 : ℕ → EReal) (r j : ℕ) : EReal :=
  (∑ k ∈ range 64, hidden x0 x1 x2 g W1 b1 r k * W2 k j) + b2 j

/-- The first layer over three 64-row weight bands given separately and a bias row that already contains the
    shared piece's product (the form a tile-by-tile computation has). -/
def hiddenT (x0 x1 x2 : ℕ → ℕ → EReal) (wa wb wc : ℕ → ℕ → EReal) (b : ℕ → EReal) (r k : ℕ) : EReal :=
  max ((((∑ q ∈ range 64, x0 r q * wa q k) + ∑ q ∈ range 64, x1 r q * wb q k)
      + ∑ q ∈ range 64, x2 r q * wc q k) + b k) 0

/-- The perceptron in that form. -/
def mlpT (x0 x1 x2 : ℕ → ℕ → EReal) (wa wb wc : ℕ → ℕ → EReal) (b : ℕ → EReal)
    (W2 : ℕ → ℕ → EReal) (b2 : ℕ → EReal) (r j : ℕ) : EReal :=
  (∑ k ∈ range 64, hiddenT x0 x1 x2 wa wb wc b r k * W2 k j) + b2 j

/-- The banded form is the perceptron, with the bands of W1 and the shared piece's product joined to the bias. -/
theorem mlp_eq_mlpT (x0 x1 x2 : ℕ → ℕ → EReal) (g : ℕ → EReal) (W1 : ℕ → ℕ → EReal) (b1 : ℕ → EReal)
    (W2 : ℕ → ℕ → EReal) (b2 : ℕ → EReal) (r j : ℕ) :
    mlp x0 x1 x2 g W1 b1 W2 b2 r j
      = mlpT x0 x1 x2 W1 (fun q k => W1 (64 + q) k) (fun q k => W1 (128 + q) k)
          (fun k => b1 k + ∑ q ∈ range 64, g q * W1 (192 + q) k) W2 b2 r j := rfl

/-- The perceptron applied to every row of three N×64 tables, as an N×64 table. -/
def mlpArr (N : ℕ) (x0 x1 x2 : (⟨2, ![N, 64]⟩ : Shape).Idx → EReal) (g : (⟨2, ![1, 64]⟩ : Shape).Idx → EReal)
    (W1 : (⟨2, ![256, 64]⟩ : Shape).Idx → EReal) (b1 : (⟨1, ![64]⟩ : Shape).Idx → EReal)
    (W2 : (⟨2, ![64, 64]⟩ : Shape).Idx → EReal) (b2 : (⟨1, ![64]⟩ : Shape).Idx → EReal) :
    (⟨2, ![N, 64]⟩ : Shape).Idx → EReal :=
  fun i => mlp (rd2 x0) (rd2 x1) (rd2 x2) (fun q => rd2 g 0 q) (rd2 W1) (rd1 b1) (rd2 W2) (rd1 b2) (i 0).val (i 1).val

/-- A running total over tiles of B consecutive terms, from 0. -/
def tileAcc (f : ℕ → EReal) (B : ℕ) : ℕ → EReal
  | 0 => 0
  | t + 1 => tileAcc f B t + ∑ q ∈ range B, f (B * t + q)

/-- The running total after T tiles is the sum of the first B·T terms. -/
theorem tileAcc_eq (f : ℕ → EReal) (B T : ℕ) : tileAcc f B T = ∑ n ∈ range (B * T), f n := by
  induction T with
  | zero => simp [tileAcc]
  | succ T ih => rw [tileAcc, ih, Cert.MatAssoc.sum_tiles_succ]

/-- Two running totals over the two halves of a table add up to the sum over the whole table. -/
theorem tileAcc_halves (f : ℕ → EReal) (B T : ℕ) :
    tileAcc f B T + tileAcc (fun n => f (B * T + n)) B T = ∑ n ∈ range (B * T + B * T), f n := by
  rw [tileAcc_eq, tileAcc_eq, Finset.sum_range_add]

end Cert.Spec

end
-- ==== Proof.KIPayload.lean ====
/-
  The arithmetic of the two kernel bodies, read entry by entry on the extended reals.

  Each body takes a tile of M rows (8000 rows in the first region, 5000 in the second) of three M×64 tables, three 64×64
  bands of the first weight, a bias row that already holds the shared piece's product, the second weight and the second
  bias row, and computes
      out r j = Σ_k max (((x0 r · wa[:, k] + x1 r · wb[:, k]) + x2 r · wc[:, k]) + b k) 0 · W2 k j + b2 j,
  the perceptron of the specification in its banded form, and then adds the tile's column sums Σ_r out r j to every row of
  an 8×64 block. On the extended reals a change of float format is the identity, a cast between equal shapes is the
  identity, a product into a zero accumulator is the plain sum over the contracted coordinate, a one-row table spread
  over M rows reads its own column, and a sum over one axis started from the neutral word is the sum over that axis'
  coordinates. Sums over Fin 64 or Fin M are restated over the first 64 or M naturals, and array entries as readings at
  natural coordinates, so that the result is literally the specification's function.
-/
import Idealize.ShloMosaic.PureOps.Ideal.Laws
import Idealize.ShloMosaic.Lib.ValueIdx
import Idealize.ShloMosaic.Lib.Pipeline.Value
import proofs.«128321_j38912403702319_2_alg».proof.Proof.Gen.KernelIdeal.Skeleton
import proofs.«128321_j38912403702319_2_alg».proof.Proof.LibPlainDot
import proofs.«128321_j38912403702319_2_alg».proof.Proof.LibDenseStage
import proofs.«128321_j38912403702319_2_alg».proof.Proof.LibMlpSpec

noncomputable section

namespace Cert.KernelIdeal.Payload

open Finset Idealize.ShloMosaic Idealize.ShloMosaic.ValueIdx Cert.KernelIdeal Cert.KernelIdeal.Gen Cert.Spec Cert.NatRead

/-! ## Over any number of rows -/

section Rows

variable (M : ℕ)

/-- A reading does not see a narrowing of the float format. -/
theorem rd2_truncf {A B : ℕ} {φ ψ : FTy} (v : FVec Ideal ⟨2, ![A, B]⟩ φ) (h : ψ.bits < φ.bits) :
    rd2 (truncf ψ v h : FVec Ideal ⟨2, ![A, B]⟩ ψ) = rd2 v := rfl

/-- An M×64 by 64×64 product into a zero accumulator, at (r, k): the sum over the first 64 naturals of readings. -/
theorem prod_rd {φ₁ φ₂ : FTy} (x : FVec Ideal ⟨2, ![M, 64]⟩ φ₁) (w : FVec Ideal ⟨2, ![64, 64]⟩ φ₂) (r : Fin M) (k : Fin 64) :
    matmul (F := Ideal) (DotDims.plain M 64 64) none x w (constant ⟨2, ![M, 64]⟩ .f32 0x00000000#32) (ix2 r k)
      = ∑ q ∈ range 64, rd2 x r.val q * rd2 w q k.val := by
  refine (Cert.LibPlainDot.matmul_plain M 64 64 none x w (ix2 r k)).trans ?_
  refine Eq.trans ?_ (sum_fin 64 fun q => rd2 x r.val q * rd2 w q k.val)
  refine Finset.sum_congr rfl fun q _ => ?_
  exact congr (congrArg HMul.hMul (rd2_ix x r q)) (rd2_ix w q k)

/-- A one-row table, cast to its own shape and spread over M rows, reads its own column. -/
theorem row_rd (b : FVec Ideal ⟨2, ![1, 64]⟩ .f32) (hc : (⟨2, ![1, 64]⟩ : Shape).ShapeCasts ⟨2, ![1, 64]⟩)
    (hb : (⟨2, ![1, 64]⟩ : Shape).Broadcasts ⟨2, ![M, 64]⟩) (r : Fin M) (k : Fin 64) :
    broadcastTo ⟨2, ![M, 64]⟩ (shapeCast ⟨2, ![1, 64]⟩ b hc) hb (ix2 r k) = rd2 b 0 k.val := by
  rw [shapeCast_self]
  exact (Cert.LibDenseStage.row_broadcastTo M 64 b hb r k).trans (rd2_ix b (0 : Fin 1) k)

/-- The first layer as the bodies spell it: three products into zero accumulators added left to right, the bias row
    spread over the rows, a maximum with a splat of the zero word. -/
def hidV {φ₀ φ₁ φ₂ ψ₀ ψ₁ ψ₂ : FTy} (a0 : FVec Ideal ⟨2, ![M, 64]⟩ φ₀) (a1 : FVec Ideal ⟨2, ![M, 64]⟩ φ₁)
    (a2 : FVec Ideal ⟨2, ![M, 64]⟩ φ₂) (u0 : FVec Ideal ⟨2, ![64, 64]⟩ ψ₀) (u1 : FVec Ideal ⟨2, ![64, 64]⟩ ψ₁)
    (u2 : FVec Ideal ⟨2, ![64, 64]⟩ ψ₂) (b : FVec Ideal ⟨2, ![1, 64]⟩ .f32)
    (hc : (⟨2, ![1, 64]⟩ : Shape).ShapeCasts ⟨2, ![1, 64]⟩) (hb : (⟨2, ![1, 64]⟩ : Shape).Broadcasts ⟨2, ![M, 64]⟩) :
    FVec Ideal ⟨2, ![M, 64]⟩ .f32 :=
  maximumf
    (addf
      (addf
        (addf (matmul (F := Ideal) (DotDims.plain M 64 64) none a0 u0 (constant ⟨2, ![M, 64]⟩ .f32 0x00000000#32))
          (matmul (F := Ideal) (DotDims.plain M 64 64) none a1 u1 (constant ⟨2, ![M, 64]⟩ .f32 0x00000000#32)))
        (matmul (F := Ideal) (DotDims.plain M 64 64) none a2 u2 (constant ⟨2, ![M, 64]⟩ .f32 0x00000000#32)))
      (broadcastTo ⟨2, ![M, 64]⟩ (shapeCast ⟨2, ![1, 64]⟩ b hc) hb))
    (broadcast ⟨2, ![M, 64]⟩ (Scalar.ofBits (F := Ideal) .f32 0x00000000#32))

/-- The first layer at (r, k) is the specification's. -/
theorem hidV_apply {φ₀ φ₁ φ₂ ψ₀ ψ₁ ψ₂ : FTy} (a0 : FVec Ideal ⟨2, ![M, 64]⟩ φ₀) (a1 : FVec Ideal ⟨2, ![M, 64]⟩ φ₁)
    (a2 : FVec Ideal ⟨2, ![M, 64]⟩ φ₂) (u0 : FVec Ideal ⟨2, ![64, 64]⟩ ψ₀) (u1 : FVec Ideal ⟨2, ![64, 64]⟩ ψ₁)
    (u2 : FVec Ideal ⟨2, ![64, 64]⟩ ψ₂) (b : FVec Ideal ⟨2, ![1, 64]⟩ .f32)
    (hc : (⟨2, ![1, 64]⟩ : Shape).ShapeCasts ⟨2, ![1, 64]⟩) (hb : (⟨2, ![1, 64]⟩ : Shape).Broadcasts ⟨2, ![M, 64]⟩)
    (r : Fin M) (k : Fin 64) :
    hidV M a0 a1 a2 u0 u1 u2 b hc hb (ix2 r k)
      = hiddenT (rd2 a0) (rd2 a1) (rd2 a2) (rd2 u0) (rd2 u1) (rd2 u2) (fun c => rd2 b 0 c) r.val k.val := by
  unfold hidV hiddenT
  rw [maximumf_apply, addf_apply, addf_apply, addf_apply, broadcast_apply, prod_rd, prod_rd, prod_rd, row_rd]
  exact congrArg (max _) Ideal.ofBits_zero_f32

/-- The second layer over a first layer h: the product with the second weight into a zero accumulator plus the second
    bias row spread over the rows, at (r, j). -/
theorem out_rd {φ₁ φ₂ : FTy} (h : FVec Ideal ⟨2, ![M, 64]⟩ φ₁) (w : FVec Ideal ⟨2, ![64, 64]⟩ φ₂)
    (b : FVec Ideal ⟨2, ![1, 64]⟩ .f32) (hc : (⟨2, ![1, 64]⟩ : Shape).ShapeCasts ⟨2, ![1, 64]⟩)
    (hb : (⟨2, ![1, 64]⟩ : Shape).Broadcasts ⟨2, ![M, 64]⟩) (r : Fin M) (j : Fin 64) :
    addf (matmul (F := Ideal) (DotDims.plain M 64 64) none h w (constant ⟨2, ![M, 64]⟩ .f32 0x00000000#32))
        (broadcastTo ⟨2, ![M, 64]⟩ (shapeCast ⟨2, ![1, 64]⟩ b hc) hb) (ix2 r j)
      = (∑ k ∈ range 64, rd2 h r.val k * rd2 w k j.val) + rd2 b 0 j.val := by
  rw [addf_apply, prod_rd, row_rd]

/-- The index above (j) of a row-reduced M×64 table with row coordinate r is (r, j). -/
theorem lift_ix (h : (⟨2, ![M, 64]⟩ : Shape).Reduces [(0 : Fin 2)] ⟨1, ![64]⟩) (j : Fin 64) (r : Fin M) :
    h.lift (ix1 j) r = ix2 r j :=
  funext fun c => Fin.ext (by
    match c with
    | ⟨0, _⟩ => rfl
    | ⟨1, _⟩ => rfl)

/-- The column sums of an M×64 table: a sum over axis 0 from the neutral word, cast to one row, cast to its own shape,
    spread over 8 rows and added to an 8×64 block, at (i, j). -/
theorem colsum_rd (v : FVec Ideal ⟨2, ![M, 64]⟩ .f32) (o : FVec Ideal ⟨2, ![8, 64]⟩ .f32)
    (hr : (⟨2, ![M, 64]⟩ : Shape).Reduces [(0 : Fin 2)] ⟨1, ![64]⟩) (hφ : FKind.Formats .f32)
    (hacc : (0x00000000#32 : BitVec 32) = FKind.add.neutral .f32 hφ)
    (h1 : (⟨1, ![64]⟩ : Shape).ShapeCasts ⟨2, ![1, 64]⟩) (h2 : (⟨2, ![8, 64]⟩ : Shape).ShapeCasts ⟨2, ![8, 64]⟩)
    (h3 : (⟨2, ![1, 64]⟩ : Shape).ShapeCasts ⟨2, ![1, 64]⟩) (h4 : (⟨2, ![1, 64]⟩ : Shape).Broadcasts ⟨2, ![8, 64]⟩)
    (i : Fin 8) (j : Fin 64) :
    addf (shapeCast ⟨2, ![8, 64]⟩ o h2)
        (broadcastTo ⟨2, ![8, 64]⟩
          (shapeCast ⟨2, ![1, 64]⟩ (shapeCast ⟨2, ![1, 64]⟩ (multiReduction .add [(0 : Fin 2)] ⟨1, ![64]⟩ v 0x00000000#32 hr hφ hacc) h1) h3)
          h4) (ix2 i j)
      = o (ix2 i j) + ∑ r ∈ range M, rd2 v r j.val := by
  rw [addf_apply, shapeCast_self, shapeCast_self, Cert.LibDenseStage.row_broadcastTo 8 64 _ h4 i j]
  refine congrArg (o (ix2 i j) + ·) ?_
  refine (shapeCast_apply _ h1 (ix2 (0 : Fin 1) j) (ix1 j) ?_).trans ?_
  · rw [Shape.rowMajor_val_one, Shape.rowMajor_val_two]
    show j.val = 0 * 64 + j.val
    omega
  · refine (Ideal.multiReduction_add_single v 0x00000000#32 hr hφ hacc (ix1 j)).trans ?_
    refine Eq.trans ?_ (sum_fin M fun r => rd2 v r j.val)
    refine Finset.sum_congr rfl fun r _ => ?_
    exact (congrArg v (lift_ix M hr j r)).trans (rd2_ix v r j)

end Rows

/-! ## The first region: tiles of 8000 rows -/

section Region0

variable (x0 : Vec Ideal S8000x64 .f32) (x1 x2 : Vec Ideal S8000x64 .bf16) (x3 x4 x5 : Vec Ideal S64x64 .f32)
  (x6 : Vec Ideal S1x64 .f32) (x7 : Vec Ideal S64x64 .f32) (x8 : Vec Ideal S1x64 .f32) (xo : Vec Ideal S8x64 .f32)

/-- The body's product is the plain 8000×64 by 64×64 product. -/
theorem dot0_plain : dot_S8000x64_S64x64_S8000x64_1_0_0_1_n_n = DotDims.plain 8000 64 64 := rfl

/-- The first region's tile before the second bias, as the two layers. -/
theorem k0_pay4_eq :
    k0_pay4 (F := Ideal) x0 x1 x2 x3 x4 x5 x6 x7
      = matmul (F := Ideal) (DotDims.plain 8000 64 64) none
          (truncf .bf16
            (hidV 8000 (φ₁ := .bf16) (φ₂ := .bf16) (truncf .bf16 x0 Facts₀.bitsLt_bf16_f32)
              (shapeCast S8000x64 x1 Facts₀.shapeCasts_S8000x64_S8000x64)
              (shapeCast S8000x64 x2 Facts₀.shapeCasts_S8000x64_S8000x64)
              (truncf .bf16 (shapeCast S64x64 x3 Facts₀.shapeCasts_S64x64_S64x64) Facts₀.bitsLt_bf16_f32)
              (truncf .bf16 (shapeCast S64x64 x4 Facts₀.shapeCasts_S64x64_S64x64) Facts₀.bitsLt_bf16_f32)
              (truncf .bf16 (shapeCast S64x64 x5 Facts₀.shapeCasts_S64x64_S64x64) Facts₀.bitsLt_bf16_f32)
              x6 Facts₀.shapeCasts_S1x64_S1x64 Facts₀.broadcasts_S1x64_S8000x64)
            Facts₀.bitsLt_bf16_f32)
          (truncf .bf16 x7 Facts₀.bitsLt_bf16_f32) (constant ⟨2, ![8000, 64]⟩ .f32 0x00000000#32) := rfl

/-- The first region's tile at (r, j) is the specification's perceptron in its banded form. -/
theorem pay1_apply (r : Fin 8000) (j : Fin 64) :
    k0_pay1 (F := Ideal) (k0_pay4 x0 x1 x2 x3 x4 x5 x6 x7) x8 (ix2 r j)
      = mlpT (rd2 x0) (rd2 x1) (rd2 x2) (rd2 x3) (rd2 x4) (rd2 x5) (fun k => rd2 x6 0 k) (rd2 x7) (fun k => rd2 x8 0 k)
          r.val j.val := by
  rw [k0_pay4_eq]
  refine (out_rd 8000 _ _ x8 Facts₀.shapeCasts_S1x64_S1x64 Facts₀.broadcasts_S1x64_S8000x64 r j).trans ?_
  unfold mlpT
  refine congrArg (· + rd2 x8 0 j.val) ?_
  refine Finset.sum_congr rfl fun k hk => ?_
  have hk' : k < 64 := Finset.mem_range.mp hk
  rw [rd2_truncf, rd2_truncf, rd2_mk _ r.val r.isLt k hk', hidV_apply]
  simp only [shapeCast_self, rd2_truncf]

/-- The first region's block of column sums at (i, j): the block's old entry plus the tile's column sum. -/
theorem pay2_apply (i : Fin 8) (j : Fin 64) :
    k0_pay2 (F := Ideal) (k0_pay4 x0 x1 x2 x3 x4 x5 x6 x7) x8 xo (ix2 i j)
      = xo (ix2 i j) + ∑ r ∈ range 8000,
          mlpT (rd2 x0) (rd2 x1) (rd2 x2) (rd2 x3) (rd2 x4) (rd2 x5) (fun k => rd2 x6 0 k) (rd2 x7) (fun k => rd2 x8 0 k)
            r j.val := by
  refine (colsum_rd 8000 (k0_pay1 (F := Ideal) (k0_pay4 x0 x1 x2 x3 x4 x5 x6 x7) x8) xo Facts₀.reduces_S8000x64_S64 (.inl rfl) rfl
    Facts₀.shapeCasts_S64_S1x64 Facts₀.shapeCasts_S8x64_S8x64 Facts₀.shapeCasts_S1x64_S1x64 Facts₀.broadcasts_S1x64_S8x64 i j).trans ?_
  refine congrArg (xo (ix2 i j) + ·) ?_
  refine Finset.sum_congr rfl fun r hr => ?_
  have hr' : r < 8000 := Finset.mem_range.mp hr
  rw [rd2_mk _ r hr' j.val j.isLt]
  exact pay1_apply x0 x1 x2 x3 x4 x5 x6 x7 x8 ⟨r, hr'⟩ j

/-- The first region's starting block is 0 everywhere. -/
theorem pay3_apply (i : Fin 8) (j : Fin 64) : k0_pay3 (F := Ideal) (ix2 i j) = 0 :=
  Ideal.ofBits_zero_f32

end Region0

/-! ## The second region: tiles of 5000 rows -/

section Region1

variable (x0 x1 x2 : Vec Ideal S5000x64 .f32) (x3 x4 x5 : Vec Ideal S64x64 .f32) (x6 : Vec Ideal S1x64 .f32)
  (x7 : Vec Ideal S64x64 .f32) (x8 : Vec Ideal S1x64 .f32) (xo : Vec Ideal S8x64 .f32)

/-- The body's product is the plain 5000×64 by 64×64 product. -/
theorem dot1_plain : dot_S5000x64_S64x64_S5000x64_1_0_0_1_n_n = DotDims.plain 5000 64 64 := rfl

/-- The second region's first layer, narrowed. -/
theorem k1_pay5_eq :
    k1_pay5 (F := Ideal) x0 x1 x2 x3 x4 x5 x6
      = truncf .bf16
          (hidV 5000 (truncf .bf16 x0 Facts₀.bitsLt_bf16_f32)
            (truncf .bf16 (shapeCast S5000x64 x1 Facts₀.shapeCasts_S5000x64_S5000x64) Facts₀.bitsLt_bf16_f32)
            (truncf .bf16 (shapeCast S5000x64 x2 Facts₀.shapeCasts_S5000x64_S5000x64) Facts₀.bitsLt_bf16_f32)
            (truncf .bf16 (shapeCast S64x64 x3 Facts₀.shapeCasts_S64x64_S64x64) Facts₀.bitsLt_bf16_f32)
            (truncf .bf16 (shapeCast S64x64 x4 Facts₀.shapeCasts_S64x64_S64x64) Facts₀.bitsLt_bf16_f32)
            (truncf .bf16 (shapeCast S64x64 x5 Facts₀.shapeCasts_S64x64_S64x64) Facts₀.bitsLt_bf16_f32)
            x6 Facts₀.shapeCasts_S1x64_S1x64 Facts₀.broadcasts_S1x64_S5000x64)
          Facts₀.bitsLt_bf16_f32 := rfl

/-- The second region's tile, as the second layer over the narrowed first layer and weight. -/
theorem k1_pay1_eq (h : FVec Ideal S5000x64 .bf16) (w : FVec Ideal S64x64 .bf16) :
    k1_pay1 (F := Ideal) w h (constant S5000x64 .f32 0x00000000#32) x8
      = addf (matmul (F := Ideal) (DotDims.plain 5000 64 64) none h w (constant ⟨2, ![5000, 64]⟩ .f32 0x00000000#32))
          (broadcastTo ⟨2, ![5000, 64]⟩ (shapeCast ⟨2, ![1, 64]⟩ x8 Facts₀.shapeCasts_S1x64_S1x64)
            Facts₀.broadcasts_S1x64_S5000x64) := rfl

/-- The second region's tile at (r, j) is the specification's perceptron in its banded form. -/
theorem r1_pay1_apply (r : Fin 5000) (j : Fin 64) :
    k1_pay1 (F := Ideal) (k1_pay4 x7) (k1_pay5 x0 x1 x2 x3 x4 x5 x6) (constant S5000x64 .f32 0x00000000#32) x8 (ix2 r j)
      = mlpT (rd2 x0) (rd2 x1) (rd2 x2) (rd2 x3) (rd2 x4) (rd2 x5) (fun k => rd2 x6 0 k) (rd2 x7) (fun k => rd2 x8 0 k)
          r.val j.val := by
  rw [k1_pay1_eq, k1_pay5_eq]
  refine (out_rd 5000 _ _ x8 Facts₀.shapeCasts_S1x64_S1x64 Facts₀.broadcasts_S1x64_S5000x64 r j).trans ?_
  unfold mlpT k1_pay4
  refine congrArg (· + rd2 x8 0 j.val) ?_
  refine Finset.sum_congr rfl fun k hk => ?_
  have hk' : k < 64 := Finset.mem_range.mp hk
  rw [rd2_truncf, rd2_truncf, rd2_mk _ r.val r.isLt k hk', hidV_apply]
  simp only [shapeCast_self, rd2_truncf]

/-- The second region's block of column sums at (i, j): the block's old entry plus the tile's column sum. -/
theorem r1_pay2_apply (i : Fin 8) (j : Fin 64) :
    k1_pay2 (F := Ideal) (k1_pay4 x7) (k1_pay5 x0 x1 x2 x3 x4 x5 x6) (constant S5000x64 .f32 0x00000000#32) x8 xo (ix2 i j)
      = xo (ix2 i j) + ∑ r ∈ range 5000,
          mlpT (rd2 x0) (rd2 x1) (rd2 x2) (rd2 x3) (rd2 x4) (rd2 x5) (fun k => rd2 x6 0 k) (rd2 x7) (fun k => rd2 x8 0 k)
            r j.val := by
  refine (colsum_rd 5000
    (k1_pay1 (F := Ideal) (k1_pay4 x7) (k1_pay5 x0 x1 x2 x3 x4 x5 x6) (constant S5000x64 .f32 0x00000000#32) x8) xo
    Facts₀.reduces_S5000x64_S64 (.inl rfl) rfl
    Facts₀.shapeCasts_S64_S1x64 Facts₀.shapeCasts_S8x64_S8x64 Facts₀.shapeCasts_S1x64_S1x64 Facts₀.broadcasts_S1x64_S8x64 i j).trans ?_
  refine congrArg (xo (ix2 i j) + ·) ?_
  refine Finset.sum_congr rfl fun r hr => ?_
  have hr' : r < 5000 := Finset.mem_range.mp hr
  rw [rd2_mk _ r hr' j.val j.isLt]
  exact r1_pay1_apply x0 x1 x2 x3 x4 x5 x6 x7 x8 ⟨r, hr'⟩ j

/-- The second region's starting block is 0 everywhere. -/
theorem r1_pay3_apply (i : Fin 8) (j : Fin 64) : k1_pay3 (F := Ideal) (ix2 i j) = 0 :=
  Ideal.ofBits_zero_f32

end Region1

end Cert.KernelIdeal.Payload

end
-- ==== Proof.KI.R0Final.lean ====
/-
  Region 0, from blocks to arrays: the tile array after the region.

  At grid point t the three row windows hold rows 8000·t … 8000·t + 7999 of their arrays and the six weight and bias
  windows hold their whole arrays, so the tile the body leaves at point t is, at (r, j), the banded perceptron of the
  whole arrays at row 8000·t + r. Every point writes its tile back as block t of the tile array, and row R of that
  array lies in the block of point R / 8000; so the array ends holding the perceptron of the whole arrays, row by row.
-/
import proofs.«128321_j38912403702319_2_alg».proof.Proof.KI.R0Value
import proofs.«128321_j38912403702319_2_alg».proof.Proof.KIPayload

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec Cert.NatRead Cert.KernelIdeal.Payload

variable (V : Conts Ideal)

/-! ## The arrays the windows are over, as the region finds them -/

abbrev A0 (c : Dev nD) : (⟨2, ![800000, 64]⟩ : Shape).Idx → EReal := V c (Pipeline.arrRef spec0 0)
abbrev A1 (c : Dev nD) : (⟨2, ![800000, 64]⟩ : Shape).Idx → EReal := V c (Pipeline.arrRef spec0 1)
abbrev A2 (c : Dev nD) : (⟨2, ![800000, 64]⟩ : Shape).Idx → EReal := V c (Pipeline.arrRef spec0 2)
abbrev A3 (c : Dev nD) : (⟨2, ![64, 64]⟩ : Shape).Idx → EReal := V c (Pipeline.arrRef spec0 3)
abbrev A4 (c : Dev nD) : (⟨2, ![64, 64]⟩ : Shape).Idx → EReal := V c (Pipeline.arrRef spec0 4)
abbrev A5 (c : Dev nD) : (⟨2, ![64, 64]⟩ : Shape).Idx → EReal := V c (Pipeline.arrRef spec0 5)
abbrev A6 (c : Dev nD) : (⟨2, ![1, 64]⟩ : Shape).Idx → EReal := V c (Pipeline.arrRef spec0 6)
abbrev A7 (c : Dev nD) : (⟨2, ![64, 64]⟩ : Shape).Idx → EReal := V c (Pipeline.arrRef spec0 7)
abbrev A8 (c : Dev nD) : (⟨2, ![1, 64]⟩ : Shape).Idx → EReal := V c (Pipeline.arrRef spec0 8)

/-- The perceptron of the whole arrays at row R, unit j. -/
abbrev P (c : Dev nD) (R j : ℕ) : EReal :=
  mlpT (rd2 (A0 V c)) (rd2 (A1 V c)) (rd2 (A2 V c)) (rd2 (A3 V c)) (rd2 (A4 V c)) (rd2 (A5 V c)) (fun k => rd2 (A6 V c) 0 k)
    (rd2 (A7 V c)) (fun k => rd2 (A8 V c) 0 k) R j

/-- The perceptron at a row depends on the three row tables only through that row. -/
theorem mlpT_rows (x0 x1 x2 X0 X1 X2 wa wb wc : ℕ → ℕ → EReal) (b : ℕ → EReal) (W2 : ℕ → ℕ → EReal) (b2 : ℕ → EReal)
    (r R j : ℕ) (h0 : ∀ q, x0 r q = X0 R q) (h1 : ∀ q, x1 r q = X1 R q) (h2 : ∀ q, x2 r q = X2 R q) :
    mlpT x0 x1 x2 wa wb wc b W2 b2 r j = mlpT X0 X1 X2 wa wb wc b W2 b2 R j := by
  unfold mlpT hiddenT
  simp only [h0, h1, h2]

/-! ## The printed index maps, decided over the grid -/

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0)
    ∧ (win0_10.index t (0 : Fin 2) = t.val / 50 ∧ win0_10.index t (1 : Fin 2) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem hN : cfg0.N = 100 := N_0

/-! ## The blocks the body reads, as parts of the arrays -/

theorem iblk0_at (c : Dev nD) (t : Fin cfg0.N) (r : Fin 8000) (q : Fin 64) :
    (iblk V c 0 t : Vec Ideal S8000x64 .f32) (ix2 r q)
      = A0 V c (ix2 ⟨8000 * t.val + r.val, by have := t.isLt; have := r.isLt; have := hN; omega⟩ q) := by
  obtain ⟨⟨e0, e1⟩, -⟩ := idx_rows t
  unfold iblk
  rw [View.read_apply]
  show V c (Pipeline.arrRef spec0 0) _ = V c (Pipeline.arrRef spec0 0) _
  congr 1
  funext a
  apply Fin.ext
  match a with
  | ⟨0, _⟩ => show win0_0.index t 0 * 8000 + 1 * r.val = 8000 * t.val + r.val; rw [e0]; omega
  | ⟨1, _⟩ => show win0_0.index t 1 * 64 + 1 * q.val = q.val; rw [e1]; omega

theorem iblk1_at (c : Dev nD) (t : Fin cfg0.N) (r : Fin 8000) (q : Fin 64) :
    (iblk V c 1 t : Vec Ideal S8000x64 .bf16) (ix2 r q)
      = A1 V c (ix2 ⟨8000 * t.val + r.val, by have := t.isLt; have := r.isLt; have := hN; omega⟩ q) := by
  obtain ⟨-, ⟨e0, e1⟩, -⟩ := idx_rows t
  unfold iblk
  rw [View.read_apply]
  show V c (Pipeline.arrRef spec0 1) _ = V c (Pipeline.arrRef spec0 1) _
  congr 1
  funext a
  apply Fin.ext
  match a with
  | ⟨0, _⟩ => show win0_1.index t 0 * 8000 + 1 * r.val = 8000 * t.val + r.val; rw [e0]; omega
  | ⟨1, _⟩ => show win0_1.index t 1 * 64 + 1 * q.val = q.val; rw [e1]; omega

theorem iblk2_at (c : Dev nD) (t : Fin cfg0.N) (r : Fin 8000) (q : Fin 64) :
    (iblk V c 2 t : Vec Ideal S8000x64 .bf16) (ix2 r q)
      = A2 V c (ix2 ⟨8000 * t.val + r.val, by have := t.isLt; have := r.isLt; have := hN; omega⟩ q) := by
  obtain ⟨-, -, ⟨e0, e1⟩, -⟩ := idx_rows t
  unfold iblk
  rw [View.read_apply]
  show V c (Pipeline.arrRef spec0 2) _ = V c (Pipeline.arrRef spec0 2) _
  congr 1
  funext a
  apply Fin.ext
  match a with
  | ⟨0, _⟩ => show win0_2.index t 0 * 8000 + 1 * r.val = 8000 * t.val + r.val; rw [e0]; omega
  | ⟨1, _⟩ => show win0_2.index t 1 * 64 + 1 * q.val = q.val; rw [e1]; omega

/-- A reading of a block of 8000 rows is the reading of the array 8000·t rows further down. -/
theorem rd_of_at {B : (⟨2, ![8000, 64]⟩ : Shape).Idx → EReal} {A : (⟨2, ![800000, 64]⟩ : Shape).Idx → EReal} (t : ℕ) (ht : t < 100)
    (h : ∀ (r : Fin 8000) (q : Fin 64), B (ix2 r q) = A (ix2 ⟨8000 * t + r.val, by have := r.isLt; omega⟩ q))
    (r : ℕ) (hr : r < 8000) (q : ℕ) : rd2 B r q = rd2 A (8000 * t + r) q := by
  by_cases hq : q < 64
  · rw [rd2_mk B r hr q hq, rd2_mk A (8000 * t + r) (by omega) q hq]
    exact h ⟨r, hr⟩ ⟨q, hq⟩
  · unfold rd2
    rw [dif_neg (fun h => hq h.2), dif_neg (fun h => hq h.2)]

theorem rd_blk0 (c : Dev nD) (t : Fin cfg0.N) (r : ℕ) (hr : r < 8000) (q : ℕ) :
    rd2 (iblk V c 0 t : Vec Ideal S8000x64 .f32) r q = rd2 (A0 V c) (8000 * t.val + r) q :=
  rd_of_at t.val (lt_of_lt_of_eq t.isLt hN) (iblk0_at V c t) r hr q
theorem rd_blk1 (c : Dev nD) (t : Fin cfg0.N) (r : ℕ) (hr : r < 8000) (q : ℕ) :
    rd2 (iblk V c 1 t : Vec Ideal S8000x64 .bf16) r q = rd2 (A1 V c) (8000 * t.val + r) q :=
  rd_of_at t.val (lt_of_lt_of_eq t.isLt hN) (iblk1_at V c t) r hr q
theorem rd_blk2 (c : Dev nD) (t : Fin cfg0.N) (r : ℕ) (hr : r < 8000) (q : ℕ) :
    rd2 (iblk V c 2 t : Vec Ideal S8000x64 .bf16) r q = rd2 (A2 V c) (8000 * t.val + r) q :=
  rd_of_at t.val (lt_of_lt_of_eq t.isLt hN) (iblk2_at V c t) r hr q

/-- The windows over the weights and the bias rows hold their whole arrays at every point. -/
theorem iblk3_eq (c : Dev nD) (t : Fin cfg0.N) : (iblk V c 3 t : Vec Ideal S64x64 .f32) = A3 V c := by
  obtain ⟨⟨e0, e1⟩, -⟩ := idx_whole t
  funext j
  unfold iblk
  rw [View.read_apply]
  show V c (Pipeline.arrRef spec0 3) _ = V c (Pipeline.arrRef spec0 3) _
  congr 1
  funext a
  apply Fin.ext
  match a with
  | ⟨0, _⟩ => show win0_3.index t 0 * 64 + 1 * (j 0).val = (j 0).val; rw [e0]; omega
  | ⟨1, _⟩ => show win0_3.index t 1 * 64 + 1 * (j 1).val = (j 1).val; rw [e1]; omega
theorem iblk4_eq (c : Dev nD) (t : Fin cfg0.N) : (iblk V c 4 t : Vec Ideal S64x64 .f32) = A4 V c := by
  obtain ⟨-, ⟨e0, e1⟩, -⟩ := idx_whole t
  funext j
  unfold iblk
  rw [View.read_apply]
  show V c (Pipeline.arrRef spec0 4) _ = V c (Pipeline.arrRef spec0 4) _
  congr 1
  funext a
  apply Fin.ext
  match a with
  | ⟨0, _⟩ => show win0_4.index t 0 * 64 + 1 * (j 0).val = (j 0).val; rw [e0]; omega
  | ⟨1, _⟩ => show win0_4.index t 1 * 64 + 1 * (j 1).val = (j 1).val; rw [e1]; omega
theorem iblk5_eq (c : Dev nD) (t : Fin cfg0.N) : (iblk V c 5 t : Vec Ideal S64x64 .f32) = A5 V c := by
  obtain ⟨-, -, ⟨e0, e1⟩, -⟩ := idx_whole t
  funext j
  unfold iblk
  rw [View.read_apply]
  show V c (Pipeline.arrRef spec0 5) _ = V c (Pipeline.arrRef spec0 5) _
  congr 1
  funext a
  apply Fin.ext
  match a with
  | ⟨0, _⟩ => show win0_5.index t 0 * 64 + 1 * (j 0).val = (j 0).val; rw [e0]; omega
  | ⟨1, _⟩ => show win0_5.index t 1 * 64 + 1 * (j 1).val = (j 1).val; rw [e1]; omega
theorem iblk6_eq (c : Dev nD) (t : Fin cfg0.N) : (iblk V c 6 t : Vec Ideal S1x64 .f32) = A6 V c := by
  obtain ⟨-, -, -, ⟨e0, e1⟩, -⟩ := idx_whole t
  funext j
  unfold iblk
  rw [View.read_apply]
  show V c (Pipeline.arrRef spec0 6) _ = V c (Pipeline.arrRef spec0 6) _
  congr 1
  funext a
  apply Fin.ext
  match a with
  | ⟨0, _⟩ => show win0_6.index t 0 * 1 + 1 * (j 0).val = (j 0).val; rw [e0]; omega
  | ⟨1, _⟩ => show win0_6.index t 1 * 64 + 1 * (j 1).val = (j 1).val; rw [e1]; omega
theorem iblk7_eq (c : Dev nD) (t : Fin cfg0.N) : (iblk V c 7 t : Vec Ideal S64x64 .f32) = A7 V c := by
  obtain ⟨-, -, -, -, ⟨e0, e1⟩, -⟩ := idx_whole t
  funext j
  unfold iblk
  rw [View.read_apply]
  show V c (Pipeline.arrRef spec0 7) _ = V c (Pipeline.arrRef spec0 7) _
  congr 1
  funext a
  apply Fin.ext
  match a with
  | ⟨0, _⟩ => show win0_7.index t 0 * 64 + 1 * (j 0).val = (j 0).val; rw [e0]; omega
  | ⟨1, _⟩ => show win0_7.index t 1 * 64 + 1 * (j 1).val = (j 1).val; rw [e1]; omega
theorem iblk8_eq (c : Dev nD) (t : Fin cfg0.N) : (iblk V c 8 t : Vec Ideal S1x64 .f32) = A8 V c := by
  obtain ⟨-, -, -, -, -, ⟨e0, e1⟩⟩ := idx_whole t
  funext j
  unfold iblk
  rw [View.read_apply]
  show V c (Pipeline.arrRef spec0 8) _ = V c (Pipeline.arrRef spec0 8) _
  congr 1
  funext a
  apply Fin.ext
  match a with
  | ⟨0, _⟩ => show win0_8.index t 0 * 1 + 1 * (j 0).val = (j 0).val; rw [e0]; omega
  | ⟨1, _⟩ => show win0_8.index t 1 * 64 + 1 * (j 1).val = (j 1).val; rw [e1]; omega

/-! ## The output tile -/

/-- The tile after point t at (r, j) is the perceptron of the whole arrays at row 8000·t + r. -/
theorem tile_at (c : Dev nD) (t : Fin cfg0.N) (r : Fin 8000) (j : Fin 64) :
    tileF (iblk V c 0 t) (iblk V c 1 t) (iblk V c 2 t) (iblk V c 3 t) (iblk V c 4 t) (iblk V c 5 t) (iblk V c 6 t)
        (iblk V c 7 t) (iblk V c 8 t) (ix2 r j)
      = P V c (8000 * t.val + r.val) j.val := by
  unfold tileF
  refine (pay1_apply (iblk V c 0 t) (iblk V c 1 t) (iblk V c 2 t) (iblk V c 3 t) (iblk V c 4 t) (iblk V c 5 t) (iblk V c 6 t)
    (iblk V c 7 t) (iblk V c 8 t) r j).trans ?_
  rw [iblk3_eq, iblk4_eq, iblk5_eq, iblk6_eq, iblk7_eq, iblk8_eq]
  exact mlpT_rows _ _ _ _ _ _ _ _ _ _ _ _ _ _ _ (fun q => rd_blk0 V c t r.val r.isLt q) (fun q => rd_blk1 V c t r.val r.isLt q)
    (fun q => rd_blk2 V c t r.val r.isLt q)

/-- What the tile array ends holding: the perceptron of the whole arrays, row by row. -/
abbrev G9 (c : Dev nD) : (⟨2, ![800000, 64]⟩ : Shape).Idx → EReal := fun i => P V c (i 0).val (i 1).val

/-- What point t writes back is block t of that. -/
theorem flushed9_eq (c : Dev nD) (t : Fin cfg0.N) :
    (dat V c).flushed 9 t = ((cfg0.win 9).blk t).view.read (Elt Ideal) (G9 V c) := by
  obtain ⟨-, -, -, ⟨e0, e1⟩, -⟩ := idx_rows t
  show (cfg0.win 9).cut (grid0.coords t) ((dat V c).after 9 t) = _
  rw [after9, tileAt_eq]
  funext y
  rw [View.read_apply]
  obtain ⟨r, j, rfl⟩ : ∃ (r : Fin 8000) (j : Fin 64), y = ix2 r j := ⟨y 0, y 1, eq_ix2 y⟩
  refine (tile_at V c t r j).trans ?_
  show P V c (8000 * t.val + r.val) j.val = P V c (win0_9.index t 0 * 8000 + 1 * r.val) (win0_9.index t 1 * 64 + 1 * j.val)
  rw [e0, e1]
  exact congr (congrArg (P V c) (by omega)) (by omega)

/-- An index of the tile array is in point t's block iff each coordinate is in the block's range on its axis. -/
theorem mem_blk9 (t : Fin cfg0.N) (i : S800000x64.Idx) :
    i ∈ ((cfg0.win 9).blk t).view.set
      ↔ ∀ a : Fin 2, win0_9.index t a * S8000x64.size a ≤ (i a).val ∧ (i a).val < win0_9.index t a * S8000x64.size a + S8000x64.size a := by
  show i ∈ ((View.whole main_v24_0).slice (win0_9.rect t)).set ↔ _
  rw [View.set_slice_whole, Rect.mem_set_unit]
  exact Iff.rfl

/-- Every row of the tile array is in the block of the point its number divided by 8000 names. -/
theorem cover9 (i : S800000x64.Idx) : ∃ t : Fin cfg0.N, (cfg0.win 9).flush t = true ∧ i ∈ ((cfg0.win 9).blk t).view.set := by
  have hi0 : (i 0).val < 800000 := (i 0).isLt
  have hi1 : (i 1).val < 64 := (i 1).isLt
  refine ⟨⟨(i 0).val / 8000, by rw [hN]; omega⟩, flush0_9 _, ?_⟩
  obtain ⟨-, -, -, ⟨e0, e1⟩, -⟩ := idx_rows ⟨(i 0).val / 8000, by rw [hN]; omega⟩
  rw [mem_blk9]
  intro a
  match a with
  | ⟨0, _⟩ =>
    show win0_9.index _ 0 * 8000 ≤ (i 0).val ∧ (i 0).val < win0_9.index _ 0 * 8000 + 8000
    rw [e0]; dsimp only; omega
  | ⟨1, _⟩ =>
    show win0_9.index _ 1 * 64 ≤ (i 1).val ∧ (i 1).val < win0_9.index _ 1 * 64 + 64
    rw [e1]; omega

/-- The tile array after the region: the perceptron of the whole arrays, row by row. -/
theorem final9 (c : Dev nD) : (dat V c).arrAt 9 cfg0.N = G9 V c :=
  (dat V c).arrAt_eq_of_cover 9 (G9 V c) (fun t _ => flushed9_eq V c t) cover9

end Cert.KernelIdeal.R0

end
-- ==== Proof.KI.R0FinalSums.lean ====
/-
  Region 0, from blocks to arrays: the column-sum array after the region.

  The column-sum block is carried along a core's 50 points: zeroed at the core's first point, then at every point the
  tile's column sums are added. The tile at point t is the perceptron of the whole arrays over rows 8000·t … 8000·t + 7999,
  so after point n the block holds, in each of its 8 rows, the sum tile by tile over the first n % 50 + 1 tiles of the
  core's 400000 rows; sums on the extended reals regroup freely, so after the core's last point that is the sum over all of
  the core's rows. That point writes the block back as the core's 8 rows of the [16, 64] array, and every row of the array
  is one of those.
-/
import proofs.«128321_j38912403702319_2_alg».proof.Proof.KI.R0Final

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec Cert.NatRead Cert.KernelIdeal.Payload

variable (V : Conts Ideal)

/-! ## The column-sum block -/

/-- One step of the running column sums at point t, over the block's contents xo before: the tile's column sums are the
    sums of the perceptron of the whole arrays over rows 8000·t … 8000·t + 7999. -/
theorem acc_at (c : Dev nD) (t : Fin cfg0.N) (xo : Vec Ideal S8x64 .f32) (i : Fin 8) (j : Fin 64) :
    accF (iblk V c 0 t) (iblk V c 1 t) (iblk V c 2 t) (iblk V c 3 t) (iblk V c 4 t) (iblk V c 5 t) (iblk V c 6 t)
        (iblk V c 7 t) (iblk V c 8 t) xo (ix2 i j)
      = xo (ix2 i j) + ∑ r ∈ Finset.range 8000, P V c (8000 * t.val + r) j.val := by
  unfold accF
  refine (pay2_apply (iblk V c 0 t) (iblk V c 1 t) (iblk V c 2 t) (iblk V c 3 t) (iblk V c 4 t) (iblk V c 5 t) (iblk V c 6 t)
    (iblk V c 7 t) (iblk V c 8 t) xo i j).trans ?_
  refine congrArg (xo (ix2 i j) + ·) (Finset.sum_congr rfl fun r hr => ?_)
  have hr' : r < 8000 := Finset.mem_range.mp hr
  rw [iblk3_eq, iblk4_eq, iblk5_eq, iblk6_eq, iblk7_eq, iblk8_eq]
  exact mlpT_rows _ _ _ _ _ _ _ _ _ _ _ _ _ _ _ (fun q => rd_blk0 V c t r hr' q) (fun q => rd_blk1 V c t r hr' q)
    (fun q => rd_blk2 V c t r hr' q)

theorem zero_at (i : Fin 8) (j : Fin 64) : (zeroF : Vec Ideal S8x64 .f32) (ix2 i j) = 0 := pay3_apply i j

/-- The running column sums after point n, in closed form: the tiles of the core's rows so far, summed tile by tile. -/
theorem chain_closed (c : Dev nD) (i : Fin 8) (j : Fin 64) : ∀ (n : ℕ) (h : n < cfg0.N),
    chain V c n h (ix2 i j) = tileAcc (fun R => P V c (400000 * (n / 50) + R) j.val) 8000 (n % 50 + 1)
  | 0, h => by
    rw [chain, acc_at V c ⟨0, h⟩ zeroF i j, zero_at, zero_add]
    show _ = tileAcc _ 8000 (0 + 1)
    rw [tileAcc, tileAcc, zero_add]
    refine Finset.sum_congr rfl fun r _ => ?_
    exact congrArg (P V c · j.val) (by dsimp only; omega)
  | n + 1, h => by
    by_cases h0 : (n + 1) % 50 = 0
    · rw [chain, if_pos h0, acc_at V c ⟨n + 1, h⟩ zeroF i j, zero_at, zero_add, h0]
      show _ = tileAcc _ 8000 (0 + 1)
      rw [tileAcc, tileAcc, zero_add]
      refine Finset.sum_congr rfl fun r _ => ?_
      exact congrArg (P V c · j.val) (by dsimp only; omega)
    · rw [chain, if_neg h0, acc_at V c ⟨n + 1, h⟩ _ i j, chain_closed c i j n (Nat.lt_of_succ_lt h)]
      have hd : (n + 1) / 50 = n / 50 := by omega
      have hm : (n + 1) % 50 + 1 = (n % 50 + 1) + 1 := by omega
      rw [hd, hm, tileAcc]
      refine congrArg (tileAcc _ 8000 (n % 50 + 1) + ·) (Finset.sum_congr rfl fun r _ => ?_)
      exact congrArg (P V c · j.val) (by dsimp only; omega)

/-- What the column-sum array ends holding: for each core, the column sums of the perceptron over the core's 400000 rows, in
    each of the core's 8 rows of the array. -/
abbrev G10 (c : Dev nD) : (⟨2, ![16, 64]⟩ : Shape).Idx → EReal :=
  fun i => ∑ R ∈ Finset.range 400000, P V c (400000 * ((i 0).val / 8) + R) (i 1).val

/-- What a core's last point writes back is the core's block of that. -/
theorem flushed10_eq (c : Dev nD) (t : Fin cfg0.N) (hf : (cfg0.win 10).flush t = true) :
    (dat V c).flushed 10 t = ((cfg0.win 10).blk t).view.read (Elt Ideal) (G10 V c) := by
  obtain ⟨-, -, -, -, ⟨e0, e1⟩⟩ := idx_rows t
  have h49 : t.val % 50 = 49 := (flush0_10 t).mp hf
  show (cfg0.win 10).cut (grid0.coords t) ((dat V c).after 10 t) = _
  rw [after10, accAt_eq]
  funext y
  generalize hG : G10 V c = G
  rw [View.read_apply]
  obtain ⟨i, j, rfl⟩ : ∃ (i : Fin 8) (j : Fin 64), y = ix2 i j := ⟨y 0, y 1, eq_ix2 y⟩
  have hi : i.val < 8 := i.isLt
  have hemb : ((cfg0.win 10).blk t).view.emb (ix2 i j)
      = (ix2 ⟨8 * (t.val / 50) + i.val, by have := t.isLt; have := hN; omega⟩ j : S16x64.Idx) := by
    funext a
    apply Fin.ext
    match a with
    | ⟨0, _⟩ => show win0_10.index t 0 * 8 + 1 * i.val = 8 * (t.val / 50) + i.val; rw [e0]; omega
    | ⟨1, _⟩ => show win0_10.index t 1 * 64 + 1 * j.val = j.val; rw [e1]; omega
  show _ = G (((cfg0.win 10).blk t).view.emb (ix2 i j))
  rw [hemb, ← hG]
  refine (chain_closed V c i j t.val t.isLt).trans ?_
  rw [tileAcc_eq, h49, show 8000 * (49 + 1) = 400000 from by norm_num]
  refine Finset.sum_congr rfl fun R _ => ?_
  exact congrArg (P V c · j.val) (by dsimp only; omega)

theorem mem_blk10 (t : Fin cfg0.N) (i : S16x64.Idx) :
    i ∈ ((cfg0.win 10).blk t).view.set
      ↔ ∀ a : Fin 2, win0_10.index t a * S8x64.size a ≤ (i a).val ∧ (i a).val < win0_10.index t a * S8x64.size a + S8x64.size a := by
  show i ∈ ((View.whole main_v24_1).slice (win0_10.rect t)).set ↔ _
  rw [View.set_slice_whole, Rect.mem_set_unit]
  exact Iff.rfl

/-- Every row of the column-sum array is in the block the last point of its core writes back. -/
theorem cover10 (i : S16x64.Idx) : ∃ t : Fin cfg0.N, (cfg0.win 10).flush t = true ∧ i ∈ ((cfg0.win 10).blk t).view.set := by
  have hi0 : (i 0).val < 16 := (i 0).isLt
  have hi1 : (i 1).val < 64 := (i 1).isLt
  refine ⟨⟨50 * ((i 0).val / 8) + 49, by rw [hN]; omega⟩, (flush0_10 _).mpr (by dsimp only; omega), ?_⟩
  obtain ⟨-, -, -, -, ⟨e0, e1⟩⟩ := idx_rows ⟨50 * ((i 0).val / 8) + 49, by rw [hN]; omega⟩
  rw [mem_blk10]
  intro a
  match a with
  | ⟨0, _⟩ =>
    show win0_10.index _ 0 * 8 ≤ (i 0).val ∧ (i 0).val < win0_10.index _ 0 * 8 + 8
    rw [e0]; dsimp only; omega
  | ⟨1, _⟩ =>
    show win0_10.index _ 1 * 64 ≤ (i 1).val ∧ (i 1).val < win0_10.index _ 1 * 64 + 64
    rw [e1]; omega

/-- The column-sum array after the region. -/
theorem final10_eq (c : Dev nD) : (dat V c).arrAt 10 cfg0.N = G10 V c :=
  (dat V c).arrAt_eq_of_cover 10 (G10 V c) (flushed10_eq V c) cover10

theorem final10 (c : Dev nD) (a : Fin 16) (j : Fin 64) :
    (dat V c).arrAt 10 cfg0.N (ix2 a j) = ∑ R ∈ Finset.range 400000, P V c (400000 * (a.val / 8) + R) j.val :=
  congrFun (final10_eq V c) (ix2 a j)

/-- The column-sum array after the region, as an array of extended reals. -/
abbrev O10 (c : Dev nD) : (⟨2, ![16, 64]⟩ : Shape).Idx → EReal := (dat V c).arrAt 10 cfg0.N

/-- The two cores' column sums added: the column sums of the perceptron over all 800000 rows. -/
theorem halves10 (c : Dev nD) (j : Fin 64) :
    O10 V c (ix2 (0 : Fin 16) j) + O10 V c (ix2 (8 : Fin 16) j) = ∑ R ∈ Finset.range 800000, P V c R j.val := by
  rw [show O10 V c (ix2 (0 : Fin 16) j) = _ from final10 V c 0 j, show O10 V c (ix2 (8 : Fin 16) j) = _ from final10 V c 8 j]
  refine Eq.trans ?_ (Finset.sum_range_add (fun R => P V c R j.val) 400000 400000).symm
  refine congr (congrArg HAdd.hAdd (Finset.sum_congr rfl fun R _ => ?_)) (Finset.sum_congr rfl fun R _ => ?_)
  · exact congrArg (P V c · j.val) (show 400000 * (0 / 8) + R = R by omega)
  · exact congrArg (P V c · j.val) (show 400000 * (8 / 8) + R = 400000 + R by omega)

end Cert.KernelIdeal.R0

end
-- ==== Proof.KI.R1Value.lean ====
/-
  Region 1: what the body's stores leave, as values. At every grid point the output tile's buffer ends holding the
  perceptron of the point's input blocks; the column-sum block ends holding the tile's column sums added to zero (at the
  first step of a core's row) or to what the step before left. So the block after point n is a running sum defined by
  recursion on n.
-/
import proofs.«128321_j38912403702319_2_alg».proof.Proof.KI.R1Data
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz : (![0, 0] : Fin 2 → Nat) = fun _ => 0 := funext fun a => by fin_cases a <;> rfl

/-- The tile's output as a function of the nine input blocks. -/
def tileF (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) : Vec F S5000x64 .f32 := k1_pay1 (k1_pay4 x7) (k1_pay5 x0 x1 x2 x3 x4 x5 x6) (constant S5000x64 .f32 0x00000000#32) x8
/-- The column-sum block after the tile, over its contents xo before. -/
def accF (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo : Vec F S8x64 .f32) : Vec F S8x64 .f32 := k1_pay2 (k1_pay4 x7) (k1_pay5 x0 x1 x2 x3 x4 x5 x6) (constant S5000x64 .f32 0x00000000#32) x8 xo
/-- The zero block. -/
abbrev zeroF : Vec F S8x64 .f32 := k1_pay3

theorem out_B_9_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    out_B_9 c i arg2 harg2 arg3 harg3 arg4 harg4 arg5 harg5 arg6 harg6 arg7 harg7 arg8 harg8 arg9 harg9 arg10 harg10 arg11 harg11 arg12 harg12 hc x0 x1 x2 x3 x4 x5 x6 x7 x8 xo10 = tileF x0 x1 x2 x3 x4 x5 x6 x7 x8 := by
  unfold out_B_9
  rw [View.read_writes_eq_canon _ _ _ (cover_B_9 c i arg2 harg2 arg3 harg3 arg4 harg4 arg5 harg5 arg6 harg6 arg7 harg7 arg8 harg8 arg9 harg9 arg10 harg10 arg11 harg11 arg12 harg12 hc x0 x1 x2 x3 x4 x5 x6 x7 x8 xo10)]
  unfold kernelRunB
  dsimp only
  sl_unfold_words
  rw [View.canon_unit_zero hz]
  unfold tileF
  simp only [View.readAt_eq_ld, harg2.read_unread, harg3.read_unread, harg4.read_unread, harg5.read_unread, harg6.read_unread, harg7.read_unread, harg8.read_unread, harg9.read_unread, harg10.read_unread, View.ld_unit_zero (S := S5000x64) hz, View.ld_unit_zero (S := S64x64) hz, View.ld_unit_zero (S := S1x64) hz, View.ld_unit_zero (S := S8x64) hz]

theorem out_B_10_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : ¬cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) (xo10 : Vec F S8x64 .f32) :
    out_B_10 c i arg2 harg2 arg3 harg3 arg4 harg4 arg5 harg5 arg6 harg6 arg7 harg7 arg8 harg8 arg9 harg9 arg10 harg10 arg11 harg11 arg12 harg12 hc x0 x1 x2 x3 x4 x5 x6 x7 x8 xo10 = accF x0 x1 x2 x3 x4 x5 x6 x7 x8 xo10 := by
  unfold out_B_10
  rw [View.read_writes_eq_canon _ _ _ (cover_B_10 c i arg2 harg2 arg3 harg3 arg4 harg4 arg5 harg5 arg6 harg6 arg7 harg7 arg8 harg8 arg9 harg9 arg10 harg10 arg11 harg11 arg12 harg12 hc x0 x1 x2 x3 x4 x5 x6 x7 x8 xo10)]
  unfold kernelRunB
  dsimp only
  sl_unfold_words
  rw [View.canon_unit_zero hz]
  unfold accF
  simp only [View.readAt_eq_ld, harg2.read_unread, harg3.read_unread, harg4.read_unread, harg5.read_unread, harg6.read_unread, harg7.read_unread, harg8.read_unread, harg9.read_unread, harg10.read_unread, harg12.read_unread, View.ld_unit_zero (S := S5000x64) hz, View.ld_unit_zero (S := S64x64) hz, View.ld_unit_zero (S := S1x64) hz, View.ld_unit_zero (S := S8x64) hz]

theorem out_A_9_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) :
    out_A_9 c i arg2 harg2 arg3 harg3 arg4 harg4 arg5 harg5 arg6 harg6 arg7 harg7 arg8 harg8 arg9 harg9 arg10 harg10 arg11 harg11 arg12 harg12 hc x0 x1 x2 x3 x4 x5 x6 x7 x8 = tileF x0 x1 x2 x3 x4 x5 x6 x7 x8 := by
  unfold out_A_9
  rw [View.read_writes_eq_canon _ _ _ (cover_A_9 c i arg2 harg2 arg3 harg3 arg4 harg4 arg5 harg5 arg6 harg6 arg7 harg7 arg8 harg8 arg9 harg9 arg10 harg10 arg11 harg11 arg12 harg12 hc x0 x1 x2 x3 x4 x5 x6 x7 x8)]
  unfold kernelRunA
  dsimp only
  sl_unfold_words
  rw [View.canon_unit_zero hz]
  unfold tileF
  simp only [View.readAt_eq_ld, harg2.read_unread, harg3.read_unread, harg4.read_unread, harg5.read_unread, harg6.read_unread, harg7.read_unread, harg8.read_unread, harg9.read_unread, harg10.read_unread, View.ld_unit_zero (S := S5000x64) hz, View.ld_unit_zero (S := S64x64) hz, View.ld_unit_zero (S := S1x64) hz, View.ld_unit_zero (S := S8x64) hz]

theorem out_A_10_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S8x64 .f32) (harg12 : arg12.IsWhole) (hc : cond i) (x0 : Vec F S5000x64 .f32) (x1 : Vec F S5000x64 .f32) (x2 : Vec F S5000x64 .f32) (x3 : Vec F S64x64 .f32) (x4 : Vec F S64x64 .f32) (x5 : Vec F S64x64 .f32) (x6 : Vec F S1x64 .f32) (x7 : Vec F S64x64 .f32) (x8 : Vec F S1x64 .f32) :
    out_A_10 c i arg2 harg2 arg3 harg3 arg4 harg4 arg5 harg5 arg6 harg6 arg7 harg7 arg8 harg8 arg9 harg9 arg10 harg10 arg11 harg11 arg12 harg12 hc x0 x1 x2 x3 x4 x5 x6 x7 x8 = accF x0 x1 x2 x3 x4 x5 x6 x7 x8 zeroF := by
  unfold out_A_10
  rw [View.read_writes_eq_canon _ _ _ (cover_A_10 c i arg2 harg2 arg3 harg3 arg4 harg4 arg5 harg5 arg6 harg6 arg7 harg7 arg8 harg8 arg9 harg9 arg10 harg10 arg11 harg11 arg12 harg12 hc x0 x1 x2 x3 x4 x5 x6 x7 x8)]
  unfold kernelRunA
  dsimp only
  sl_unfold_words
  rw [View.canon_cons_unit_zero (S := S8x64) hz, View.readCov_unit_zero (S := S8x64) _ hz]
  unfold accF
  simp only [View.readAt_eq_ld, harg2.read_unread, harg3.read_unread, harg4.read_unread, harg5.read_unread, harg6.read_unread, harg7.read_unread, harg8.read_unread, harg9.read_unread, harg10.read_unread, View.ld_unit_zero (S := S5000x64) hz, View.ld_unit_zero (S := S64x64) hz, View.ld_unit_zero (S := S1x64) hz, View.ld_unit_zero (S := S8x64) hz]

variable (V : Conts F)

/-- The tile after point t is the perceptron of the point's blocks. -/
theorem tileAt_eq (c : Dev nD) (t : Fin cfg1.N) : tileAt V c t = tileF (iblk V c 0 t) (iblk V c 1 t) (iblk V c 2 t) (iblk V c 3 t) (iblk V c 4 t) (iblk V c 5 t) (iblk V c 6 t) (iblk V c 7 t) (iblk V c 8 t) := by
  by_cases h0 : t.val % 5 = 0
  · rw [tileAt_A V c t h0, out_A_9_eq]
  · rw [tileAt_B V c t h0, out_B_9_eq]

/-- The running column sums after point n. -/
def chain (c : Dev nD) : (n : ℕ) → n < cfg1.N → Vec F S8x64 .f32
  | 0, h => accF (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩) (iblk V c 8 ⟨0, h⟩) zeroF
  | n + 1, h => if (n + 1) % 5 = 0 then accF (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (iblk V c 8 ⟨n + 1, h⟩) zeroF
      else accF (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (iblk V c 8 ⟨n + 1, h⟩) (chain c n (Nat.lt_of_succ_lt h))

theorem accAt_eq (c : Dev nD) : ∀ (n : ℕ) (h : n < cfg1.N), accAt V c n h = chain V c n h
  | 0, h => (accAt_A V c ⟨0, h⟩ (Nat.zero_mod _)).trans (out_A_10_eq ..)
  | n + 1, h => by
    by_cases h0 : (n + 1) % 5 = 0
    · rw [accAt_A V c ⟨n + 1, h⟩ h0, out_A_10_eq, chain, if_pos h0]
    · rw [accAt_B V c ⟨n + 1, h⟩ h0, out_B_10_eq, chain, if_neg h0]
      show accF _ _ _ _ _ _ _ _ _ (accAt V c n _) = accF _ _ _ _ _ _ _ _ _ (chain V c n _)
      rw [accAt_eq c n]

end Cert.KernelIdeal.R1

end
-- ==== Proof.KI.R1Final.lean ====
/-
  Region 1, from blocks to arrays: the tile array after the region.

  At grid point t the three row windows hold rows 5000·t … 5000·t + 4999 of their arrays and the six weight and bias
  windows hold their whole arrays, so the tile the body leaves at point t is, at (r, j), the banded perceptron of the
  whole arrays at row 5000·t + r. Every point writes its tile back as block t of the tile array, and row R of that
  array lies in the block of point R / 5000; so the array ends holding the perceptron of the whole arrays, row by row.
-/
import proofs.«128321_j38912403702319_2_alg».proof.Proof.KI.R1Value
import proofs.«128321_j38912403702319_2_alg».proof.Proof.KIPayload

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec Cert.NatRead Cert.KernelIdeal.Payload

variable (V : Conts Ideal)

/-! ## The arrays the windows are over, as the region finds them -/

abbrev A0 (c : Dev nD) : (⟨2, ![50000, 64]⟩ : Shape).Idx → EReal := V c (Pipeline.arrRef spec1 0)
abbrev A1 (c : Dev nD) : (⟨2, ![50000, 64]⟩ : Shape).Idx → EReal := V c (Pipeline.arrRef spec1 1)
abbrev A2 (c : Dev nD) : (⟨2, ![50000, 64]⟩ : Shape).Idx → EReal := V c (Pipeline.arrRef spec1 2)
abbrev A3 (c : Dev nD) : (⟨2, ![64, 64]⟩ : Shape).Idx → EReal := V c (Pipeline.arrRef spec1 3)
abbrev A4 (c : Dev nD) : (⟨2, ![64, 64]⟩ : Shape).Idx → EReal := V c (Pipeline.arrRef spec1 4)
abbrev A5 (c : Dev nD) : (⟨2, ![64, 64]⟩ : Shape).Idx → EReal := V c (Pipeline.arrRef spec1 5)
abbrev A6 (c : Dev nD) : (⟨2, ![1, 64]⟩ : Shape).Idx → EReal := V c (Pipeline.arrRef spec1 6)
abbrev A7 (c : Dev nD) : (⟨2, ![64, 64]⟩ : Shape).Idx → EReal := V c (Pipeline.arrRef spec1 7)
abbrev A8 (c : Dev nD) : (⟨2, ![1, 64]⟩ : Shape).Idx → EReal := V c (Pipeline.arrRef spec1 8)

/-- The perceptron of the whole arrays at row R, unit j. -/
abbrev P (c : Dev nD) (R j : ℕ) : EReal :=
  mlpT (rd2 (A0 V c)) (rd2 (A1 V c)) (rd2 (A2 V c)) (rd2 (A3 V c)) (rd2 (A4 V c)) (rd2 (A5 V c)) (fun k => rd2 (A6 V c) 0 k)
    (rd2 (A7 V c)) (fun k => rd2 (A8 V c) 0 k) R j

/-- The perceptron at a row depends on the three row tables only through that row. -/
theorem mlpT_rows (x0 x1 x2 X0 X1 X2 wa wb wc : ℕ → ℕ → EReal) (b : ℕ → EReal) (W2 : ℕ → ℕ → EReal) (b2 : ℕ → EReal)
    (r R j : ℕ) (h0 : ∀ q, x0 r q = X0 R q) (h1 : ∀ q, x1 r q = X1 R q) (h2 : ∀ q, x2 r q = X2 R q) :
    mlpT x0 x1 x2 wa wb wc b W2 b2 r j = mlpT X0 X1 X2 wa wb wc b W2 b2 R j := by
  unfold mlpT hiddenT
  simp only [h0, h1, h2]

/-! ## The printed index maps, decided over the grid -/

theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_9.index t (0 : Fin 2) = t.val ∧ win1_9.index t (1 : Fin 2) = 0)
    ∧ (win1_10.index t (0 : Fin 2) = t.val / 5 ∧ win1_10.index t (1 : Fin 2) = 0) :=
  (by decide +kernel : ∀ t : Fin grid1.N, _)

theorem idx_whole : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

theorem hN : cfg1.N = 10 := N_1

/-! ## The blocks the body reads, as parts of the arrays -/

theorem iblk0_at (c : Dev nD) (t : Fin cfg1.N) (r : Fin 5000) (q : Fin 64) :
    (iblk V c 0 t : Vec Ideal S5000x64 .f32) (ix2 r q)
      = A0 V c (ix2 ⟨5000 * t.val + r.val, by have := t.isLt; have := r.isLt; have := hN; omega⟩ q) := by
  obtain ⟨⟨e0, e1⟩, -⟩ := idx_rows t
  unfold iblk
  rw [View.read_apply]
  show V c (Pipeline.arrRef spec1 0) _ = V c (Pipeline.arrRef spec1 0) _
  congr 1
  funext a
  apply Fin.ext
  match a with
  | ⟨0, _⟩ => show win1_0.index t 0 * 5000 + 1 * r.val = 5000 * t.val + r.val; rw [e0]; omega
  | ⟨1, _⟩ => show win1_0.index t 1 * 64 + 1 * q.val = q.val; rw [e1]; omega

theorem iblk1_at (c : Dev nD) (t : Fin cfg1.N) (r : Fin 5000) (q : Fin 64) :
    (iblk V c 1 t : Vec Ideal S5000x64 .f32) (ix2 r q)
      = A1 V c (ix2 ⟨5000 * t.val + r.val, by have := t.isLt; have := r.isLt; have := hN; omega⟩ q) := by
  obtain ⟨-, ⟨e0, e1⟩, -⟩ := idx_rows t
  unfold iblk
  rw [View.read_apply]
  show V c (Pipeline.arrRef spec1 1) _ = V c (Pipeline.arrRef spec1 1) _
  congr 1
  funext a
  apply Fin.ext
  match a with
  | ⟨0, _⟩ => show win1_1.index t 0 * 5000 + 1 * r.val = 5000 * t.val + r.val; rw [e0]; omega
  | ⟨1, _⟩ => show win1_1.index t 1 * 64 + 1 * q.val = q.val; rw [e1]; omega

theorem iblk2_at (c : Dev nD) (t : Fin cfg1.N) (r : Fin 5000) (q : Fin 64) :
    (iblk V c 2 t : Vec Ideal S5000x64 .f32) (ix2 r q)
      = A2 V c (ix2 ⟨5000 * t.val + r.val, by have := t.isLt; have := r.isLt; have := hN; omega⟩ q) := by
  obtain ⟨-, -, ⟨e0, e1⟩, -⟩ := idx_rows t
  unfold iblk
  rw [View.read_apply]
  show V c (Pipeline.arrRef spec1 2) _ = V c (Pipeline.arrRef spec1 2) _
  congr 1
  funext a
  apply Fin.ext
  match a with
  | ⟨0, _⟩ => show win1_2.index t 0 * 5000 + 1 * r.val = 5000 * t.val + r.val; rw [e0]; omega
  | ⟨1, _⟩ => show win1_2.index t 1 * 64 + 1 * q.val = q.val; rw [e1]; omega

/-- A reading of a block of 5000 rows is the reading of the array 5000·t rows further down. -/
theorem rd_of_at {B : (⟨2, ![5000, 64]⟩ : Shape).Idx → EReal} {A : (⟨2, ![50000, 64]⟩ : Shape).Idx → EReal} (t : ℕ) (ht : t < 10)
    (h : ∀ (r : Fin 5000) (q : Fin 64), B (ix2 r q) = A (ix2 ⟨5000 * t + r.val, by have := r.isLt; omega⟩ q))
    (r : ℕ) (hr : r < 5000) (q : ℕ) : rd2 B r q = rd2 A (5000 * t + r) q := by
  by_cases hq : q < 64
  · rw [rd2_mk B r hr q hq, rd2_mk A (5000 * t + r) (by omega) q hq]
    exact h ⟨r, hr⟩ ⟨q, hq⟩
  · unfold rd2
    rw [dif_neg (fun h => hq h.2), dif_neg (fun h => hq h.2)]

theorem rd_blk0 (c : Dev nD) (t : Fin cfg1.N) (r : ℕ) (hr : r < 5000) (q : ℕ) :
    rd2 (iblk V c 0 t : Vec Ideal S5000x64 .f32) r q = rd2 (A0 V c) (5000 * t.val + r) q :=
  rd_of_at t.val (lt_of_lt_of_eq t.isLt hN) (iblk0_at V c t) r hr q
theorem rd_blk1 (c : Dev nD) (t : Fin cfg1.N) (r : ℕ) (hr : r < 5000) (q : ℕ) :
    rd2 (iblk V c 1 t : Vec Ideal S5000x64 .f32) r q = rd2 (A1 V c) (5000 * t.val + r) q :=
  rd_of_at t.val (lt_of_lt_of_eq t.isLt hN) (iblk1_at V c t) r hr q
theorem rd_blk2 (c : Dev nD) (t : Fin cfg1.N) (r : ℕ) (hr : r < 5000) (q : ℕ) :
    rd2 (iblk V c 2 t : Vec Ideal S5000x64 .f32) r q = rd2 (A2 V c) (5000 * t.val + r) q :=
  rd_of_at t.val (lt_of_lt_of_eq t.isLt hN) (iblk2_at V c t) r hr q

/-- The windows over the weights and the bias rows hold their whole arrays at every point. -/
theorem iblk3_eq (c : Dev nD) (t : Fin cfg1.N) : (iblk V c 3 t : Vec Ideal S64x64 .f32) = A3 V c := by
  obtain ⟨⟨e0, e1⟩, -⟩ := idx_whole t
  funext j
  unfold iblk
  rw [View.read_apply]
  show V c (Pipeline.arrRef spec1 3) _ = V c (Pipeline.arrRef spec1 3) _
  congr 1
  funext a
  apply Fin.ext
  match a with
  | ⟨0, _⟩ => show win1_3.index t 0 * 64 + 1 * (j 0).val = (j 0).val; rw [e0]; omega
  | ⟨1, _⟩ => show win1_3.index t 1 * 64 + 1 * (j 1).val = (j 1).val; rw [e1]; omega
theorem iblk4_eq (c : Dev nD) (t : Fin cfg1.N) : (iblk V c 4 t : Vec Ideal S64x64 .f32) = A4 V c := by
  obtain ⟨-, ⟨e0, e1⟩, -⟩ := idx_whole t
  funext j
  unfold iblk
  rw [View.read_apply]
  show V c (Pipeline.arrRef spec1 4) _ = V c (Pipeline.arrRef spec1 4) _
  congr 1
  funext a
  apply Fin.ext
  match a with
  | ⟨0, _⟩ => show win1_4.index t 0 * 64 + 1 * (j 0).val = (j 0).val; rw [e0]; omega
  | ⟨1, _⟩ => show win1_4.index t 1 * 64 + 1 * (j 1).val = (j 1).val; rw [e1]; omega
theorem iblk5_eq (c : Dev nD) (t : Fin cfg1.N) : (iblk V c 5 t : Vec Ideal S64x64 .f32) = A5 V c := by
  obtain ⟨-, -, ⟨e0, e1⟩, -⟩ := idx_whole t
  funext j
  unfold iblk
  rw [View.read_apply]
  show V c (Pipeline.arrRef spec1 5) _ = V c (Pipeline.arrRef spec1 5) _
  congr 1
  funext a
  apply Fin.ext
  match a with
  | ⟨0, _⟩ => show win1_5.index t 0 * 64 + 1 * (j 0).val = (j 0).val; rw [e0]; omega
  | ⟨1, _⟩ => show win1_5.index t 1 * 64 + 1 * (j 1).val = (j 1).val; rw [e1]; omega
theorem iblk6_eq (c : Dev nD) (t : Fin cfg1.N) : (iblk V c 6 t : Vec Ideal S1x64 .f32) = A6 V c := by
  obtain ⟨-, -, -, ⟨e0, e1⟩, -⟩ := idx_whole t
  funext j
  unfold iblk
  rw [View.read_apply]
  show V c (Pipeline.arrRef spec1 6) _ = V c (Pipeline.arrRef spec1 6) _
  congr 1
  funext a
  apply Fin.ext
  match a with
  | ⟨0, _⟩ => show win1_6.index t 0 * 1 + 1 * (j 0).val = (j 0).val; rw [e0]; omega
  | ⟨1, _⟩ => show win1_6.index t 1 * 64 + 1 * (j 1).val = (j 1).val; rw [e1]; omega
theorem iblk7_eq (c : Dev nD) (t : Fin cfg1.N) : (iblk V c 7 t : Vec Ideal S64x64 .f32) = A7 V c := by
  obtain ⟨-, -, -, -, ⟨e0, e1⟩, -⟩ := idx_whole t
  funext j
  unfold iblk
  rw [View.read_apply]
  show V c (Pipeline.arrRef spec1 7) _ = V c (Pipeline.arrRef spec1 7) _
  congr 1
  funext a
  apply Fin.ext
  match a with
  | ⟨0, _⟩ => show win1_7.index t 0 * 64 + 1 * (j 0).val = (j 0).val; rw [e0]; omega
  | ⟨1, _⟩ => show win1_7.index t 1 * 64 + 1 * (j 1).val = (j 1).val; rw [e1]; omega
theorem iblk8_eq (c : Dev nD) (t : Fin cfg1.N) : (iblk V c 8 t : Vec Ideal S1x64 .f32) = A8 V c := by
  obtain ⟨-, -, -, -, -, ⟨e0, e1⟩⟩ := idx_whole t
  funext j
  unfold iblk
  rw [View.read_apply]
  show V c (Pipeline.arrRef spec1 8) _ = V c (Pipeline.arrRef spec1 8) _
  congr 1
  funext a
  apply Fin.ext
  match a with
  | ⟨0, _⟩ => show win1_8.index t 0 * 1 + 1 * (j 0).val = (j 0).val; rw [e0]; omega
  | ⟨1, _⟩ => show win1_8.index t 1 * 64 + 1 * (j 1).val = (j 1).val; rw [e1]; omega

/-! ## The output tile -/

/-- The tile after point t at (r, j) is the perceptron of the whole arrays at row 5000·t + r. -/
theorem tile_at (c : Dev nD) (t : Fin cfg1.N) (r : Fin 5000) (j : Fin 64) :
    tileF (iblk V c 0 t) (iblk V c 1 t) (iblk V c 2 t) (iblk V c 3 t) (iblk V c 4 t) (iblk V c 5 t) (iblk V c 6 t)
        (iblk V c 7 t) (iblk V c 8 t) (ix2 r j)
      = P V c (5000 * t.val + r.val) j.val := by
  unfold tileF
  refine (r1_pay1_apply (iblk V c 0 t) (iblk V c 1 t) (iblk V c 2 t) (iblk V c 3 t) (iblk V c 4 t) (iblk V c 5 t) (iblk V c 6 t)
    (iblk V c 7 t) (iblk V c 8 t) r j).trans ?_
  rw [iblk3_eq, iblk4_eq, iblk5_eq, iblk6_eq, iblk7_eq, iblk8_eq]
  exact mlpT_rows _ _ _ _ _ _ _ _ _ _ _ _ _ _ _ (fun q => rd_blk0 V c t r.val r.isLt q) (fun q => rd_blk1 V c t r.val r.isLt q)
    (fun q => rd_blk2 V c t r.val r.isLt q)

/-- What the tile array ends holding: the perceptron of the whole arrays, row by row. -/
abbrev G9 (c : Dev nD) : (⟨2, ![50000, 64]⟩ : Shape).Idx → EReal := fun i => P V c (i 0).val (i 1).val

/-- What point t writes back is block t of that. -/
theorem flushed9_eq (c : Dev nD) (t : Fin cfg1.N) :
    (dat V c).flushed 9 t = ((cfg1.win 9).blk t).view.read (Elt Ideal) (G9 V c) := by
  obtain ⟨-, -, -, ⟨e0, e1⟩, -⟩ := idx_rows t
  show (cfg1.win 9).cut (grid1.coords t) ((dat V c).after 9 t) = _
  rw [after9, tileAt_eq]
  funext y
  rw [View.read_apply]
  obtain ⟨r, j, rfl⟩ : ∃ (r : Fin 5000) (j : Fin 64), y = ix2 r j := ⟨y 0, y 1, eq_ix2 y⟩
  refine (tile_at V c t r j).trans ?_
  show P V c (5000 * t.val + r.val) j.val = P V c (win1_9.index t 0 * 5000 + 1 * r.val) (win1_9.index t 1 * 64 + 1 * j.val)
  rw [e0, e1]
  exact congr (congrArg (P V c) (by omega)) (by omega)

/-- An index of the tile array is in point t's block iff each coordinate is in the block's range on its axis. -/
theorem mem_blk9 (t : Fin cfg1.N) (i : S50000x64.Idx) :
    i ∈ ((cfg1.win 9).blk t).view.set
      ↔ ∀ a : Fin 2, win1_9.index t a * S5000x64.size a ≤ (i a).val ∧ (i a).val < win1_9.index t a * S5000x64.size a + S5000x64.size a := by
  show i ∈ ((View.whole main_v60_0).slice (win1_9.rect t)).set ↔ _
  rw [View.set_slice_whole, Rect.mem_set_unit]
  exact Iff.rfl

/-- Every row of the tile array is in the block of the point its number divided by 5000 names. -/
theorem cover9 (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  refine ⟨⟨(i 0).val / 5000, by rw [hN]; omega⟩, flush1_9 _, ?_⟩
  obtain ⟨-, -, -, ⟨e0, e1⟩, -⟩ := idx_rows ⟨(i 0).val / 5000, by rw [hN]; omega⟩
  rw [mem_blk9]
  intro a
  match a with
  | ⟨0, _⟩ =>
    show win1_9.index _ 0 * 5000 ≤ (i 0).val ∧ (i 0).val < win1_9.index _ 0 * 5000 + 5000
    rw [e0]; dsimp only; omega
  | ⟨1, _⟩ =>
    show win1_9.index _ 1 * 64 ≤ (i 1).val ∧ (i 1).val < win1_9.index _ 1 * 64 + 64
    rw [e1]; omega

/-- The tile array after the region: the perceptron of the whole arrays, row by row. -/
theorem final9 (c : Dev nD) : (dat V c).arrAt 9 cfg1.N = G9 V c :=
  (dat V c).arrAt_eq_of_cover 9 (G9 V c) (fun t _ => flushed9_eq V c t) cover9

end Cert.KernelIdeal.R1

end
-- ==== Proof.KI.R1FinalSums.lean ====
/-
  Region 1, from blocks to arrays: the column-sum array after the region.

  The column-sum block is carried along a core's 5 points: zeroed at the core's first point, then at every point the
  tile's column sums are added. The tile at point t is the perceptron of the whole arrays over rows 5000·t … 5000·t + 4999,
  so after point n the block holds, in each of its 8 rows, the sum tile by tile over the first n % 5 + 1 tiles of the
  core's 25000 rows; sums on the extended reals regroup freely, so after the core's last point that is the sum over all of
  the core's rows. That point writes the block back as the core's 8 rows of the [16, 64] array, and every row of the array
  is one of those.
-/
import proofs.«128321_j38912403702319_2_alg».proof.Proof.KI.R1Final

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec Cert.NatRead Cert.KernelIdeal.Payload

variable (V : Conts Ideal)

/-! ## The column-sum block -/

/-- One step of the running column sums at point t, over the block's contents xo before: the tile's column sums are the
    sums of the perceptron of the whole arrays over rows 5000·t … 5000·t + 4999. -/
theorem acc_at (c : Dev nD) (t : Fin cfg1.N) (xo : Vec Ideal S8x64 .f32) (i : Fin 8) (j : Fin 64) :
    accF (iblk V c 0 t) (iblk V c 1 t) (iblk V c 2 t) (iblk V c 3 t) (iblk V c 4 t) (iblk V c 5 t) (iblk V c 6 t)
        (iblk V c 7 t) (iblk V c 8 t) xo (ix2 i j)
      = xo (ix2 i j) + ∑ r ∈ Finset.range 5000, P V c (5000 * t.val + r) j.val := by
  unfold accF
  refine (r1_pay2_apply (iblk V c 0 t) (iblk V c 1 t) (iblk V c 2 t) (iblk V c 3 t) (iblk V c 4 t) (iblk V c 5 t) (iblk V c 6 t)
    (iblk V c 7 t) (iblk V c 8 t) xo i j).trans ?_
  refine congrArg (xo (ix2 i j) + ·) (Finset.sum_congr rfl fun r hr => ?_)
  have hr' : r < 5000 := Finset.mem_range.mp hr
  rw [iblk3_eq, iblk4_eq, iblk5_eq, iblk6_eq, iblk7_eq, iblk8_eq]
  exact mlpT_rows _ _ _ _ _ _ _ _ _ _ _ _ _ _ _ (fun q => rd_blk0 V c t r hr' q) (fun q => rd_blk1 V c t r hr' q)
    (fun q => rd_blk2 V c t r hr' q)

theorem zero_at (i : Fin 8) (j : Fin 64) : (zeroF : Vec Ideal S8x64 .f32) (ix2 i j) = 0 := r1_pay3_apply i j

/-- The running column sums after point n, in closed form: the tiles of the core's rows so far, summed tile by tile. -/
theorem chain_closed (c : Dev nD) (i : Fin 8) (j : Fin 64) : ∀ (n : ℕ) (h : n < cfg1.N),
    chain V c n h (ix2 i j) = tileAcc (fun R => P V c (25000 * (n / 5) + R) j.val) 5000 (n % 5 + 1)
  | 0, h => by
    rw [chain, acc_at V c ⟨0, h⟩ zeroF i j, zero_at, zero_add]
    show _ = tileAcc _ 5000 (0 + 1)
    rw [tileAcc, tileAcc, zero_add]
    refine Finset.sum_congr rfl fun r _ => ?_
    exact congrArg (P V c · j.val) (by dsimp only; omega)
  | n + 1, h => by
    by_cases h0 : (n + 1) % 5 = 0
    · rw [chain, if_pos h0, acc_at V c ⟨n + 1, h⟩ zeroF i j, zero_at, zero_add, h0]
      show _ = tileAcc _ 5000 (0 + 1)
      rw [tileAcc, tileAcc, zero_add]
      refine Finset.sum_congr rfl fun r _ => ?_
      exact congrArg (P V c · j.val) (by dsimp only; omega)
    · rw [chain, if_neg h0, acc_at V c ⟨n + 1, h⟩ _ i j, chain_closed c i j n (Nat.lt_of_succ_lt h)]
      have hd : (n + 1) / 5 = n / 5 := by omega
      have hm : (n + 1) % 5 + 1 = (n % 5 + 1) + 1 := by omega
      rw [hd, hm, tileAcc]
      refine congrArg (tileAcc _ 5000 (n % 5 + 1) + ·) (Finset.sum_congr rfl fun r _ => ?_)
      exact congrArg (P V c · j.val) (by dsimp only; omega)

/-- What the column-sum array ends holding: for each core, the column sums of the perceptron over the core's 25000 rows, in
    each of the core's 8 rows of the array. -/
abbrev G10 (c : Dev nD) : (⟨2, ![16, 64]⟩ : Shape).Idx → EReal :=
  fun i => ∑ R ∈ Finset.range 25000, P V c (25000 * ((i 0).val / 8) + R) (i 1).val

/-- What a core's last point writes back is the core's block of that. -/
theorem flushed10_eq (c : Dev nD) (t : Fin cfg1.N) (hf : (cfg1.win 10).flush t = true) :
    (dat V c).flushed 10 t = ((cfg1.win 10).blk t).view.read (Elt Ideal) (G10 V c) := by
  obtain ⟨-, -, -, -, ⟨e0, e1⟩⟩ := idx_rows t
  have h4 : t.val % 5 = 4 := (flush1_10 t).mp hf
  show (cfg1.win 10).cut (grid1.coords t) ((dat V c).after 10 t) = _
  rw [after10, accAt_eq]
  funext y
  generalize hG : G10 V c = G
  rw [View.read_apply]
  obtain ⟨i, j, rfl⟩ : ∃ (i : Fin 8) (j : Fin 64), y = ix2 i j := ⟨y 0, y 1, eq_ix2 y⟩
  have hi : i.val < 8 := i.isLt
  have hemb : ((cfg1.win 10).blk t).view.emb (ix2 i j)
      = (ix2 ⟨8 * (t.val / 5) + i.val, by have := t.isLt; have := hN; omega⟩ j : S16x64.Idx) := by
    funext a
    apply Fin.ext
    match a with
    | ⟨0, _⟩ => show win1_10.index t 0 * 8 + 1 * i.val = 8 * (t.val / 5) + i.val; rw [e0]; omega
    | ⟨1, _⟩ => show win1_10.index t 1 * 64 + 1 * j.val = j.val; rw [e1]; omega
  show _ = G (((cfg1.win 10).blk t).view.emb (ix2 i j))
  rw [hemb, ← hG]
  refine (chain_closed V c i j t.val t.isLt).trans ?_
  rw [tileAcc_eq, h4, show 5000 * (4 + 1) = 25000 from by norm_num]
  refine Finset.sum_congr rfl fun R _ => ?_
  exact congrArg (P V c · j.val) (by dsimp only; omega)

theorem mem_blk10 (t : Fin cfg1.N) (i : S16x64.Idx) :
    i ∈ ((cfg1.win 10).blk t).view.set
      ↔ ∀ a : Fin 2, win1_10.index t a * S8x64.size a ≤ (i a).val ∧ (i a).val < win1_10.index t a * S8x64.size a + S8x64.size a := by
  show i ∈ ((View.whole main_v60_1).slice (win1_10.rect t)).set ↔ _
  rw [View.set_slice_whole, Rect.mem_set_unit]
  exact Iff.rfl

/-- Every row of the column-sum array is in the block the last point of its core writes back. -/
theorem cover10 (i : S16x64.Idx) : ∃ t : Fin cfg1.N, (cfg1.win 10).flush t = true ∧ i ∈ ((cfg1.win 10).blk t).view.set := by
  have hi0 : (i 0).val < 16 := (i 0).isLt
  have hi1 : (i 1).val < 64 := (i 1).isLt
  refine ⟨⟨5 * ((i 0).val / 8) + 4, by rw [hN]; omega⟩, (flush1_10 _).mpr (by dsimp only; omega), ?_⟩
  obtain ⟨-, -, -, -, ⟨e0, e1⟩⟩ := idx_rows ⟨5 * ((i 0).val / 8) + 4, by rw [hN]; omega⟩
  rw [mem_blk10]
  intro a
  match a with
  | ⟨0, _⟩ =>
    show win1_10.index _ 0 * 8 ≤ (i 0).val ∧ (i 0).val < win1_10.index _ 0 * 8 + 8
    rw [e0]; dsimp only; omega
  | ⟨1, _⟩ =>
    show win1_10.index _ 1 * 64 ≤ (i 1).val ∧ (i 1).val < win1_10.index _ 1 * 64 + 64
    rw [e1]; omega

/-- The column-sum array after the region. -/
theorem final10_eq (c : Dev nD) : (dat V c).arrAt 10 cfg1.N = G10 V c :=
  (dat V c).arrAt_eq_of_cover 10 (G10 V c) (flushed10_eq V c) cover10

theorem final10 (c : Dev nD) (a : Fin 16) (j : Fin 64) :
    (dat V c).arrAt 10 cfg1.N (ix2 a j) = ∑ R ∈ Finset.range 25000, P V c (25000 * (a.val / 8) + R) j.val :=
  congrFun (final10_eq V c) (ix2 a j)

/-- The column-sum array after the region, as an array of extended reals. -/
abbrev O10 (c : Dev nD) : (⟨2, ![16, 64]⟩ : Shape).Idx → EReal := (dat V c).arrAt 10 cfg1.N

/-- The two cores' column sums added: the column sums of the perceptron over all 50000 rows. -/
theorem halves10 (c : Dev nD) (j : Fin 64) :
    O10 V c (ix2 (0 : Fin 16) j) + O10 V c (ix2 (8 : Fin 16) j) = ∑ R ∈ Finset.range 50000, P V c R j.val := by
  rw [show O10 V c (ix2 (0 : Fin 16) j) = _ from final10 V c 0 j, show O10 V c (ix2 (8 : Fin 16) j) = _ from final10 V c 8 j]
  refine Eq.trans ?_ (Finset.sum_range_add (fun R => P V c R j.val) 25000 25000).symm
  refine congr (congrArg HAdd.hAdd (Finset.sum_congr rfl fun R _ => ?_)) (Finset.sum_congr rfl fun R _ => ?_)
  · exact congrArg (P V c · j.val) (show 25000 * (0 / 8) + R = R by omega)
  · exact congrArg (P V c · j.val) (show 25000 * (8 / 8) + R = 25000 + R by omega)

end Cert.KernelIdeal.R1

end
-- ==== Proof.LibNary3.lean ====
/-
  A host operation of three operands, read at its result.

  An operation over a family of operand references leaves in its result buffer its function of the family of the
  operands' contents. Over the LITERAL family of three references ![x0, x1, x2] that is the function of the three
  contents each read at its own reference (rather than under a binder at `![…] k`), so that a fold over a line of
  operations can go on rewriting the three operands' contents.
-/
import Idealize.ShloMosaic.Lib.StableHlo.Run

noncomputable section

namespace Cert.LibNary3

open Idealize.ShloMosaic Idealize.ShloMosaic.StableHlo Idealize.ShloMosaic.TcCoe

variable {τ : Topo} {sig : RefSig} {Val : EltTy → Type}
variable {x0 x1 x2 y : Ref sig .tc}

/-- The result of a three-operand operation, each operand's contents at its own reference. -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

end Cert.LibNary3

end
-- ==== Proof.KIHostFold.lean ====
/-
  The host operations of the kernel program, folded: what each array a region reads holds once the host operations
  before that region have run, as a composed term of the launch contents and of what the earlier region left.
-/
import proofs.«128321_j38912403702319_2_alg».proof.Proof.Gen.KernelIdeal.Regions
import proofs.«128321_j38912403702319_2_alg».proof.Proof.LibNary3

set_option maxRecDepth 1084

noncomputable section

namespace Cert.KernelIdeal.HostFold

open Idealize.ShloMosaic Idealize.ShloMosaic.StableHlo Idealize.ShloMosaic.TcCoe
open Cert.KernelIdeal Cert.KernelIdeal.Gen

variable {F : FTy → Type} [FloatOps F]
variable (m : (ℓ : Loc nD τ sig) → Buf (Elt F) ℓ) (outs : Outs (F := F))

/-! ## Before region 0 -/

/-- An index vector with its negative entries wrapped by the table's height 50000, as a column. -/
def wrapCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of a 50000×64 table picked by an index vector, converted to the narrow format. -/
def gatherRows (x : (⟨S50000x64, .f32⟩ : BufTy).Contents (Elt F)) (s : (⟨S800000, .i32⟩ : BufTy).Contents (Elt F)) :
    (⟨S800000x64, .bf16⟩ : BufTy).Contents (Elt F) :=
  truncf .bf16 (Host.gather gather_S50000x64_S800000x1_S800000x64_1_0_n_n_0_1_164 x (wrapCol s)) bitsLt_bf16_f32

/-- The first layer's bias with the shared piece's product joined to it: b as a row plus g times the last band of W. -/
def foldedBias (b : (⟨S64, .f32⟩ : BufTy).Contents (Elt F)) (g : (⟨S1x64, .f32⟩ : BufTy).Contents (Elt F))
    (W : (⟨S256x64, .f32⟩ : BufTy).Contents (Elt F)) : (⟨S1x64, .f32⟩ : BufTy).Contents (Elt F) :=
  addf (shapeCast S1x64 b shapeCasts_S64_S1x64)
    (Host.dotGeneral dot_S1x64_S64x64_S1x64_1_0_0_1_n_n none g
      (extractStridedSlice S64x64 ![192, 0] W slices_S256x64_S64x64_192_0))

theorem v1_main_v7 (c : Dev nD) : V1 m c main_v7 = gatherRows (m (c, main_arg0)) (m (c, main_arg3)) := by
  dsimp only [V1, V0, hostOps0]
  after_results
  rfl

theorem v1_main_v15 (c : Dev nD) : V1 m c main_v15 = gatherRows (m (c, main_arg0)) (m (c, main_arg4)) := by
  dsimp only [V1, V0, hostOps0]
  after_results_simp
  rfl

theorem v1_main_v16 (c : Dev nD) :
    V1 m c main_v16 = extractStridedSlice S64x64 ![0, 0] (m (c, main_arg5)) slices_S256x64_S64x64_0_0 := by
  dsimp only [V1, V0, hostOps0]
  after_results

theorem v1_main_v17 (c : Dev nD) :
    V1 m c main_v17 = extractStridedSlice S64x64 ![64, 0] (m (c, main_arg5)) slices_S256x64_S64x64_64_0 := by
  dsimp only [V1, V0, hostOps0]
  after_results

theorem v1_main_v18 (c : Dev nD) :
    V1 m c main_v18 = extractStridedSlice S64x64 ![128, 0] (m (c, main_arg5)) slices_S256x64_S64x64_128_0 := by
  dsimp only [V1, V0, hostOps0]
  after_results

theorem v1_main_v22 (c : Dev nD) :
    V1 m c main_v22 = foldedBias (m (c, main_arg6)) (m (c, main_arg2)) (m (c, main_arg5)) := by
  dsimp only [V1, V0, hostOps0]
  after_results_simp
  rfl

theorem v1_main_v23 (c : Dev nD) :
    V1 m c main_v23 = shapeCast S1x64 (m (c, main_arg8)) shapeCasts_S64_S1x64 := by
  dsimp only [V1, V0, hostOps0]
  after_results
  rfl

theorem v1_main_arg1 (c : Dev nD) : V1 m c main_arg1 = m (c, main_arg1) := V1_of m c main_arg1 (by decide)
theorem v1_main_arg7 (c : Dev nD) : V1 m c main_arg7 = m (c, main_arg7) := V1_of m c main_arg7 (by decide)

end Cert.KernelIdeal.HostFold

end
-- ==== Proof.KIHostFoldC.lean ====
/-
  The host operations after the second region, folded: the program's third result as a composed term of the two
  regions' column-sum arrays and of the launch contents, and its first two results as what the regions left.
-/
import proofs.«128321_j38912403702319_2_alg».proof.Proof.Gen.KernelIdeal.Regions
import proofs.«128321_j38912403702319_2_alg».proof.Proof.LibNary3

set_option maxRecDepth 1084

noncomputable section

namespace Cert.KernelIdeal.HostFold

open Idealize.ShloMosaic Idealize.ShloMosaic.StableHlo Idealize.ShloMosaic.TcCoe
open Cert.KernelIdeal Cert.KernelIdeal.Gen

variable {F : FTy → Type} [FloatOps F]
variable (m : (ℓ : Loc nD τ sig) → Buf (Elt F) ℓ) (outs : Outs (F := F))

/-- The result of a three-operand operation, each operand's contents at its own reference. -/
theorem nary3_result' {x0 x1 x2 y : Ref sig .tc}
    (f : ((k : Fin 3) → ((![x0, x1, x2] : Fin 3 → Ref sig .tc) k).ty.Contents (Elt F)) → y.ty.Contents (Elt F)) (hxs hy)
    (G : Valuation τ sig (Elt F)) :
    (nary (τ := τ) ![x0, x1, x2] y f hxs hy).result G (no_index (Proc.devRef .tc y))
      = f (Fin.cons (G (Proc.devRef .tc x0)) (Fin.cons (G (Proc.devRef .tc x1)) (Fin.cons (G (Proc.devRef .tc x2)) (fun i => i.elim0)))) :=
  Cert.LibNary3.nary3_result f hxs hy G

/-- The fold of a line of operations with at most three operands each, every result read at its own reference. -/
local macro "fold_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## What the regions left -/

theorem v2_main_v24_0 (c : Dev nD) : V2 m outs c main_v24_0 = outs 2 main_v24_0 c := by
  dsimp only [V2]
  rw [Function.update_of_ne (StableHlo.devRef_ne_of_ne (by decide : main_v24_0 ≠ main_v24_1)), Function.update_self]

theorem v2_main_v24_1 (c : Dev nD) : V2 m outs c main_v24_1 = outs 2 main_v24_1 c := by
  dsimp only [V2]
  rw [Function.update_self]

theorem v4_main_v60_0 (c : Dev nD) : V4 m outs c main_v60_0 = outs 4 main_v60_0 c := by
  dsimp only [V4]
  rw [Function.update_of_ne (StableHlo.devRef_ne_of_ne (by decide : main_v60_0 ≠ main_v60_1)), Function.update_self]

theorem v4_main_v60_1 (c : Dev nD) : V4 m outs c main_v60_1 = outs 4 main_v60_1 c := by
  dsimp only [V4]
  rw [Function.update_self]

/-- The program's first result is what the second region left in it. -/
theorem v7_main_v60_0 (c : Dev nD) : V7 m outs c main_v60_0 = outs 4 main_v60_0 c :=
  (V7_of m outs c main_v60_0 (by decide)).trans <| (V6_of m outs c main_v60_0 (by decide)).trans <|
    (V5_of m outs c main_v60_0 (by decide)).trans (v4_main_v60_0 m outs c)

/-- The program's second result is what the first region left in it. -/
theorem v7_main_v24_0 (c : Dev nD) : V7 m outs c main_v24_0 = outs 2 main_v24_0 c :=
  (V7_of m outs c main_v24_0 (by decide)).trans <| (V6_of m outs c main_v24_0 (by decide)).trans <|
    (V5_of m outs c main_v24_0 (by decide)).trans <| (V4_of m outs c main_v24_0 (by decide)).trans <|
    (V3_of m outs c main_v24_0 (by decide)).trans (v2_main_v24_0 m outs c)

/-! ## The third result -/

/-- The two halves' column sums (rows 0 and 8 of a 16×64 table) added. -/
def halvesSum (s : (⟨S16x64, .f32⟩ : BufTy).Contents (Elt F)) : (⟨S1x64, .f32⟩ : BufTy).Contents (Elt F) :=
  addf (extractStridedSlice S1x64 ![0, 0] s slices_S16x64_S1x64_0_0)
    (extractStridedSlice S1x64 ![8, 0] s slices_S16x64_S1x64_8_0)

/-- The mean row of the new node table (its column sums over 50000), of the new edge table (over 800000), and the
    shared row, side by side. -/
def globalIn (sn se : (⟨S16x64, .f32⟩ : BufTy).Contents (Elt F)) (g : (⟨S1x64, .f32⟩ : BufTy).Contents (Elt F)) :
    (⟨S1x192, .f32⟩ : BufTy).Contents (Elt F) :=
  concatenate S1x192 1
    [⟨S1x64, Host.divf (halvesSum sn) (broadcastInDim S1x64 ![] bcast_S_S1x64 (constant S_ .f32 0x47435000#32))⟩,
     ⟨S1x64, Host.divf (halvesSum se) (broadcastInDim S1x64 ![] bcast_S_S1x64 (constant S_ .f32 0x49435000#32))⟩,
     ⟨S1x64, g⟩] concatenates_S1x64_S1x64_S1x64_S1x192_d1

/-- The first layer of the shared row's perceptron, before the cut-off at 0. -/
def globalPre (x : (⟨S1x192, .f32⟩ : BufTy).Contents (Elt F)) (W1 : (⟨S192x64, .f32⟩ : BufTy).Contents (Elt F))
    (b1 : (⟨S64, .f32⟩ : BufTy).Contents (Elt F)) : (⟨S1x64, .f32⟩ : BufTy).Contents (Elt F) :=
  addf (Host.dotGeneral dot_S1x192_S192x64_S1x64_1_0_0_1_n_n none x W1) (broadcastInDim S1x64 ![1] bcast_S64_S1x64_1 b1)

/-- The shared row's perceptron after its first layer: the cut-off at 0, the second product and its bias. -/
def globalOut (h : (⟨S1x64, .f32⟩ : BufTy).Contents (Elt F)) (W2 : (⟨S64x64, .f32⟩ : BufTy).Contents (Elt F))
    (b2 : (⟨S64, .f32⟩ : BufTy).Contents (Elt F)) : (⟨S1x64, .f32⟩ : BufTy).Contents (Elt F) :=
  addf (Host.dotGeneral dot_S1x64_S64x64_S1x64_1_0_0_1_n_n none
      (maximumf h (broadcastInDim S1x64 ![] bcast_S_S1x64 (constant S_ .f32 0x00000000#32))) W2)
    (broadcastInDim S1x64 ![1] bcast_S64_S1x64_1 b2)

/-- The operations between the regions leave in main_v27 the first region's column sums, halves added. -/
theorem after1_main_v27 (V : Valuation τ sig (Elt F)) :
    StableHlo.after hostOps1 V main_v27 = halvesSum (V main_v24_1) := by
  dsimp only [hostOps1]
  after_results_simp
  rfl

theorem after2_main_v71 (V : Valuation τ sig (Elt F)) :
    StableHlo.after hostOps2 V main_v71
      = addf (Host.dotGeneral dot_S1x192_S192x64_S1x64_1_0_0_1_n_n none
          (concatenate S1x192 1
            [⟨S1x64, Host.divf (halvesSum (V main_v60_1)) (broadcastInDim S1x64 ![] bcast_S_S1x64 (constant S_ .f32 0x47435000#32))⟩,
             ⟨S1x64, Host.divf (V main_v27) (broadcastInDim S1x64 ![] bcast_S_S1x64 (constant S_ .f32 0x49435000#32))⟩,
             ⟨S1x64, V main_arg2⟩] concatenates_S1x64_S1x64_S1x64_S1x192_d1) (V main_arg13))
          (broadcastInDim S1x64 ![1] bcast_S64_S1x64_1 (V main_arg14)) := by
  dsimp only [hostOps2]
  fold_results
  rfl

theorem after2_1_main_v72 (V : Valuation τ sig (Elt F)) :
    StableHlo.after hostOps2_1 V main_v72
      = maximumf (V main_v71) (broadcastInDim S1x64 ![] bcast_S_S1x64 (constant S_ .f32 0x00000000#32)) := by
  dsimp only [hostOps2_1]
  fold_results
  rfl

theorem after2_2_main_v75 (V : Valuation τ sig (Elt F)) :
    StableHlo.after hostOps2_2 V main_v75
      = addf (Host.dotGeneral dot_S1x64_S64x64_S1x64_1_0_0_1_n_n none (V main_v72) (V main_arg15))
          (broadcastInDim S1x64 ![1] bcast_S64_S1x64_1 (V main_arg16)) := by
  dsimp only [hostOps2_2]
  fold_results

theorem v3_main_v27 (c : Dev nD) : V3 m outs c main_v27 = halvesSum (outs 2 main_v24_1 c) :=
  (after1_main_v27 (V2 m outs c)).trans (congrArg halvesSum (v2_main_v24_1 m outs c))

theorem v4_main_v27 (c : Dev nD) : V4 m outs c main_v27 = halvesSum (outs 2 main_v24_1 c) :=
  (V4_of m outs c main_v27 (by decide)).trans (v3_main_v27 m outs c)

theorem v4_main_arg2 (c : Dev nD) : V4 m outs c main_arg2 = m (c, main_arg2) :=
  (V4_of m outs c main_arg2 (by decide)).trans <| (V3_of m outs c main_arg2 (by decide)).trans <|
    (V2_of m outs c main_arg2 (by decide)).trans (V1_of m c main_arg2 (by decide))
theorem v4_main_arg13 (c : Dev nD) : V4 m outs c main_arg13 = m (c, main_arg13) :=
  (V4_of m outs c main_arg13 (by decide)).trans <| (V3_of m outs c main_arg13 (by decide)).trans <|
    (V2_of m outs c main_arg13 (by decide)).trans (V1_of m c main_arg13 (by decide))
theorem v4_main_arg14 (c : Dev nD) : V4 m outs c main_arg14 = m (c, main_arg14) :=
  (V4_of m outs c main_arg14 (by decide)).trans <| (V3_of m outs c main_arg14 (by decide)).trans <|
    (V2_of m outs c main_arg14 (by decide)).trans (V1_of m c main_arg14 (by decide))
theorem v6_main_arg15 (c : Dev nD) : V6 m outs c main_arg15 = m (c, main_arg15) :=
  (V6_of m outs c main_arg15 (by decide)).trans <| (V5_of m outs c main_arg15 (by decide)).trans <|
    (V4_of m outs c main_arg15 (by decide)).trans <| (V3_of m outs c main_arg15 (by decide)).trans <|
    (V2_of m outs c main_arg15 (by decide)).trans (V1_of m c main_arg15 (by decide))
theorem v6_main_arg16 (c : Dev nD) : V6 m outs c main_arg16 = m (c, main_arg16) :=
  (V6_of m outs c main_arg16 (by decide)).trans <| (V5_of m outs c main_arg16 (by decide)).trans <|
    (V4_of m outs c main_arg16 (by decide)).trans <| (V3_of m outs c main_arg16 (by decide)).trans <|
    (V2_of m outs c main_arg16 (by decide)).trans (V1_of m c main_arg16 (by decide))

theorem v5_main_v71 (c : Dev nD) :
    V5 m outs c main_v71
      = globalPre (globalIn (outs 4 main_v60_1 c) (outs 2 main_v24_1 c) (m (c, main_arg2))) (m (c, main_arg13)) (m (c, main_arg14)) := by
  refine (after2_main_v71 (V4 m outs c)).trans ?_
  rw [v4_main_v60_1, v4_main_v27, v4_main_arg2, v4_main_arg13, v4_main_arg14]
  rfl

theorem v6_main_v72 (c : Dev nD) :
    V6 m outs c main_v72
      = maximumf (globalPre (globalIn (outs 4 main_v60_1 c) (outs 2 main_v24_1 c) (m (c, main_arg2))) (m (c, main_arg13)) (m (c, main_arg14)))
          (broadcastInDim S1x64 ![] bcast_S_S1x64 (constant S_ .f32 0x00000000#32)) := by
  refine (after2_1_main_v72 (V5 m outs c)).trans ?_
  rw [v5_main_v71]

/-- The program's third result: the shared row's perceptron on the two mean rows and the shared row. -/
theorem v7_main_v75 (c : Dev nD) :
    V7 m outs c main_v75
      = globalOut (globalPre (globalIn (outs 4 main_v60_1 c) (outs 2 main_v24_1 c) (m (c, main_arg2))) (m (c, main_arg13)) (m (c, main_arg14)))
          (m (c, main_arg15)) (m (c, main_arg16)) := by
  refine (after2_2_main_v75 (V6 m outs c)).trans ?_
  rw [v6_main_v72, v6_main_arg15, v6_main_arg16]
  rfl

end Cert.KernelIdeal.HostFold

end
-- ==== Proof.KIHostFoldB.lean ====
/-
  The host operations between the two regions, folded: what each array the second region reads holds, as a composed
  term of the launch contents and of the table the first region left.
-/
import proofs.«128321_j38912403702319_2_alg».proof.Proof.Gen.KernelIdeal.Regions
import proofs.«128321_j38912403702319_2_alg».proof.Proof.KIHostFold
import proofs.«128321_j38912403702319_2_alg».proof.Proof.KIHostFoldC

set_option maxRecDepth 1084

noncomputable section

namespace Cert.KernelIdeal.HostFold

open Idealize.ShloMosaic Idealize.ShloMosaic.StableHlo Idealize.ShloMosaic.TcCoe
open Cert.KernelIdeal Cert.KernelIdeal.Gen

variable {F : FTy → Type} [FloatOps F]
variable (m : (ℓ : Loc nD τ sig) → Buf (Elt F) ℓ) (outs : Outs (F := F))

/-- The mean of the rows of an 800000×64 table grouped by an index vector into 50000 groups: the rows added per
    group, over the group's count (an empty group counted as one). -/
def segMean (s : (⟨S800000, .i32⟩ : BufTy).Contents (Elt F)) (e : (⟨S800000x64, .f32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 s) e)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 s)
            (broadcastInDim S800000 ![] bcast_S_S800000 (constant S_ .f32 0x3F800000#32)))
          (broadcastInDim S50000 ![] bcast_S_S50000 (constant S_ .f32 0x3F800000#32)))))

/-! ## The operations between the regions, from any contents -/

theorem after1_main_v39 (V : Valuation τ sig (Elt F)) :
    StableHlo.after hostOps1 V main_v39 = segMean (V main_arg3) (V main_v24_0) := by
  dsimp only [hostOps1]
  after_results_simp
  rfl

theorem after1_main_v51 (V : Valuation τ sig (Elt F)) :
    StableHlo.after hostOps1 V main_v51 = segMean (V main_arg4) (V main_v24_0) := by
  dsimp only [hostOps1]
  after_results_simp
  rfl

theorem after1_main_v52 (V : Valuation τ sig (Elt F)) :
    StableHlo.after hostOps1 V main_v52 = extractStridedSlice S64x64 ![0, 0] (V main_arg9) slices_S256x64_S64x64_0_0 := by
  dsimp only [hostOps1]
  after_results_simp

theorem after1_main_v53 (V : Valuation τ sig (Elt F)) :
    StableHlo.after hostOps1 V main_v53 = extractStridedSlice S64x64 ![64, 0] (V main_arg9) slices_S256x64_S64x64_64_0 := by
  dsimp only [hostOps1]
  after_results_simp

theorem after1_main_v54 (V : Valuation τ sig (Elt F)) :
    StableHlo.after hostOps1 V main_v54 = extractStridedSlice S64x64 ![128, 0] (V main_arg9) slices_S256x64_S64x64_128_0 := by
  dsimp only [hostOps1]
  after_results_simp

theorem after1_main_v58 (V : Valuation τ sig (Elt F)) :
    StableHlo.after hostOps1 V main_v58 = foldedBias (V main_arg10) (V main_arg2) (V main_arg9) := by
  dsimp only [hostOps1]
  after_results_simp
  rfl

theorem after1_main_v59 (V : Valuation τ sig (Elt F)) :
    StableHlo.after hostOps1 V main_v59 = shapeCast S1x64 (V main_arg12) shapeCasts_S64_S1x64 := by
  dsimp only [hostOps1]
  after_results_simp
  rfl

/-! ## Before region 1 -/

theorem v2_main_arg2 (c : Dev nD) : V2 m outs c main_arg2 = m (c, main_arg2) :=
  (V2_of m outs c main_arg2 (by decide)).trans (V1_of m c main_arg2 (by decide))
theorem v2_main_arg3 (c : Dev nD) : V2 m outs c main_arg3 = m (c, main_arg3) :=
  (V2_of m outs c main_arg3 (by decide)).trans (V1_of m c main_arg3 (by decide))
theorem v2_main_arg4 (c : Dev nD) : V2 m outs c main_arg4 = m (c, main_arg4) :=
  (V2_of m outs c main_arg4 (by decide)).trans (V1_of m c main_arg4 (by decide))
theorem v2_main_arg9 (c : Dev nD) : V2 m outs c main_arg9 = m (c, main_arg9) :=
  (V2_of m outs c main_arg9 (by decide)).trans (V1_of m c main_arg9 (by decide))
theorem v2_main_arg10 (c : Dev nD) : V2 m outs c main_arg10 = m (c, main_arg10) :=
  (V2_of m outs c main_arg10 (by decide)).trans (V1_of m c main_arg10 (by decide))
theorem v2_main_arg12 (c : Dev nD) : V2 m outs c main_arg12 = m (c, main_arg12) :=
  (V2_of m outs c main_arg12 (by decide)).trans (V1_of m c main_arg12 (by decide))

/-- The senders' segment means of the table the first region left. -/
theorem v3_main_v39 (c : Dev nD) : V3 m outs c main_v39 = segMean (m (c, main_arg3)) (outs 2 main_v24_0 c) := by
  refine (after1_main_v39 (V2 m outs c)).trans ?_
  rw [v2_main_arg3, v2_main_v24_0]

/-- The receivers' segment means of the table the first region left. -/
theorem v3_main_v51 (c : Dev nD) : V3 m outs c main_v51 = segMean (m (c, main_arg4)) (outs 2 main_v24_0 c) := by
  refine (after1_main_v51 (V2 m outs c)).trans ?_
  rw [v2_main_arg4, v2_main_v24_0]

theorem v3_main_v52 (c : Dev nD) :
    V3 m outs c main_v52 = extractStridedSlice S64x64 ![0, 0] (m (c, main_arg9)) slices_S256x64_S64x64_0_0 := by
  refine (after1_main_v52 (V2 m outs c)).trans ?_
  rw [v2_main_arg9]

theorem v3_main_v53 (c : Dev nD) :
    V3 m outs c main_v53 = extractStridedSlice S64x64 ![64, 0] (m (c, main_arg9)) slices_S256x64_S64x64_64_0 := by
  refine (after1_main_v53 (V2 m outs c)).trans ?_
  rw [v2_main_arg9]

theorem v3_main_v54 (c : Dev nD) :
    V3 m outs c main_v54 = extractStridedSlice S64x64 ![128, 0] (m (c, main_arg9)) slices_S256x64_S64x64_128_0 := by
  refine (after1_main_v54 (V2 m outs c)).trans ?_
  rw [v2_main_arg9]

theorem v3_main_v58 (c : Dev nD) :
    V3 m outs c main_v58 = foldedBias (m (c, main_arg10)) (m (c, main_arg2)) (m (c, main_arg9)) := by
  refine (after1_main_v58 (V2 m outs c)).trans ?_
  rw [v2_main_arg10, v2_main_arg2, v2_main_arg9]

theorem v3_main_v59 (c : Dev nD) :
    V3 m outs c main_v59 = shapeCast S1x64 (m (c, main_arg12)) shapeCasts_S64_S1x64 := by
  refine (after1_main_v59 (V2 m outs c)).trans ?_
  rw [v2_main_arg12]

theorem v3_main_arg0 (c : Dev nD) : V3 m outs c main_arg0 = m (c, main_arg0) :=
  (V3_of m outs c main_arg0 (by decide)).trans <| (V2_of m outs c main_arg0 (by decide)).trans (V1_of m c main_arg0 (by decide))
theorem v3_main_arg11 (c : Dev nD) : V3 m outs c main_arg11 = m (c, main_arg11) :=
  (V3_of m outs c main_arg11 (by decide)).trans <| (V2_of m outs c main_arg11 (by decide)).trans (V1_of m c main_arg11 (by decide))

end Cert.KernelIdeal.HostFold

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibAffineStage.lean ====
/-
  A dense layer without a cut-off on the extended reals, in the two spellings that lower from "x @ w + b".
  For an M×K array x, a K×N weight w and a bias given as a one-row array b (shape [1, N]), the layer is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast to
    its own shape) broadcast over the rows, is the layer.
  * affine_of_dotGeneral: the host's product over the same dimension numbers, plus the bias row broadcast along the axes
    [0, 1], is the layer.
  * affine_rows: the layer's value in a row depends on x only through that row, so a block of rows of x gives that block
    of the layer (for kernels that tile the rows over a grid).
  * stage_eq_max_affine: the dense stage with a cut-off at 0 is the maximum of this layer and 0, entry by entry.
  * bias rows: a [N] vector reshaped to [1, N] (a row-major shape cast) and the same vector broadcast to [1, N] along
    axis 1 are one row, entry c of the vector at (0, c).
  Over the library, the plain-product lemmas and the dense-stage lemmas only; every extent is a variable.
-/
import Idealize.ShloMosaic.PureOps.Ideal.Laws
import Idealize.ShloMosaic.Lib.ValueIdx
import Idealize.ShloMosaic.Lib.Pipeline.Value
import proofs.«128321_j38912403702319_2_alg».proof.Proof.LibPlainDot
import proofs.«128321_j38912403702319_2_alg».proof.Proof.LibDenseStage
import proofs.«128321_j38912403702319_2_alg».proof.Proof.LibHostBroadcast

noncomputable section

namespace Cert.LibAffineStage

open Idealize.ShloMosaic Idealize.ShloMosaic.ValueIdx

variable (M K N : Nat)

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- The layer in row a' of a block is the layer in row a of the whole, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The dense stage with a cut-off at 0 is the maximum of the layer and 0. -/
theorem stage_eq_max_affine (x : FVec Ideal ⟨2, ![M, K]⟩ .f32) (w : FVec Ideal ⟨2, ![K, N]⟩ .f32) (b : FVec Ideal ⟨2, ![1, N]⟩ .f32)
    (i : (⟨2, ![M, N]⟩ : Shape).Idx) :
    Cert.LibDenseStage.stage M K N x w b i = max (affine M K N x w b i) 0 := rfl

/-- The matrix unit's spelling of the layer. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the layer. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-- A [N] vector reshaped to a [1, N] row reads, at (0, c), the vector at c. -/
theorem reshape_row {α : Type} (v : (⟨1, ![N]⟩ : Shape).Idx → α) (h : (⟨1, ![N]⟩ : Shape).ShapeCasts ⟨2, ![1, N]⟩) (u : Fin 1) (c : Fin N) :
    shapeCast ⟨2, ![1, N]⟩ v h (ix2 u c) = v (ix1 c) :=
  shapeCast_apply v h (ix2 u c) (ix1 c) (by
    rw [Shape.rowMajor_val_one, Shape.rowMajor_val_two]
    have hu : u.val = 0 := by have := u.isLt; omega
    show c.val = u.val * N + c.val
    rw [hu]; omega)

/-- The reshaped row and the broadcast row of one vector are the same [1, N] array. -/
theorem reshape_row_eq_broadcast_row {α : Type} (v : (⟨1, ![N]⟩ : Shape).Idx → α) (h : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ v h = broadcastInDim ⟨2, ![1, N]⟩ ![1] hb v := by
  funext i
  obtain ⟨u, c, rfl⟩ : ∃ (u : Fin 1) (c : Fin N), i = ix2 u c := ⟨i 0, i 1, eq_ix2 i⟩
  rw [reshape_row, Cert.LibHostBroadcast.vec_to_row]

end Cert.LibAffineStage

end
-- ==== Proof.KIHostRead.lean ====
/-
  The folded host terms read at natural coordinates on the extended reals: a band of the first weight is the weight
  at the shifted row, the folded bias at column k is b k plus the shared row's product with the fourth band, a vector
  reshaped to a row reads the vector, and the two halves' column sums add entry by entry.
-/
import proofs.«128321_j38912403702319_2_alg».proof.Proof.KIHostFold
import proofs.«128321_j38912403702319_2_alg».proof.Proof.KIHostFoldC
import proofs.«128321_j38912403702319_2_alg».proof.Proof.LibMlpSpec
import proofs.«128321_j38912403702319_2_alg».proof.Proof.LibAffineStage
import proofs.«128321_j38912403702319_2_alg».proof.Proof.LibPlainDot

noncomputable section

namespace Cert.KernelIdeal.HostRead

open Idealize.ShloMosaic Idealize.ShloMosaic.ValueIdx Cert.NatRead
open Cert.KernelIdeal Cert.KernelIdeal.Gen Cert.KernelIdeal.HostFold

/-! ## The bands of the first weight -/

/-- Row q of the 64-row band of a 256×64 array that starts at row o is row o + q of the array. -/
theorem band_read (o : ℕ) (W : (⟨2, ![256, 64]⟩ : Shape).Idx → EReal)
    (h : (⟨2, ![256, 64]⟩ : Shape).Slices ![o, 0] ⟨2, ![64, 64]⟩) (q k : ℕ) (hq : q < 64) (hk : k < 64) (ho : o + q < 256) :
    rd2 (extractStridedSlice ⟨2, ![64, 64]⟩ ![o, 0] W h) q k = rd2 W (o + q) k := by
  rw [rd2_mk _ q hq k hk, rd2_mk W (o + q) ho k hk]
  exact extractStridedSlice_apply ![o, 0] W h (ix2 ⟨q, hq⟩ ⟨k, hk⟩) (ix2 ⟨o + q, ho⟩ ⟨k, hk⟩) fun ax => by
    match ax with
    | ⟨0, _⟩ => rfl
    | ⟨1, _⟩ => show k = 0 + k; omega

theorem band0 (W : FVec Ideal S256x64 .f32) (h : S256x64.Slices ![0, 0] S64x64) (q k : ℕ) (hq : q < 64) (hk : k < 64) :
    rd2 (extractStridedSlice S64x64 ![0, 0] W h) q k = rd2 W q k :=
  (band_read 0 W h q k hq hk (by omega)).trans (by rw [Nat.zero_add])

theorem band64 (W : FVec Ideal S256x64 .f32) (h : S256x64.Slices ![64, 0] S64x64) (q k : ℕ) (hq : q < 64) (hk : k < 64) :
    rd2 (extractStridedSlice S64x64 ![64, 0] W h) q k = rd2 W (64 + q) k :=
  band_read 64 W h q k hq hk (by omega)

theorem band128 (W : FVec Ideal S256x64 .f32) (h : S256x64.Slices ![128, 0] S64x64) (q k : ℕ) (hq : q < 64) (hk : k < 64) :
    rd2 (extractStridedSlice S64x64 ![128, 0] W h) q k = rd2 W (128 + q) k :=
  band_read 128 W h q k hq hk (by omega)

theorem band192 (W : FVec Ideal S256x64 .f32) (h : S256x64.Slices ![192, 0] S64x64) (q k : ℕ) (hq : q < 64) (hk : k < 64) :
    rd2 (extractStridedSlice S64x64 ![192, 0] W h) q k = rd2 W (192 + q) k :=
  band_read 192 W h q k hq hk (by omega)

/-! ## The bias rows -/

/-- A 64-vector reshaped to a row reads, at column j, the vector at j. -/
theorem row_read (b : FVec Ideal S64 .f32) (h : S64.ShapeCasts S1x64) (j : ℕ) (hj : j < 64) :
    rd2 (shapeCast S1x64 b h) 0 j = Cert.Spec.rd1 b j := by
  rw [rd2_mk _ 0 (by omega) j hj]
  exact (Cert.LibAffineStage.reshape_row 64 b h ⟨0, by omega⟩ ⟨j, hj⟩).trans
    (Cert.Spec.rd1_ix b ⟨j, hj⟩)

theorem dot_row_plain : dot_S1x64_S64x64_S1x64_1_0_0_1_n_n = DotDims.plain 1 64 64 := rfl

/-- The folded bias at column k: b k plus the shared row's product with the fourth band of W. -/
theorem foldedBias_read (b : FVec Ideal S64 .f32) (g : FVec Ideal S1x64 .f32) (W : FVec Ideal S256x64 .f32)
    (k : ℕ) (hk : k < 64) :
    rd2 (foldedBias (F := Ideal) b g W) 0 k
      = Cert.Spec.rd1 b k + ∑ q ∈ Finset.range 64, rd2 g 0 q * rd2 W (192 + q) k := by
  rw [rd2_mk _ 0 (by omega) k hk]
  unfold foldedBias
  refine (addf_apply _ _ _).trans ?_
  refine congrArg₂ (· + ·) ?_ ?_
  · exact (Cert.LibAffineStage.reshape_row 64 b shapeCasts_S64_S1x64 ⟨0, by omega⟩ ⟨k, hk⟩).trans
      (Cert.Spec.rd1_ix b ⟨k, hk⟩)
  · rw [dot_row_plain]
    refine (Cert.LibPlainDot.dotGeneral_plain 1 64 64 none g _ _).trans ?_
    rw [← sum_fin 64 (fun q => rd2 g 0 q * rd2 W (192 + q) k)]
    refine Finset.sum_congr rfl fun q _ => congrArg₂ (· * ·) (rd2_ix g ⟨0, by omega⟩ q) ?_
    exact (rd2_ix _ q ⟨k, hk⟩).trans (band192 W _ q.val k q.isLt hk)

/-! ## The two halves' column sums -/

/-- The two halves' column sums added, at column j: row 0 plus row 8. -/
theorem halvesSum_read (s : FVec Ideal S16x64 .f32) (j : Fin 64) :
    halvesSum (F := Ideal) s (ix2 (0 : Fin 1) j) = s (ix2 (0 : Fin 16) j) + s (ix2 (8 : Fin 16) j) := by
  unfold halvesSum
  refine (addf_apply _ _ _).trans ?_
  refine congrArg₂ (· + ·) ?_ ?_
  · exact extractStridedSlice_apply ![0, 0] s slices_S16x64_S1x64_0_0 (ix2 (0 : Fin 1) j) (ix2 (0 : Fin 16) j) fun ax => by
      match ax with
      | ⟨0, _⟩ => rfl
      | ⟨1, _⟩ => show j.val = 0 + j.val; omega
  · exact extractStridedSlice_apply ![8, 0] s slices_S16x64_S1x64_8_0 (ix2 (0 : Fin 1) j) (ix2 (8 : Fin 16) j) fun ax => by
      match ax with
      | ⟨0, _⟩ => rfl
      | ⟨1, _⟩ => show j.val = 0 + j.val; omega

end Cert.KernelIdeal.HostRead

end
-- ==== Proof.RefDefs.lean ====
/-
  Names for three parts of the reference program that are carried along whole.

  * gatherRows nodes idx: the 800000×64 table whose row e is the row of the 50000×64 node table named by entry e of an
    index array, an index below 0 first raised by 50000 (the comparison with 0, the sum with 50000 and the choice
    between them, entry by entry, then the gather).
  * segMean idx E: the 50000×64 table of per-node means of the rows of an 800000×64 table E: the rows of E added into
    a table of zeros at the rows idx names, divided entry by entry by the number of rows added there, that number
    (ones added into zeros at the same places) raised to at least 1 and spread along the 64 columns.
  * gTail V E g W1 b1 W2 b2: the last perceptron: the column sums of V (50000 rows) and of E (800000 rows), each from 0,
    divided by 50000 and by 800000, laid beside the 1×64 row g, times the 192×64 weight W1, plus b1, cut off below at 0,
    times the 64×64 weight W2, plus b2.
  Each is the reference's own term over its own shape records, with the tables it is applied to as variables.
-/
import proofs.«128321_j38912403702319_2_alg».proof.Proof.Gen.ReferenceIdeal
import Idealize.ShloMosaic.PureOps.Ideal.Laws

noncomputable section

namespace Cert.RefSpec

open Cert.ReferenceIdeal Cert.ReferenceIdeal.Gen Idealize.ShloMosaic

/-- Rows of the node table at the entries of an index array, negative entries counted from the end. -/
def gatherRows (nodes : FVec Ideal S50000x64 .f32) (idx : IVec S800000 32) : FVec Ideal S800000x64 .f32 :=
  Host.gather gather_S50000x64_S800000x1_S800000x64_1_0_n_n_0_1_164 nodes
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32))) idx))

/-- Per-node mean of the rows of E, the rows grouped by the entries of an index array. -/
def segMean (idx : IVec S800000 32) (E : FVec Ideal S800000x64 .f32) : FVec Ideal S50000x64 .f32 :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 idx) E)
    (broadcastInDim S50000x64 ![0, 1] bcast_S50000x1_S50000x64_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 idx)
            (broadcastInDim S800000 ![] bcast_S_S800000 (constant (F := Ideal) S_ .f32 0x3F800000#32)))
          (broadcastInDim S50000 ![] bcast_S_S50000 (constant (F := Ideal) S_ .f32 0x3F800000#32)))))

/-- The perceptron over the two column means and the global row. -/
def gTail (V : FVec Ideal S50000x64 .f32) (E : FVec Ideal S800000x64 .f32) (g : FVec Ideal S1x64 .f32)
    (W1 : FVec Ideal S192x64 .f32) (b1 : FVec Ideal S64 .f32) (W2 : FVec Ideal S64x64 .f32) (b2 : FVec Ideal S64 .f32) :
    FVec Ideal S1x64 .f32 :=
  addf (F := Ideal)
    (Host.dotGeneral (F := Ideal) dot_S1x64_S64x64_S1x64_1_0_0_1_n_n none
      (maximumf (F := Ideal)
        (addf (F := Ideal)
          (Host.dotGeneral (F := Ideal) dot_S1x192_S192x64_S1x64_1_0_0_1_n_n none
            (concatenate S1x192 1
              [⟨S1x64, Host.divf (F := Ideal)
                  (broadcastInDim S1x64 ![1] bcast_S64_S1x64_1
                    (Host.reduceAdd (F := Ideal) V (constant (F := Ideal) S_ .f32 0x00000000#32) reducesTo_S50000x64_S64_d0 h_S_))
                  (broadcastInDim S1x64 ![] bcast_S_S1x64 (constant (F := Ideal) S_ .f32 0x47435000#32))⟩,
               ⟨S1x64, Host.divf (F := Ideal)
                  (broadcastInDim S1x64 ![1] bcast_S64_S1x64_1
                    (Host.reduceAdd (F := Ideal) E (constant (F := Ideal) S_ .f32 0x00000000#32) reducesTo_S800000x64_S64_d0 h_S_))
                  (broadcastInDim S1x64 ![] bcast_S_S1x64 (constant (F := Ideal) S_ .f32 0x49435000#32))⟩,
               ⟨S1x64, g⟩] concatenates_S1x64_S1x64_S1x64_S1x192_d1)
            W1)
          (broadcastInDim S1x64 ![1] bcast_S64_S1x64_1 b1))
        (broadcastInDim S1x64 ![] bcast_S_S1x64 (constant (F := Ideal) S_ .f32 0x00000000#32)))
      W2)
    (broadcastInDim S1x64 ![1] bcast_S64_S1x64_1 b2)

end Cert.RefSpec

end
-- ==== Proof.KIHostReadRef.lean ====
/-
  The kernel program's carried-along host terms are the reference program's: the gathered rows, the segment means
  and the last perceptron are the same compositions of the same operations over equal shape records, once the column
  sums the kernel program takes from its regions are the column sums the reference program takes directly.
-/
import proofs.«128321_j38912403702319_2_alg».proof.Proof.KIHostFold
import proofs.«128321_j38912403702319_2_alg».proof.Proof.KIHostFoldB
import proofs.«128321_j38912403702319_2_alg».proof.Proof.KIHostFoldC
import proofs.«128321_j38912403702319_2_alg».proof.Proof.KIHostRead
import proofs.«128321_j38912403702319_2_alg».proof.Proof.RefDefs
import proofs.«128321_j38912403702319_2_alg».proof.Proof.LibNatRead
import proofs.«128321_j38912403702319_2_alg».proof.Proof.LibHostBroadcast
import Idealize.ShloMosaic.Lib.IdealHost

noncomputable section

namespace Cert.KernelIdeal.HostRead

open Idealize.ShloMosaic Idealize.ShloMosaic.ValueIdx Cert.NatRead
open Cert.KernelIdeal Cert.KernelIdeal.Gen Cert.KernelIdeal.HostFold

/-! ## The carried-along tables -/

/-- The gathered rows, the conversion to the narrow format being the identity on the extended reals. -/
theorem gatherRows_eq (x : FVec Ideal S50000x64 .f32) (s : IVec S800000 32) :
    (gatherRows (F := Ideal) x s : S800000x64.Idx → EReal) = Cert.RefSpec.gatherRows x s := rfl

/-- The segment means. -/
theorem segMean_eq (s : IVec S800000 32) (e : FVec Ideal S800000x64 .f32) :
    (segMean (F := Ideal) s e : S50000x64.Idx → EReal) = Cert.RefSpec.segMean s e := rfl

/-! ## Column sums -/

/-- The index over column j with row k put back. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The sum from 0 over the rows of an a×64 table, laid out as a row, at column j: the sum of column j. -/
theorem colSum_read (a : ℕ) (X : (⟨2, ![a, 64]⟩ : Shape).Idx → EReal)
    (hb : (⟨1, ![64]⟩ : Shape).BroadcastsInDim ⟨2, ![1, 64]⟩ (![1] : Fin 1 → Fin 2))
    (hr : (⟨2, ![a, 64]⟩ : Shape).ReducesTo [0] ⟨1, ![64]⟩) (hR : (⟨2, ![a, 64]⟩ : Shape).Reduces [0] ⟨1, ![64]⟩)
    (h0 : 0 < (⟨0, ![]⟩ : Shape).numel) (j : Fin 64) :
    broadcastInDim ⟨2, ![1, 64]⟩ ![1] hb
        (Host.reduceAdd (F := Ideal) (φ := .f32) X (constant (F := Ideal) ⟨0, ![]⟩ .f32 0x00000000#32) hr h0) (ix2 (0 : Fin 1) j)
      = ∑ r ∈ Finset.range a, rd2 X r j.val := by
  refine (Cert.LibHostBroadcast.vec_to_row _ hb 0 j).trans ?_
  refine (hostReduceAdd_apply (φ := .f32) X _ hr h0 (ix1 j)).trans ?_
  refine (Ideal.hostReduceAdd_single hr hR X _ (ix1 j)).trans ?_
  rw [constant_apply, Ideal.ofBits_zero_f32, zero_add]
  refine (Finset.sum_congr rfl fun k _ => ?_).trans (sum_fin a (fun r => rd2 X r j.val))
  exact (congrArg X (lift_col hR j k)).trans (rd2_ix X ⟨k.val, k.isLt⟩ j)

/-- The reference's column sums of the 50000-row table, at column j. -/
theorem colSum_nodes (N : FVec Ideal Cert.ReferenceIdeal.S50000x64 .f32) (j : Fin 64) :
    broadcastInDim Cert.ReferenceIdeal.S1x64 ![1] Cert.ReferenceIdeal.Gen.bcast_S64_S1x64_1
        (Host.reduceAdd (F := Ideal) N (constant (F := Ideal) Cert.ReferenceIdeal.S_ .f32 0x00000000#32)
          Cert.ReferenceIdeal.Gen.reducesTo_S50000x64_S64_d0 Cert.ReferenceIdeal.Gen.h_S_) (ix2 (0 : Fin 1) j)
      = ∑ r ∈ Finset.range 50000, rd2 N r j.val :=
  colSum_read 50000 N _ _ (by decide) _ j

/-- The reference's column sums of the 800000-row table, at column j. -/
theorem colSum_edges (E : FVec Ideal Cert.ReferenceIdeal.S800000x64 .f32) (j : Fin 64) :
    broadcastInDim Cert.ReferenceIdeal.S1x64 ![1] Cert.ReferenceIdeal.Gen.bcast_S64_S1x64_1
        (Host.reduceAdd (F := Ideal) E (constant (F := Ideal) Cert.ReferenceIdeal.S_ .f32 0x00000000#32)
          Cert.ReferenceIdeal.Gen.reducesTo_S800000x64_S64_d0 Cert.ReferenceIdeal.Gen.h_S_) (ix2 (0 : Fin 1) j)
      = ∑ r ∈ Finset.range 800000, rd2 E r j.val :=
  colSum_read 800000 E _ _ (by decide) _ j

/-! ## The last perceptron -/

/-- Once the two halves' column sums are the reference's column sums, the last perceptron is the reference's. -/
theorem tail_eq (sn se : FVec Ideal S16x64 .f32) (N : FVec Ideal Cert.ReferenceIdeal.S50000x64 .f32)
    (E : FVec Ideal Cert.ReferenceIdeal.S800000x64 .f32) (g : FVec Ideal S1x64 .f32) (W1 : FVec Ideal S192x64 .f32)
    (b1 : FVec Ideal S64 .f32) (W2 : FVec Ideal S64x64 .f32) (b2 : FVec Ideal S64 .f32)
    (hn : halvesSum (F := Ideal) sn
      = broadcastInDim Cert.ReferenceIdeal.S1x64 ![1] Cert.ReferenceIdeal.Gen.bcast_S64_S1x64_1
          (Host.reduceAdd (F := Ideal) N (constant (F := Ideal) Cert.ReferenceIdeal.S_ .f32 0x00000000#32)
            Cert.ReferenceIdeal.Gen.reducesTo_S50000x64_S64_d0 Cert.ReferenceIdeal.Gen.h_S_))
    (he : halvesSum (F := Ideal) se
      = broadcastInDim Cert.ReferenceIdeal.S1x64 ![1] Cert.ReferenceIdeal.Gen.bcast_S64_S1x64_1
          (Host.reduceAdd (F := Ideal) E (constant (F := Ideal) Cert.ReferenceIdeal.S_ .f32 0x00000000#32)
            Cert.ReferenceIdeal.Gen.reducesTo_S800000x64_S64_d0 Cert.ReferenceIdeal.Gen.h_S_)) :
    (globalOut (F := Ideal) (globalPre (globalIn sn se g) W1 b1) W2 b2 : S1x64.Idx → EReal)
      = Cert.RefSpec.gTail N E g W1 b1 W2 b2 := by
  unfold globalOut globalPre globalIn Cert.RefSpec.gTail
  rw [hn, he]
  rfl

/-- The two halves' column sums are the reference's column sums as soon as they are, column by column, the sums of
    the table's columns. -/
theorem halvesSum_nodes (sn : FVec Ideal S16x64 .f32) (N : FVec Ideal Cert.ReferenceIdeal.S50000x64 .f32)
    (h : ∀ j : Fin 64, sn (ix2 (0 : Fin 16) j) + sn (ix2 (8 : Fin 16) j) = ∑ r ∈ Finset.range 50000, rd2 N r j.val) :
    halvesSum (F := Ideal) sn
      = broadcastInDim Cert.ReferenceIdeal.S1x64 ![1] Cert.ReferenceIdeal.Gen.bcast_S64_S1x64_1
          (Host.reduceAdd (F := Ideal) N (constant (F := Ideal) Cert.ReferenceIdeal.S_ .f32 0x00000000#32)
            Cert.ReferenceIdeal.Gen.reducesTo_S50000x64_S64_d0 Cert.ReferenceIdeal.Gen.h_S_) := by
  funext i
  obtain ⟨u, j, rfl⟩ : ∃ (u : Fin 1) (j : Fin 64), i = ix2 u j := ⟨i 0, i 1, eq_ix2 i⟩
  obtain rfl : u = 0 := Subsingleton.elim _ _
  exact (halvesSum_read sn j).trans ((h j).trans (colSum_nodes N j).symm)

theorem halvesSum_edges (se : FVec Ideal S16x64 .f32) (E : FVec Ideal Cert.ReferenceIdeal.S800000x64 .f32)
    (h : ∀ j : Fin 64, se (ix2 (0 : Fin 16) j) + se (ix2 (8 : Fin 16) j) = ∑ r ∈ Finset.range 800000, rd2 E r j.val) :
    halvesSum (F := Ideal) se
      = broadcastInDim Cert.ReferenceIdeal.S1x64 ![1] Cert.ReferenceIdeal.Gen.bcast_S64_S1x64_1
          (Host.reduceAdd (F := Ideal) E (constant (F := Ideal) Cert.ReferenceIdeal.S_ .f32 0x00000000#32)
            Cert.ReferenceIdeal.Gen.reducesTo_S800000x64_S64_d0 Cert.ReferenceIdeal.Gen.h_S_) := by
  funext i
  obtain ⟨u, j, rfl⟩ : ∃ (u : Fin 1) (j : Fin 64), i = ix2 u j := ⟨i 0, i 1, eq_ix2 i⟩
  obtain rfl : u = 0 := Subsingleton.elim _ _
  exact (halvesSum_read se j).trans ((h j).trans (colSum_edges E j).symm)

/-- The last perceptron is the reference's, given the column sums column by column. -/
theorem tail_of_sums (sn se : FVec Ideal S16x64 .f32) (N : FVec Ideal Cert.ReferenceIdeal.S50000x64 .f32)
    (E : FVec Ideal Cert.ReferenceIdeal.S800000x64 .f32) (g : FVec Ideal S1x64 .f32) (W1 : FVec Ideal S192x64 .f32)
    (b1 : FVec Ideal S64 .f32) (W2 : FVec Ideal S64x64 .f32) (b2 : FVec Ideal S64 .f32)
    (hn : ∀ j : Fin 64, sn (ix2 (0 : Fin 16) j) + sn (ix2 (8 : Fin 16) j) = ∑ r ∈ Finset.range 50000, rd2 N r j.val)
    (he : ∀ j : Fin 64, se (ix2 (0 : Fin 16) j) + se (ix2 (8 : Fin 16) j) = ∑ r ∈ Finset.range 800000, rd2 E r j.val) :
    (globalOut (F := Ideal) (globalPre (globalIn sn se g) W1 b1) W2 b2 : S1x64.Idx → EReal)
      = Cert.RefSpec.gTail N E g W1 b1 W2 b2 :=
  tail_eq sn se N E g W1 b1 W2 b2 (halvesSum_nodes sn N hn) (halvesSum_edges se E he)

end Cert.KernelIdeal.HostRead

end
-- ==== Proof.LibMlpBands.lean ====
/-
  From the banded, tile-by-tile form of the perceptron to the perceptron over the whole first weight.

  A tile-by-tile computation is handed the first weight W1 as three 64-row bands A3, A4, A5 and a bias row A6 that
  already contains the shared piece's product with the fourth band; when these are the bands of W1 (entry by entry),
  A6 is b1 + g · W1[192:256] and the second bias row A8 is b2, the banded perceptron of every row is the perceptron.
-/
import proofs.«128321_j38912403702319_2_alg».proof.Proof.LibMlpSpec

noncomputable section

namespace Cert.Spec

open Finset Idealize.ShloMosaic Idealize.ShloMosaic.ValueIdx Cert.NatRead

theorem rd1_mk {A : ℕ} (x : (⟨1, ![A]⟩ : Shape).Idx → EReal) (a : ℕ) (ha : a < A) : rd1 x a = x (ix1 ⟨a, ha⟩) := by
  unfold rd1
  rw [dif_pos ha]

/-- The banded perceptron over N rows is the perceptron over the whole first weight. -/
theorem mlpArr_of_bands (N : ℕ) (x0 x1 x2 : (⟨2, ![N, 64]⟩ : Shape).Idx → EReal) (g : (⟨2, ![1, 64]⟩ : Shape).Idx → EReal)
    (W1 : (⟨2, ![256, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (A3 A4 A5 : (⟨2, ![64, 64]⟩ : Shape).Idx → EReal) (A6 A8 : (⟨2, ![1, 64]⟩ : Shape).Idx → EReal)
    (h3 : ∀ q k : ℕ, q < 64 → k < 64 → rd2 A3 q k = rd2 W1 q k)
    (h4 : ∀ q k : ℕ, q < 64 → k < 64 → rd2 A4 q k = rd2 W1 (64 + q) k)
    (h5 : ∀ q k : ℕ, q < 64 → k < 64 → rd2 A5 q k = rd2 W1 (128 + q) k)
    (h6 : ∀ k : ℕ, k < 64 → rd2 A6 0 k = rd1 b1 k + ∑ q ∈ range 64, rd2 g 0 q * rd2 W1 (192 + q) k)
    (h8 : ∀ j : ℕ, j < 64 → rd2 A8 0 j = rd1 b2 j) :
    (fun i : (⟨2, ![N, 64]⟩ : Shape).Idx =>
        mlpT (rd2 x0) (rd2 x1) (rd2 x2) (rd2 A3) (rd2 A4) (rd2 A5) (fun k => rd2 A6 0 k) (rd2 W2) (fun k => rd2 A8 0 k) (i 0).val (i 1).val)
      = mlpArr N x0 x1 x2 g W1 b1 W2 b2 := by
  funext i
  have hj : (i 1).val < 64 := (i 1).isLt
  unfold mlpArr
  rw [mlp_eq_mlpT]
  unfold mlpT
  beta_reduce
  rw [h8 _ hj]
  refine congrArg (· + rd1 b2 (i 1).val) (Finset.sum_congr rfl fun k hk => ?_)
  have hk' : k < 64 := Finset.mem_range.mp hk
  refine congrArg (· * rd2 W2 k (i 1).val) ?_
  unfold hiddenT
  beta_reduce
  rw [h6 k hk']
  refine congrArg (fun z => max (z + (rd1 b1 k + ∑ q ∈ range 64, rd2 g 0 q * rd2 W1 (192 + q) k)) 0) ?_
  refine congrArg₂ (· + ·) (congrArg₂ (· + ·) ?_ ?_) ?_
  · exact Finset.sum_congr rfl fun q hq => by rw [h3 q k (Finset.mem_range.mp hq) hk']
  · exact Finset.sum_congr rfl fun q hq => by rw [h4 q k (Finset.mem_range.mp hq) hk']
  · exact Finset.sum_congr rfl fun q hq => by rw [h5 q k (Finset.mem_range.mp hq) hk']

end Cert.Spec

end
-- ==== Proof.KI.Values.lean ====
/-
  The kernel program's results over the extended reals, in the specification's form.

  Region 0's output array is the perceptron of the edge rows, the gathered sender and receiver rows and the global row:
  its tiles compute the banded form over the three upper bands of the first weight and a bias row that holds the bias
  plus the global row's product with the fourth band, which is the perceptron over the whole weight.
-/
import proofs.«128321_j38912403702319_2_alg».proof.Proof.KI.Regions
import proofs.«128321_j38912403702319_2_alg».proof.Proof.KI.R0Final
import proofs.«128321_j38912403702319_2_alg».proof.Proof.KI.R0FinalSums
import proofs.«128321_j38912403702319_2_alg».proof.Proof.KI.R1Final
import proofs.«128321_j38912403702319_2_alg».proof.Proof.KI.R1FinalSums
import proofs.«128321_j38912403702319_2_alg».proof.Proof.KIHostReadRef
import proofs.«128321_j38912403702319_2_alg».proof.Proof.KIHostFold
import proofs.«128321_j38912403702319_2_alg».proof.Proof.KIHostFoldB
import proofs.«128321_j38912403702319_2_alg».proof.Proof.KIHostFoldC
import proofs.«128321_j38912403702319_2_alg».proof.Proof.KIHostRead
import proofs.«128321_j38912403702319_2_alg».proof.Proof.LibMlpBands

noncomputable section

namespace Cert.KernelIdeal.Val

open Cert.KernelIdeal Cert.KernelIdeal.Gen Cert.KernelIdeal.Frm Cert.KernelIdeal.HostFold Cert.KernelIdeal.HostRead
open Idealize.ShloMosaic Idealize.ShloMosaic.TcCoe Idealize.ShloMosaic.ValueIdx Idealize.SL.Sem Cert.Spec Cert.NatRead

variable (m : (ℓ : Loc nD τ sig) → Buf (Elt Ideal) ℓ) (c : Dev nD)

/-- The new edge table the kernel program leaves: the perceptron over the edge rows, the rows gathered at the senders
    and at the receivers, and the global row. -/
theorem edges_eq :
    (R0.dat (C1 m) c).arrAt 9 cfg0.N
      = mlpArr 800000 (m ((c.tc : Thread nD τ).loc main_arg1))
          (gatherRows (F := Ideal) (m ((c.tc : Thread nD τ).loc main_arg0)) (m ((c.tc : Thread nD τ).loc main_arg3)))
          (gatherRows (F := Ideal) (m ((c.tc : Thread nD τ).loc main_arg0)) (m ((c.tc : Thread nD τ).loc main_arg4)))
          (m ((c.tc : Thread nD τ).loc main_arg2)) (m ((c.tc : Thread nD τ).loc main_arg5)) (m ((c.tc : Thread nD τ).loc main_arg6))
          (m ((c.tc : Thread nD τ).loc main_arg7)) (m ((c.tc : Thread nD τ).loc main_arg8)) := by
  rw [R0.final9 (C1 m) c]
  have e0 : R0.A0 (C1 m) c = m ((c.tc : Thread nD τ).loc main_arg1) := v1_main_arg1 m c
  have e1 : R0.A1 (C1 m) c = gatherRows (F := Ideal) (m ((c.tc : Thread nD τ).loc main_arg0)) (m ((c.tc : Thread nD τ).loc main_arg3)) := v1_main_v7 m c
  have e2 : R0.A2 (C1 m) c = gatherRows (F := Ideal) (m ((c.tc : Thread nD τ).loc main_arg0)) (m ((c.tc : Thread nD τ).loc main_arg4)) := v1_main_v15 m c
  have e3 : R0.A3 (C1 m) c = _ := v1_main_v16 m c
  have e4 : R0.A4 (C1 m) c = _ := v1_main_v17 m c
  have e5 : R0.A5 (C1 m) c = _ := v1_main_v18 m c
  have e6 : R0.A6 (C1 m) c = _ := v1_main_v22 m c
  have e7 : R0.A7 (C1 m) c = m ((c.tc : Thread nD τ).loc main_arg7) := v1_main_arg7 m c
  have e8 : R0.A8 (C1 m) c = _ := v1_main_v23 m c
  have h3 : ∀ q k : ℕ, q < 64 → k < 64 → rd2 (R0.A3 (C1 m) c) q k = rd2 (m ((c.tc : Thread nD τ).loc main_arg5)) q k :=
    fun q k hq hk => by rw [e3]; exact band0 _ _ q k hq hk
  have h4 : ∀ q k : ℕ, q < 64 → k < 64 → rd2 (R0.A4 (C1 m) c) q k = rd2 (m ((c.tc : Thread nD τ).loc main_arg5)) (64 + q) k :=
    fun q k hq hk => by rw [e4]; exact band64 _ _ q k hq hk
  have h5 : ∀ q k : ℕ, q < 64 → k < 64 → rd2 (R0.A5 (C1 m) c) q k = rd2 (m ((c.tc : Thread nD τ).loc main_arg5)) (128 + q) k :=
    fun q k hq hk => by rw [e5]; exact band128 _ _ q k hq hk
  have h6 : ∀ k : ℕ, k < 64 → rd2 (R0.A6 (C1 m) c) 0 k = rd1 (m ((c.tc : Thread nD τ).loc main_arg6)) k
      + ∑ q ∈ Finset.range 64, rd2 (m ((c.tc : Thread nD τ).loc main_arg2)) 0 q * rd2 (m ((c.tc : Thread nD τ).loc main_arg5)) (192 + q) k :=
    fun k hk => by rw [e6]; exact foldedBias_read _ _ _ k hk
  have h8 : ∀ j : ℕ, j < 64 → rd2 (R0.A8 (C1 m) c) 0 j = rd1 (m ((c.tc : Thread nD τ).loc main_arg8)) j :=
    fun j hj => by rw [e8]; exact row_read _ _ j hj
  have key := mlpArr_of_bands 800000 (R0.A0 (C1 m) c) (R0.A1 (C1 m) c) (R0.A2 (C1 m) c) (m ((c.tc : Thread nD τ).loc main_arg2))
    (m ((c.tc : Thread nD τ).loc main_arg5)) (m ((c.tc : Thread nD τ).loc main_arg6)) (R0.A7 (C1 m) c) (m ((c.tc : Thread nD τ).loc main_arg8))
    (R0.A3 (C1 m) c) (R0.A4 (C1 m) c) (R0.A5 (C1 m) c) (R0.A6 (C1 m) c) (R0.A8 (C1 m) c) h3 h4 h5 h6 h8
  exact key.trans (by rw [e0, e1, e2, e7])

/-- The kernel program's new edge table. -/
abbrev KE : FVec Ideal S800000x64 .f32 := (R0.dat (C1 m) c).arrAt 9 cfg0.N
/-- The kernel program's new node table. -/
abbrev KN : FVec Ideal S50000x64 .f32 := (R1.dat (C3 m) c).arrAt 9 cfg1.N

theorem outs2_edges : outs2 m 2 main_v24_0 c = KE m c := W2_arr m c 9

/-- The new node table: the perceptron over the node rows, the per-node means of the new edge table by sender and by
    receiver, and the global row. -/
theorem nodes_eq :
    KN m c = mlpArr 50000 (m ((c.tc : Thread nD τ).loc main_arg0)) (segMean (F := Ideal) (m ((c.tc : Thread nD τ).loc main_arg3)) (KE m c)) (segMean (F := Ideal) (m ((c.tc : Thread nD τ).loc main_arg4)) (KE m c))
          (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) := by
  show (R1.dat (C3 m) c).arrAt 9 cfg1.N = _
  rw [R1.final9 (C3 m) c]
  have e0 : R1.A0 (C3 m) c = (m ((c.tc : Thread nD τ).loc main_arg0)) := v3_main_arg0 m (outs2 m) c
  have e1 : R1.A1 (C3 m) c = segMean (F := Ideal) (m ((c.tc : Thread nD τ).loc main_arg3)) (KE m c) := (v3_main_v39 m (outs2 m) c).trans (by rw [outs2_edges])
  have e2 : R1.A2 (C3 m) c = segMean (F := Ideal) (m ((c.tc : Thread nD τ).loc main_arg4)) (KE m c) := (v3_main_v51 m (outs2 m) c).trans (by rw [outs2_edges])
  have e3 : R1.A3 (C3 m) c = _ := v3_main_v52 m (outs2 m) c
  have e4 : R1.A4 (C3 m) c = _ := v3_main_v53 m (outs2 m) c
  have e5 : R1.A5 (C3 m) c = _ := v3_main_v54 m (outs2 m) c
  have e6 : R1.A6 (C3 m) c = _ := v3_main_v58 m (outs2 m) c
  have e7 : R1.A7 (C3 m) c = (m ((c.tc : Thread nD τ).loc main_arg11)) := v3_main_arg11 m (outs2 m) c
  have e8 : R1.A8 (C3 m) c = _ := v3_main_v59 m (outs2 m) c
  have h3 : ∀ q k : ℕ, q < 64 → k < 64 → rd2 (R1.A3 (C3 m) c) q k = rd2 (m ((c.tc : Thread nD τ).loc main_arg9)) q k :=
    fun q k hq hk => by rw [e3]; exact band0 _ _ q k hq hk
  have h4 : ∀ q k : ℕ, q < 64 → k < 64 → rd2 (R1.A4 (C3 m) c) q k = rd2 (m ((c.tc : Thread nD τ).loc main_arg9)) (64 + q) k :=
    fun q k hq hk => by rw [e4]; exact band64 _ _ q k hq hk
  have h5 : ∀ q k : ℕ, q < 64 → k < 64 → rd2 (R1.A5 (C3 m) c) q k = rd2 (m ((c.tc : Thread nD τ).loc main_arg9)) (128 + q) k :=
    fun q k hq hk => by rw [e5]; exact band128 _ _ q k hq hk
  have h6 : ∀ k : ℕ, k < 64 → rd2 (R1.A6 (C3 m) c) 0 k = rd1 (m ((c.tc : Thread nD τ).loc main_arg10)) k
      + ∑ q ∈ Finset.range 64, rd2 (m ((c.tc : Thread nD τ).loc main_arg2)) 0 q * rd2 (m ((c.tc : Thread nD τ).loc main_arg9)) (192 + q) k :=
    fun k hk => by rw [e6]; exact foldedBias_read _ _ _ k hk
  have h8 : ∀ j : ℕ, j < 64 → rd2 (R1.A8 (C3 m) c) 0 j = rd1 (m ((c.tc : Thread nD τ).loc main_arg12)) j :=
    fun j hj => by rw [e8]; exact row_read _ _ j hj
  have key := mlpArr_of_bands 50000 (R1.A0 (C3 m) c) (R1.A1 (C3 m) c) (R1.A2 (C3 m) c) (m ((c.tc : Thread nD τ).loc main_arg2))
    (m ((c.tc : Thread nD τ).loc main_arg9)) (m ((c.tc : Thread nD τ).loc main_arg10)) (R1.A7 (C3 m) c) (m ((c.tc : Thread nD τ).loc main_arg12))
    (R1.A3 (C3 m) c) (R1.A4 (C3 m) c) (R1.A5 (C3 m) c) (R1.A6 (C3 m) c) (R1.A8 (C3 m) c) h3 h4 h5 h6 h8
  exact key.trans (by rw [e0, e1, e2, e7])

/-- A table given by a function of natural coordinates reads, inside its extents, that function. -/
theorem rd2_fun (N : ℕ) (f : ℕ → ℕ → EReal) (R j : ℕ) (hR : R < N) (hj : j < 64) :
    rd2 (fun i : (⟨2, ![N, 64]⟩ : Shape).Idx => f (i 0).val (i 1).val) R j = f R j := by
  rw [rd2_mk _ R hR j hj]; rfl

/-- The two cores' column sums of region 0 add up to the column sums of the new edge table. -/
theorem sums_edges (j : Fin 64) :
    R0.O10 (C1 m) c (ix2 (0 : Fin 16) j) + R0.O10 (C1 m) c (ix2 (8 : Fin 16) j) = ∑ r ∈ Finset.range 800000, rd2 (KE m c) r j.val := by
  rw [R0.halves10 (C1 m) c j]
  refine Finset.sum_congr rfl fun r hr => ?_
  show _ = rd2 ((R0.dat (C1 m) c).arrAt 9 cfg0.N) r j.val
  rw [R0.final9 (C1 m) c]
  exact (rd2_fun 800000 (R0.P (C1 m) c) r j.val (Finset.mem_range.mp hr) j.isLt).symm

/-- Likewise region 1's, for the new node table. -/
theorem sums_nodes (j : Fin 64) :
    R1.O10 (C3 m) c (ix2 (0 : Fin 16) j) + R1.O10 (C3 m) c (ix2 (8 : Fin 16) j) = ∑ r ∈ Finset.range 50000, rd2 (KN m c) r j.val := by
  rw [R1.halves10 (C3 m) c j]
  refine Finset.sum_congr rfl fun r hr => ?_
  show _ = rd2 ((R1.dat (C3 m) c).arrAt 9 cfg1.N) r j.val
  rw [R1.final9 (C3 m) c]
  exact (rd2_fun 50000 (R1.P (C3 m) c) r j.val (Finset.mem_range.mp hr) j.isLt).symm

/-- The kernel program's three results, in the reference's own terms of the argument arrays. -/
theorem res_edges : V7 m (outs m) c main_v24_0 = KE m c :=
  (v7_main_v24_0 m (outs m) c).trans ((outs_two m main_v24_0 c).trans (W2_arr m c 9))

theorem res_nodes : V7 m (outs m) c main_v60_0 = KN m c :=
  (v7_main_v60_0 m (outs m) c).trans ((outs_four m main_v60_0 c).trans (W4_arr m c 9))

theorem res_globals : V7 m (outs m) c main_v75
    = Cert.RefSpec.gTail (KN m c) (KE m c) (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16)) := by
  have hs1 : W4 m c (Proc.devRef .tc main_v60_1) = R1.O10 (C3 m) c := W4_arr m c 10
  have hs0 : W2 m c (Proc.devRef .tc main_v24_1) = R0.O10 (C1 m) c := W2_arr m c 10
  rw [v7_main_v75 m (outs m) c, outs_four, outs_two, hs1, hs0]
  exact tail_of_sums _ _ (KN m c) (KE m c) _ _ _ _ _ (sums_nodes m c) (sums_edges m c)

/-! ## The same, in the reference's own vocabulary -/

theorem edges_spec : KE m c = (mlpArr 800000 (m ((c.tc : Thread nD τ).loc main_arg1)) (Cert.RefSpec.gatherRows (m ((c.tc : Thread nD τ).loc main_arg0)) (m ((c.tc : Thread nD τ).loc main_arg3))) (Cert.RefSpec.gatherRows (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))) := by
  rw [← gatherRows_eq, ← gatherRows_eq]
  exact edges_eq m c

theorem nodes_spec : KN m c = (mlpArr 50000 (m ((c.tc : Thread nD τ).loc main_arg0)) (Cert.RefSpec.segMean (m ((c.tc : Thread nD τ).loc main_arg3)) (mlpArr 800000 (m ((c.tc : Thread nD τ).loc main_arg1)) (Cert.RefSpec.gatherRows (m ((c.tc : Thread nD τ).loc main_arg0)) (m ((c.tc : Thread nD τ).loc main_arg3))) (Cert.RefSpec.gatherRows (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)))) (Cert.RefSpec.segMean (m ((c.tc : Thread nD τ).loc main_arg4)) (mlpArr 800000 (m ((c.tc : Thread nD τ).loc main_arg1)) (Cert.RefSpec.gatherRows (m ((c.tc : Thread nD τ).loc main_arg0)) (m ((c.tc : Thread nD τ).loc main_arg3))) (Cert.RefSpec.gatherRows (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12))) := by
  rw [← edges_spec m c, ← segMean_eq, ← segMean_eq]
  exact nodes_eq m c

theorem globals_spec : V7 m (outs m) c main_v75
    = Cert.RefSpec.gTail (mlpArr 50000 (m ((c.tc : Thread nD τ).loc main_arg0)) (Cert.RefSpec.segMean (m ((c.tc : Thread nD τ).loc main_arg3)) (mlpArr 800000 (m ((c.tc : Thread nD τ).loc main_arg1)) (Cert.RefSpec.gatherRows (m ((c.tc : Thread nD τ).loc main_arg0)) (m ((c.tc : Thread nD τ).loc main_arg3))) (Cert.RefSpec.gatherRows (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)))) (Cert.RefSpec.segMean (m ((c.tc : Thread nD τ).loc main_arg4)) (mlpArr 800000 (m ((c.tc : Thread nD τ).loc main_arg1)) (Cert.RefSpec.gatherRows (m ((c.tc : Thread nD τ).loc main_arg0)) (m ((c.tc : Thread nD τ).loc main_arg3))) (Cert.RefSpec.gatherRows (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12))) (mlpArr 800000 (m ((c.tc : Thread nD τ).loc main_arg1)) (Cert.RefSpec.gatherRows (m ((c.tc : Thread nD τ).loc main_arg0)) (m ((c.tc : Thread nD τ).loc main_arg3))) (Cert.RefSpec.gatherRows (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16)) := by
  rw [← nodes_spec m c, ← edges_spec m c]
  exact res_globals m c

end Cert.KernelIdeal.Val

end
-- ==== Proof.LibMlpRead.lean ====
/-
  The reference's two-layer perceptron over four 64-wide pieces laid side by side, read entry by entry.

  The reference spells one perceptron as: the four pieces x0 | x1 | x2 | G concatenated along the columns into an N×256
  table, its product with the 256×64 weight W1, plus the bias b1 spread over the rows, cut off below at 0, then the
  product with the 64×64 weight W2 plus the bias b2 spread over the rows. Column 64·p + q of the concatenation is column
  q of piece p, so the contraction over 256 columns is the sum of four contractions over 64 columns, one per piece
  against its band of 64 rows of W1. When every row of the fourth piece G is the one row of a 1×64 table g, its
  contraction is the same for every row and may be added to the bias first: on the extended reals
  ((A + B) + C) + D + b = ((A + B) + C) + (b + D) by associativity and commutativity of addition alone, nothing has to
  be finite. The result is the specification's perceptron over natural-number coordinates.
-/
import Idealize.ShloMosaic.PureOps.Ideal.Laws
import Idealize.ShloMosaic.Lib.ValueIdx
import Idealize.ShloMosaic.Lib.Pipeline.Value
import proofs.«128321_j38912403702319_2_alg».proof.Proof.LibPlainDot
import proofs.«128321_j38912403702319_2_alg».proof.Proof.LibHostBroadcast
import proofs.«128321_j38912403702319_2_alg».proof.Proof.LibDenseStage
import proofs.«128321_j38912403702319_2_alg».proof.Proof.LibAffineStage
import proofs.«128321_j38912403702319_2_alg».proof.Proof.LibMlpSpec

noncomputable section

namespace Cert.RefSpec

open Finset Idealize.ShloMosaic Idealize.ShloMosaic.ValueIdx Cert.NatRead Cert.Spec

/-- A sum over the first 256 naturals is four sums over 64 consecutive naturals each. -/
theorem sum_four (f : ℕ → EReal) :
    ∑ n ∈ range 256, f n
      = ((∑ q ∈ range 64, f q + ∑ q ∈ range 64, f (64 + q)) + ∑ q ∈ range 64, f (128 + q)) + ∑ q ∈ range 64, f (192 + q) := by
  have h1 : ∑ n ∈ range 256, f n = ∑ n ∈ range 192, f n + ∑ q ∈ range 64, f (192 + q) := Finset.sum_range_add f 192 64
  have h2 : ∑ n ∈ range 192, f n = ∑ n ∈ range 128, f n + ∑ q ∈ range 64, f (128 + q) := Finset.sum_range_add f 128 64
  have h3 : ∑ n ∈ range 128, f n = ∑ n ∈ range 64, f n + ∑ q ∈ range 64, f (64 + q) := Finset.sum_range_add f 64 64
  rw [h1, h2, h3]

section Pieces

variable (N : ℕ) (A B C D : FVec Ideal ⟨2, ![N, 64]⟩ .f32)
  (hcat : Shape.Concatenates [(⟨2, ![N, 64]⟩ : Shape), ⟨2, ![N, 64]⟩, ⟨2, ![N, 64]⟩, ⟨2, ![N, 64]⟩] ⟨2, ![N, 256]⟩ (1 : Fin 2))

/-- Four N×64 tables side by side. -/
abbrev cat4 : FVec Ideal ⟨2, ![N, 256]⟩ .f32 :=
  concatenate ⟨2, ![N, 256]⟩ (1 : Fin 2) [⟨⟨2, ![N, 64]⟩, A⟩, ⟨⟨2, ![N, 64]⟩, B⟩, ⟨⟨2, ![N, 64]⟩, C⟩, ⟨⟨2, ![N, 64]⟩, D⟩] hcat

/-- Column q < 64 of the concatenation is column q of the first piece. -/
theorem cat4_rd0 (a q : ℕ) (ha : a < N) (hq : q < 64) : rd2 (cat4 N A B C D hcat) a (q) = rd2 A a q := by
  rw [rd2_mk _ a ha (q) (by omega), rd2_mk A a ha q hq]
  exact concatenate_apply_piece (t := ⟨2, ![N, 256]⟩) (1 : Fin 2)
    [⟨⟨2, ![N, 64]⟩, A⟩, ⟨⟨2, ![N, 64]⟩, B⟩, ⟨⟨2, ![N, 64]⟩, C⟩, ⟨⟨2, ![N, 64]⟩, D⟩] hcat
    (ix2 ⟨a, ha⟩ ⟨q, by omega⟩) 0 (by simp) ⟨2, ![N, 64]⟩ A rfl rfl 0 rfl (ix2 ⟨a, ha⟩ ⟨q, hq⟩)
    (fun b => by
      match b with
      | ⟨0, _⟩ => exact fun _ => rfl
      | ⟨1, _⟩ => exact fun h => absurd (Fin.ext rfl) h)
    (Nat.zero_add _)

/-- Column 64 + q of the concatenation is column q of the second piece. -/
theorem cat4_rd1 (a q : ℕ) (ha : a < N) (hq : q < 64) : rd2 (cat4 N A B C D hcat) a (64 + q) = rd2 B a q := by
  rw [rd2_mk _ a ha (64 + q) (by omega), rd2_mk B a ha q hq]
  exact concatenate_apply_piece (t := ⟨2, ![N, 256]⟩) (1 : Fin 2)
    [⟨⟨2, ![N, 64]⟩, A⟩, ⟨⟨2, ![N, 64]⟩, B⟩, ⟨⟨2, ![N, 64]⟩, C⟩, ⟨⟨2, ![N, 64]⟩, D⟩] hcat
    (ix2 ⟨a, ha⟩ ⟨64 + q, by omega⟩) 1 (by simp) ⟨2, ![N, 64]⟩ B rfl rfl 64 rfl (ix2 ⟨a, ha⟩ ⟨q, hq⟩)
    (fun b => by
      match b with
      | ⟨0, _⟩ => exact fun _ => rfl
      | ⟨1, _⟩ => exact fun h => absurd (Fin.ext rfl) h)
    rfl

/-- Column 128 + q of the concatenation is column q of the third piece. -/
theorem cat4_rd2 (a q : ℕ) (ha : a < N) (hq : q < 64) : rd2 (cat4 N A B C D hcat) a (128 + q) = rd2 C a q := by
  rw [rd2_mk _ a ha (128 + q) (by omega), rd2_mk C a ha q hq]
  exact concatenate_apply_piece (t := ⟨2, ![N, 256]⟩) (1 : Fin 2)
    [⟨⟨2, ![N, 64]⟩, A⟩, ⟨⟨2, ![N, 64]⟩, B⟩, ⟨⟨2, ![N, 64]⟩, C⟩, ⟨⟨2, ![N, 64]⟩, D⟩] hcat
    (ix2 ⟨a, ha⟩ ⟨128 + q, by omega⟩) 2 (by simp) ⟨2, ![N, 64]⟩ C rfl rfl 128 rfl (ix2 ⟨a, ha⟩ ⟨q, hq⟩)
    (fun b => by
      match b with
      | ⟨0, _⟩ => exact fun _ => rfl
      | ⟨1, _⟩ => exact fun h => absurd (Fin.ext rfl) h)
    rfl

/-- Column 192 + q of the concatenation is column q of the fourth piece. -/
theorem cat4_rd3 (a q : ℕ) (ha : a < N) (hq : q < 64) : rd2 (cat4 N A B C D hcat) a (192 + q) = rd2 D a q := by
  rw [rd2_mk _ a ha (192 + q) (by omega), rd2_mk D a ha q hq]
  exact concatenate_apply_piece (t := ⟨2, ![N, 256]⟩) (1 : Fin 2)
    [⟨⟨2, ![N, 64]⟩, A⟩, ⟨⟨2, ![N, 64]⟩, B⟩, ⟨⟨2, ![N, 64]⟩, C⟩, ⟨⟨2, ![N, 64]⟩, D⟩] hcat
    (ix2 ⟨a, ha⟩ ⟨192 + q, by omega⟩) 3 (by simp) ⟨2, ![N, 64]⟩ D rfl rfl 192 rfl (ix2 ⟨a, ha⟩ ⟨q, hq⟩)
    (fun b => by
      match b with
      | ⟨0, _⟩ => exact fun _ => rfl
      | ⟨1, _⟩ => exact fun h => absurd (Fin.ext rfl) h)
    rfl

end Pieces

section Mlp

variable (N : ℕ) (x0 x1 x2 G : FVec Ideal ⟨2, ![N, 64]⟩ .f32) (g : FVec Ideal ⟨2, ![1, 64]⟩ .f32)
  (W1 : FVec Ideal ⟨2, ![256, 64]⟩ .f32) (b1 : FVec Ideal ⟨1, ![64]⟩ .f32)
  (W2 : FVec Ideal ⟨2, ![64, 64]⟩ .f32) (b2 : FVec Ideal ⟨1, ![64]⟩ .f32)
  (hcat : Shape.Concatenates [(⟨2, ![N, 64]⟩ : Shape), ⟨2, ![N, 64]⟩, ⟨2, ![N, 64]⟩, ⟨2, ![N, 64]⟩] ⟨2, ![N, 256]⟩ (1 : Fin 2))

/-- The contraction of a row of the concatenation against a column of W1 is the four pieces' contractions against their
    bands of W1, the fourth piece read in the one row of g. -/
theorem contraction_four (hG : ∀ (a : Fin N) (q : Fin 64), G (ix2 a q) = g (ix2 (0 : Fin 1) q)) (a : Fin N) (k : Fin 64) :
    ∑ k' : Fin 256, cat4 N x0 x1 x2 G hcat (ix2 a k') * W1 (ix2 k' k)
      = ((∑ q ∈ range 64, rd2 x0 a.val q * rd2 W1 q k.val + ∑ q ∈ range 64, rd2 x1 a.val q * rd2 W1 (64 + q) k.val)
          + ∑ q ∈ range 64, rd2 x2 a.val q * rd2 W1 (128 + q) k.val)
        + ∑ q ∈ range 64, rd2 g 0 q * rd2 W1 (192 + q) k.val := by
  have e : ∀ k' : Fin 256, cat4 N x0 x1 x2 G hcat (ix2 a k') * W1 (ix2 k' k)
      = (fun n => rd2 (cat4 N x0 x1 x2 G hcat) a.val n * rd2 W1 n k.val) k'.val := fun k' => by
    show _ = rd2 (cat4 N x0 x1 x2 G hcat) a.val k'.val * rd2 W1 k'.val k.val
    rw [← rd2_ix, ← rd2_ix]
  refine (Finset.sum_congr rfl fun k' _ => e k').trans ((sum_fin 256 (fun n => rd2 (cat4 N x0 x1 x2 G hcat) a.val n * rd2 W1 n k.val)).trans ((sum_four _).trans ?_))
  refine congr (congrArg HAdd.hAdd (congr (congrArg HAdd.hAdd (congr (congrArg HAdd.hAdd ?_) ?_)) ?_)) ?_
  · refine Finset.sum_congr rfl fun q hq => ?_
    rw [cat4_rd0 N x0 x1 x2 G hcat a.val q a.isLt (Finset.mem_range.mp hq)]
  · refine Finset.sum_congr rfl fun q hq => ?_
    rw [cat4_rd1 N x0 x1 x2 G hcat a.val q a.isLt (Finset.mem_range.mp hq)]
  · refine Finset.sum_congr rfl fun q hq => ?_
    rw [cat4_rd2 N x0 x1 x2 G hcat a.val q a.isLt (Finset.mem_range.mp hq)]
  · refine Finset.sum_congr rfl fun q hq => ?_
    have hq' : q < 64 := Finset.mem_range.mp hq
    rw [cat4_rd3 N x0 x1 x2 G hcat a.val q a.isLt hq', rd2_mk G a.val a.isLt q hq', rd2_mk g 0 Nat.one_pos q hq']
    exact congrArg (· * rd2 W1 (192 + q) k.val) (hG ⟨a.val, a.isLt⟩ ⟨q, hq'⟩)

/-- The reference's perceptron is the specification's: entry (a, c) is the second layer over the 64 hidden units, each
    the cut-off of the four contractions plus the bias, the shared piece's contraction moved next to the bias. -/
theorem mlp_read (hG : ∀ (a : Fin N) (q : Fin 64), G (ix2 a q) = g (ix2 (0 : Fin 1) q))
    (hr : (⟨1, ![64]⟩ : Shape).BroadcastsInDim ⟨2, ![1, 64]⟩ (![1] : Fin 1 → Fin 2))
    (hb : (⟨2, ![1, 64]⟩ : Shape).BroadcastsInDim ⟨2, ![N, 64]⟩ (![0, 1] : Fin 2 → Fin 2))
    (h0 : (⟨0, ![]⟩ : Shape).BroadcastsInDim ⟨2, ![N, 64]⟩ (![] : Fin 0 → Fin 2)) :
    addf (Host.dotGeneral (F := Ideal) (DotDims.plain N 64 64) none
        (maximumf (addf (Host.dotGeneral (F := Ideal) (DotDims.plain N 256 64) none (cat4 N x0 x1 x2 G hcat) W1)
            (broadcastInDim ⟨2, ![N, 64]⟩ ![0, 1] hb (broadcastInDim ⟨2, ![1, 64]⟩ ![1] hr b1)))
          (broadcastInDim ⟨2, ![N, 64]⟩ ![] h0 (constant (F := Ideal) ⟨0, ![]⟩ .f32 0x00000000#32))) W2)
      (broadcastInDim ⟨2, ![N, 64]⟩ ![0, 1] hb (broadcastInDim ⟨2, ![1, 64]⟩ ![1] hr b2))
      = mlpArr N x0 x1 x2 g W1 b1 W2 b2 := by
  rw [Cert.LibDenseStage.stage_of_dotGeneral N 256 64 _ W1 _ hb h0, Cert.LibAffineStage.affine_of_dotGeneral N 64 64 _ W2 _ hb]
  funext i
  obtain ⟨a, c, rfl⟩ : ∃ (a : Fin N) (c : Fin 64), i = ix2 a c := ⟨i 0, i 1, eq_ix2 i⟩
  rw [Cert.LibAffineStage.affine_apply, Cert.LibHostBroadcast.vec_to_row]
  show _ = mlp (rd2 x0) (rd2 x1) (rd2 x2) (fun q => rd2 g 0 q) (rd2 W1) (rd1 b1) (rd2 W2) (rd1 b2) a.val c.val
  unfold mlp
  rw [rd1_ix b2 c, ← sum_fin 64 (fun k => Cert.Spec.hidden (rd2 x0) (rd2 x1) (rd2 x2) (fun q => rd2 g 0 q) (rd2 W1) (rd1 b1) a.val k * rd2 W2 k c.val)]
  refine congrArg (· + rd1 b2 c.val) (Finset.sum_congr rfl fun k _ => ?_)
  rw [Cert.LibDenseStage.stage_apply, Cert.LibHostBroadcast.vec_to_row, contraction_four N x0 x1 x2 G g W1 hcat hG a k,
    rd2_ix W2 k c, rd1_ix b1 k]
  unfold Cert.Spec.hidden
  have e : ∀ S D b : EReal, S + D + b = S + (b + D) := fun S D b => by rw [add_assoc, add_comm D b]
  exact congrArg (fun t => max t 0 * rd2 W2 k.val c.val) (e _ _ _)

end Mlp

end Cert.RefSpec

end
-- ==== Proof.RefIsSpec.lean ====
/-
  The reference program's three results are the specification's.

  The reference computes the edge table by one perceptron over the edge rows, the rows of the node table at the senders
  and at the receivers, and the global row; the node table by the same perceptron over the node rows, the per-node means
  of the new edge rows grouped by sender and by receiver, and the global row; and the global row by a last perceptron
  over the column means of the two new tables and the old global row. The first two are instances, at 800000 and at
  50000 rows, of the one reading of the perceptron; the gathered rows, the per-node means and the last perceptron are
  carried whole under their names. In both perceptrons the fourth piece is the global row reshaped to 64 entries and
  spread over the rows, which reads, in every row, the global row itself.
-/
import proofs.«128321_j38912403702319_2_alg».proof.Proof.Gen.ReferenceIdeal.Read
import proofs.«128321_j38912403702319_2_alg».proof.Proof.RefDefs
import proofs.«128321_j38912403702319_2_alg».proof.Proof.LibMlpRead

noncomputable section

namespace Cert.RefSpec

open Cert.ReferenceIdeal Cert.ReferenceIdeal.Gen Cert.ReferenceIdeal.Read Idealize.ShloMosaic Idealize.ShloMosaic.TcCoe
  Idealize.SL.Sem Idealize.ShloMosaic.ValueIdx Cert.Spec

variable (x0 : FVec Ideal S50000x64 .f32) (x1 : FVec Ideal S800000x64 .f32) (x2 : FVec Ideal S1x64 .f32) (x3 : IVec S800000 32) (x4 : IVec S800000 32) (x5 : FVec Ideal S256x64 .f32) (x6 : FVec Ideal S64 .f32) (x7 : FVec Ideal S64x64 .f32) (x8 : FVec Ideal S64 .f32) (x9 : FVec Ideal S256x64 .f32) (x10 : FVec Ideal S64 .f32) (x11 : FVec Ideal S64x64 .f32) (x12 : FVec Ideal S64 .f32) (x13 : FVec Ideal S192x64 .f32) (x14 : FVec Ideal S64 .f32) (x15 : FVec Ideal S64x64 .f32) (x16 : FVec Ideal S64 .f32)

/-- The rows gathered at the senders are the named gather of the node table. -/
theorem gather_senders : val_main_v7 (F := Ideal) x0 x3 = gatherRows x0 x3 := rfl

/-- The rows gathered at the receivers are the same named gather. -/
theorem gather_receivers : val_main_v14 (F := Ideal) x0 x4 = gatherRows x0 x4 := rfl

/-- The global row, reshaped and spread over 800000 rows, reads in every row the global row. -/
theorem globals_over_edges (a : Fin 800000) (q : Fin 64) : val_main_v15 (F := Ideal) x2 (ix2 a q) = x2 (ix2 (0 : Fin 1) q) := by
  rw [val_main_v15_apply, val_main_v0_apply]
  exact congrArg x2 (funext fun d => by
    match d with
    | ⟨0, _⟩ => rfl
    | ⟨1, _⟩ => exact Fin.ext (Nat.mod_eq_of_lt q.isLt))

/-- The global row, reshaped and spread over 50000 rows, reads in every row the global row. -/
theorem globals_over_nodes (a : Fin 50000) (q : Fin 64) : val_main_v50 (F := Ideal) x2 (ix2 a q) = x2 (ix2 (0 : Fin 1) q) := by
  rw [val_main_v50_apply, val_main_v0_apply]
  exact congrArg x2 (funext fun d => by
    match d with
    | ⟨0, _⟩ => rfl
    | ⟨1, _⟩ => exact Fin.ext (Nat.mod_eq_of_lt q.isLt))

/-- The new edge table is the perceptron over the edge rows, the sender rows, the receiver rows and the global row. -/
theorem ref_edges :
    val_main_v25 (F := Ideal) x0 x1 x2 x3 x4 x5 x6 x7 x8 = mlpArr 800000 x1 (gatherRows x0 x3) (gatherRows x0 x4) x2 x5 x6 x7 x8 :=
  mlp_read 800000 x1 (gatherRows x0 x3) (gatherRows x0 x4) (val_main_v15 (F := Ideal) x2) x2 x5 x6 x7 x8
    concatenates_S800000x64_S800000x64_S800000x64_S800000x64_S800000x256_d1 (globals_over_edges x2)
    bcast_S64_S1x64_1 bcast_S1x64_S800000x64_0_1 bcast_S_S800000x64

/-- The sender-side means are the named per-node mean of the new edge table. -/
theorem mean_senders : val_main_v37 (F := Ideal) x0 x1 x2 x3 x4 x5 x6 x7 x8 = segMean x3 (val_main_v25 (F := Ideal) x0 x1 x2 x3 x4 x5 x6 x7 x8) := rfl

/-- The receiver-side means are the same named per-node mean. -/
theorem mean_receivers : val_main_v49 (F := Ideal) x0 x1 x2 x3 x4 x5 x6 x7 x8 = segMean x4 (val_main_v25 (F := Ideal) x0 x1 x2 x3 x4 x5 x6 x7 x8) := rfl

/-- The new node table is the perceptron over the node rows, the two per-node means of the new edge table and the global row. -/
theorem ref_nodes :
    val_main_v60 (F := Ideal) x0 x1 x2 x3 x4 x5 x6 x7 x8 x9 x10 x11 x12
      = mlpArr 50000 x0 (segMean x3 (val_main_v25 (F := Ideal) x0 x1 x2 x3 x4 x5 x6 x7 x8)) (segMean x4 (val_main_v25 (F := Ideal) x0 x1 x2 x3 x4 x5 x6 x7 x8)) x2 x9 x10 x11 x12 :=
  mlp_read 50000 x0 (segMean x3 (val_main_v25 (F := Ideal) x0 x1 x2 x3 x4 x5 x6 x7 x8)) (segMean x4 (val_main_v25 (F := Ideal) x0 x1 x2 x3 x4 x5 x6 x7 x8)) (val_main_v50 (F := Ideal) x2) x2 x9 x10 x11 x12
    concatenates_S50000x64_S50000x64_S50000x64_S50000x64_S50000x256_d1 (globals_over_nodes x2)
    bcast_S64_S1x64_1 bcast_S1x64_S50000x64_0_1 bcast_S_S50000x64

/-- The new global row is the named last perceptron of the new node table, the new edge table and the global row. -/
theorem ref_globals :
    val_main_v76 (F := Ideal) x0 x1 x2 x3 x4 x5 x6 x7 x8 x9 x10 x11 x12 x13 x14 x15 x16 = gTail (val_main_v60 (F := Ideal) x0 x1 x2 x3 x4 x5 x6 x7 x8 x9 x10 x11 x12) (val_main_v25 (F := Ideal) x0 x1 x2 x3 x4 x5 x6 x7 x8) x2 x13 x14 x15 x16 := rfl

/-- The new node table with the new edge table written as the specification's perceptron. -/
theorem ref_nodes_spec :
    val_main_v60 (F := Ideal) x0 x1 x2 x3 x4 x5 x6 x7 x8 x9 x10 x11 x12
      = mlpArr 50000 x0 (segMean x3 (mlpArr 800000 x1 (gatherRows x0 x3) (gatherRows x0 x4) x2 x5 x6 x7 x8)) (segMean x4 (mlpArr 800000 x1 (gatherRows x0 x3) (gatherRows x0 x4) x2 x5 x6 x7 x8)) x2 x9 x10 x11 x12 := by
  rw [← ref_edges x0 x1 x2 x3 x4 x5 x6 x7 x8]
  exact ref_nodes x0 x1 x2 x3 x4 x5 x6 x7 x8 x9 x10 x11 x12

/-- The new global row with both new tables written as the specification's perceptrons. -/
theorem ref_globals_spec :
    val_main_v76 (F := Ideal) x0 x1 x2 x3 x4 x5 x6 x7 x8 x9 x10 x11 x12 x13 x14 x15 x16
      = gTail (mlpArr 50000 x0 (segMean x3 (mlpArr 800000 x1 (gatherRows x0 x3) (gatherRows x0 x4) x2 x5 x6 x7 x8)) (segMean x4 (mlpArr 800000 x1 (gatherRows x0 x3) (gatherRows x0 x4) x2 x5 x6 x7 x8)) x2 x9 x10 x11 x12)
          (mlpArr 800000 x1 (gatherRows x0 x3) (gatherRows x0 x4) x2 x5 x6 x7 x8) x2 x13 x14 x15 x16 := by
  rw [← ref_nodes_spec x0 x1 x2 x3 x4 x5 x6 x7 x8 x9 x10 x11 x12, ← ref_edges x0 x1 x2 x3 x4 x5 x6 x7 x8]
  exact ref_globals x0 x1 x2 x3 x4 x5 x6 x7 x8 x9 x10 x11 x12 x13 x14 x15 x16

section Run

variable (m : (ℓ : Loc nD τ sig) → Buf (Elt Ideal) ℓ) (c : Dev nD)

/-- The edge table the run ends with (the run states it as the composed term that unfolds to this stage, so this equation
    composes with the run's by transitivity), as the specification's perceptron of the arguments' launch contents. -/
theorem run_edges :
    val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      = mlpArr 800000 (m ((c.tc : Thread nD τ).loc main_arg1)) (gatherRows (m ((c.tc : Thread nD τ).loc main_arg0)) (m ((c.tc : Thread nD τ).loc main_arg3))) (gatherRows (m ((c.tc : Thread nD τ).loc main_arg0)) (m ((c.tc : Thread nD τ).loc main_arg4)))
          (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  ref_edges _ _ _ _ _ _ _ _ _

/-- The node table the run ends with, as the specification's perceptron of the arguments' launch contents. -/
theorem run_nodes :
    Cert.ReferenceIdeal.Value.res_main_v60 (F := Ideal) m c
      = mlpArr 50000 (m ((c.tc : Thread nD τ).loc main_arg0))
          (segMean (m ((c.tc : Thread nD τ).loc main_arg3)) (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))
          (segMean (m ((c.tc : Thread nD τ).loc main_arg4)) (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))
          (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) :=
  (val_main_v60_eq m c).trans (ref_nodes _ _ _ _ _ _ _ _ _ _ _ _ _)

/-- The global row the run ends with, as the last perceptron of the run's node table and edge table. -/
theorem run_globals :
    Cert.ReferenceIdeal.Value.res_main_v76 (F := Ideal) m c
      = gTail (Cert.ReferenceIdeal.Value.res_main_v60 (F := Ideal) m c) (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16)) :=
  (val_main_v76_eq m c).trans ((ref_globals _ _ _ _ _ _ _ _ _ _ _ _ _ _ _ _ _).trans
    (congrArg (fun V => gTail V (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16)))
      (val_main_v60_eq m c).symm))

end Run

end Cert.RefSpec

end
-- ==== Proof.Alg.lean ====
/-
  Over the extended reals the kernel program and the reference end with equal results.

  The kernel program's run leaves every buffer at the last contents of its line of segments; its three results there
  are, in the reference's own terms of the argument arrays, the edge perceptron, the node perceptron over the per-node
  means of the new edge table, and the last perceptron over the two tables' column means. The reference's generated
  run leaves its three results at the same three terms of its own argument arrays, which agree with the kernel's.
-/
import proofs.«128321_j38912403702319_2_alg».proof.Defs
import proofs.«128321_j38912403702319_2_alg».proof.Proof.Gen.KernelIdeal
import proofs.«128321_j38912403702319_2_alg».proof.Proof.Gen.ReferenceIdeal
import proofs.«128321_j38912403702319_2_alg».proof.Proof.Gen.Pre_finite_inputs
import proofs.«128321_j38912403702319_2_alg».proof.Proof.KI.Values
import proofs.«128321_j38912403702319_2_alg».proof.Proof.RefIsSpec

noncomputable section

namespace Cert.Alg

open Idealize.ShloMosaic Idealize.ShloMosaic.TcCoe Idealize.SL.Sem Cert.Spec

set_option maxHeartbeats 2000000 in
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.V7 m (Cert.KernelIdeal.Frm.outs m) c Cert.KernelIdeal.main_v60_0,
    fun c => Cert.KernelIdeal.Gen.V7 m (Cert.KernelIdeal.Frm.outs m) c Cert.KernelIdeal.main_v24_0,
    fun c => Cert.KernelIdeal.Gen.V7 m (Cert.KernelIdeal.Frm.outs m) c Cert.KernelIdeal.main_v75, ?_, ?_⟩
  · refine (θ_run Cert.KernelIdeal.defs _ _).mono (fun r h c => ?_) (Cert.KernelIdeal.Frm.run_all (F := Ideal) m ρ)
    exact ⟨h c (Proc.devRef .tc Cert.KernelIdeal.main_v60_0) (Finset.mem_filter.mpr ⟨StableHlo.devRef_mem_tcRefs Cert.KernelIdeal.main_v60_0, by decide⟩), h c (Proc.devRef .tc Cert.KernelIdeal.main_v24_0) (Finset.mem_filter.mpr ⟨StableHlo.devRef_mem_tcRefs Cert.KernelIdeal.main_v24_0, by decide⟩), h c (Proc.devRef .tc Cert.KernelIdeal.main_v75) (Finset.mem_filter.mpr ⟨StableHlo.devRef_mem_tcRefs Cert.KernelIdeal.main_v75, by decide⟩),
      (h c (Proc.devRef .tc Cert.KernelIdeal.main_arg0) (Finset.mem_filter.mpr ⟨StableHlo.devRef_mem_tcRefs Cert.KernelIdeal.main_arg0, by decide⟩)).trans (Cert.KernelIdeal.Gen.V7_main_arg0 m (Cert.KernelIdeal.Frm.outs m) c),
      (h c (Proc.devRef .tc Cert.KernelIdeal.main_arg1) (Finset.mem_filter.mpr ⟨StableHlo.devRef_mem_tcRefs Cert.KernelIdeal.main_arg1, by decide⟩)).trans (Cert.KernelIdeal.Gen.V7_main_arg1 m (Cert.KernelIdeal.Frm.outs m) c),
      (h c (Proc.devRef .tc Cert.KernelIdeal.main_arg2) (Finset.mem_filter.mpr ⟨StableHlo.devRef_mem_tcRefs Cert.KernelIdeal.main_arg2, by decide⟩)).trans (Cert.KernelIdeal.Gen.V7_main_arg2 m (Cert.KernelIdeal.Frm.outs m) c),
      (h c (Proc.devRef .tc Cert.KernelIdeal.main_arg3) (Finset.mem_filter.mpr ⟨StableHlo.devRef_mem_tcRefs Cert.KernelIdeal.main_arg3, by decide⟩)).trans (Cert.KernelIdeal.Gen.V7_main_arg3 m (Cert.KernelIdeal.Frm.outs m) c),
      (h c (Proc.devRef .tc Cert.KernelIdeal.main_arg4) (Finset.mem_filter.mpr ⟨StableHlo.devRef_mem_tcRefs Cert.KernelIdeal.main_arg4, by decide⟩)).trans (Cert.KernelIdeal.Gen.V7_main_arg4 m (Cert.KernelIdeal.Frm.outs m) c),
      (h c (Proc.devRef .tc Cert.KernelIdeal.main_arg5) (Finset.mem_filter.mpr ⟨StableHlo.devRef_mem_tcRefs Cert.KernelIdeal.main_arg5, by decide⟩)).trans (Cert.KernelIdeal.Gen.V7_main_arg5 m (Cert.KernelIdeal.Frm.outs m) c),
      (h c (Proc.devRef .tc Cert.KernelIdeal.main_arg6) (Finset.mem_filter.mpr ⟨StableHlo.devRef_mem_tcRefs Cert.KernelIdeal.main_arg6, by decide⟩)).trans (Cert.KernelIdeal.Gen.V7_main_arg6 m (Cert.KernelIdeal.Frm.outs m) c),
      (h c (Proc.devRef .tc Cert.KernelIdeal.main_arg7) (Finset.mem_filter.mpr ⟨StableHlo.devRef_mem_tcRefs Cert.KernelIdeal.main_arg7, by decide⟩)).trans (Cert.KernelIdeal.Gen.V7_main_arg7 m (Cert.KernelIdeal.Frm.outs m) c),
      (h c (Proc.devRef .tc Cert.KernelIdeal.main_arg8) (Finset.mem_filter.mpr ⟨StableHlo.devRef_mem_tcRefs Cert.KernelIdeal.main_arg8, by decide⟩)).trans (Cert.KernelIdeal.Gen.V7_main_arg8 m (Cert.KernelIdeal.Frm.outs m) c),
      (h c (Proc.devRef .tc Cert.KernelIdeal.main_arg9) (Finset.mem_filter.mpr ⟨StableHlo.devRef_mem_tcRefs Cert.KernelIdeal.main_arg9, by decide⟩)).trans (Cert.KernelIdeal.Gen.V7_main_arg9 m (Cert.KernelIdeal.Frm.outs m) c),
      (h c (Proc.devRef .tc Cert.KernelIdeal.main_arg10) (Finset.mem_filter.mpr ⟨StableHlo.devRef_mem_tcRefs Cert.KernelIdeal.main_arg10, by decide⟩)).trans (Cert.KernelIdeal.Gen.V7_main_arg10 m (Cert.KernelIdeal.Frm.outs m) c),
      (h c (Proc.devRef .tc Cert.KernelIdeal.main_arg11) (Finset.mem_filter.mpr ⟨StableHlo.devRef_mem_tcRefs Cert.KernelIdeal.main_arg11, by decide⟩)).trans (Cert.KernelIdeal.Gen.V7_main_arg11 m (Cert.KernelIdeal.Frm.outs m) c),
      (h c (Proc.devRef .tc Cert.KernelIdeal.main_arg12) (Finset.mem_filter.mpr ⟨StableHlo.devRef_mem_tcRefs Cert.KernelIdeal.main_arg12, by decide⟩)).trans (Cert.KernelIdeal.Gen.V7_main_arg12 m (Cert.KernelIdeal.Frm.outs m) c),
      (h c (Proc.devRef .tc Cert.KernelIdeal.main_arg13) (Finset.mem_filter.mpr ⟨StableHlo.devRef_mem_tcRefs Cert.KernelIdeal.main_arg13, by decide⟩)).trans (Cert.KernelIdeal.Gen.V7_main_arg13 m (Cert.KernelIdeal.Frm.outs m) c),
      (h c (Proc.devRef .tc Cert.KernelIdeal.main_arg14) (Finset.mem_filter.mpr ⟨StableHlo.devRef_mem_tcRefs Cert.KernelIdeal.main_arg14, by decide⟩)).trans (Cert.KernelIdeal.Gen.V7_main_arg14 m (Cert.KernelIdeal.Frm.outs m) c),
      (h c (Proc.devRef .tc Cert.KernelIdeal.main_arg15) (Finset.mem_filter.mpr ⟨StableHlo.devRef_mem_tcRefs Cert.KernelIdeal.main_arg15, by decide⟩)).trans (Cert.KernelIdeal.Gen.V7_main_arg15 m (Cert.KernelIdeal.Frm.outs m) c),
      (h c (Proc.devRef .tc Cert.KernelIdeal.main_arg16) (Finset.mem_filter.mpr ⟨StableHlo.devRef_mem_tcRefs Cert.KernelIdeal.main_arg16, by decide⟩)).trans (Cert.KernelIdeal.Gen.V7_main_arg16 m (Cert.KernelIdeal.Frm.outs m) c)⟩
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14, g15, g16⟩ := hagree c
    refine ⟨(h c).1.trans ((Cert.RefSpec.run_nodes m' c).trans ?_), (h c).2.1.trans ((Cert.RefSpec.run_edges m' c).trans ?_),
      (h c).2.2.1.trans ((Cert.RefSpec.run_globals m' c).trans ?_), (h c).2.2.2⟩
    · beta_reduce
      rw [Cert.RefSpec.run_edges m' c, Cert.KernelIdeal.Val.res_nodes m c, Cert.KernelIdeal.Val.nodes_spec m c,
        ← g0, ← g1, ← g2, ← g3, ← g4, ← g5, ← g6, ← g7, ← g8, ← g9, ← g10, ← g11, ← g12]
    · beta_reduce
      rw [Cert.KernelIdeal.Val.res_edges m c, Cert.KernelIdeal.Val.edges_spec m c,
        ← g0, ← g1, ← g2, ← g3, ← g4, ← g5, ← g6, ← g7, ← g8]
    · beta_reduce
      rw [Cert.RefSpec.run_nodes m' c, Cert.RefSpec.run_edges m' c, Cert.KernelIdeal.Val.globals_spec m c,
        ← g0, ← g1, ← g2, ← g3, ← g4, ← g5, ← g6, ← g7, ← g8, ← g9, ← g10, ← g11, ← g12, ← g13, ← g14, ← g15, ← g16]

end Cert.Alg

end
-- ==== Proof.lean ====
/-
  The certificate of a graph-network layer: a kernel that computes the edge and node perceptrons tile by tile in two
  pipelined regions (with per-core column sums for the global means) against the plain reference.

  The three frames: the kernel program (at the word level and idealized) is a line of host operations and two regions,
  each region a segment whose exit contents are named (Proof/K/Regions.lean, Proof/KI/Regions.lean); the reference is a
  line of host operations, its generated run with the results dropped. The idealization rewrote nothing. Over the
  extended reals both programs compute the same three results (Proof/Alg.lean).
-/
import proofs.«128321_j38912403702319_2_alg».proof.Defs
import proofs.«128321_j38912403702319_2_alg».proof.Proof.Gen.Kernel
import proofs.«128321_j38912403702319_2_alg».proof.Proof.Gen.KernelIdeal
import proofs.«128321_j38912403702319_2_alg».proof.Proof.Gen.ReferenceIdeal
import proofs.«128321_j38912403702319_2_alg».proof.Proof.Gen.Pre_finite_inputs
import proofs.«128321_j38912403702319_2_alg».proof.Proof.Gen.ReferenceIdeal.Run
import proofs.«128321_j38912403702319_2_alg».proof.Proof.K.Regions
import proofs.«128321_j38912403702319_2_alg».proof.Proof.KI.Regions
import proofs.«128321_j38912403702319_2_alg».proof.Proof.Alg

noncomputable section

namespace Cert.Proof

open Idealize.ShloMosaic Idealize.SL.Sem

theorem frame_k : @Cert.frame_Kernel Cert.Kernel.Gen.facts Cert.Pre_finite_inputs.Gen.facts :=
  fun m ρ _ => Cert.Kernel.Frm.frame m ρ

theorem frame_ki : @Cert.frame_KernelIdeal Cert.KernelIdeal.Gen.facts Cert.Pre_finite_inputs.Gen.facts :=
  fun m ρ _ => Cert.KernelIdeal.Frm.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Alg.algebraic⟩

end Cert.Proof

end
